-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S_ : Shape := ⟨0, ![]⟩

class Facts : Prop where
  bcast_S_S4096x20480 : S_.BroadcastsInDim S4096x20480 (![] : Fin 0 → Fin S4096x20480.rank)
  reducesTo_S4096x20480_S_d0_1 : S4096x20480.ReducesTo [0, 1] S_
  h_S_ : 0 < S_.numel
  bcast_S_S2x20480 : S_.BroadcastsInDim S2x20480 (![] : Fin 0 → Fin S2x20480.rank)
  reducesTo_S2x20480_S_d0_1 : S2x20480.ReducesTo [0, 1] S_
  bcast_S_S128x20480 : S_.BroadcastsInDim S128x20480 (![] : Fin 0 → Fin S128x20480.rank)
  reducesTo_S128x20480_S_d0_1 : S128x20480.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S128 .f32) (main_arg5 : FVec F S2x128 .f32) (main_v13 : IVec S_ 1) (main_v16 : IVec S128x20480 1) : IVec S_ 1 :=
  let main_c_5 : IVec S_ 1 := constantI S_ 1 1#1
  let main_v17 : IVec S_ 1 := (fun x v => Host.reduce IntOp.andi x v reducesTo_S128x20480_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S4096x20480 .f32) (main_arg1 : FVec F S4096x20480 .f32) (main_arg2 : FVec F S2x20480 .f32) (main_arg3 : FVec F S128x20480 .f32) (main_arg4 : FVec F S128 .f32) (main_arg5 : FVec F S2x128 .f32) : IVec S_ 1 :=
  let main_v0 : FVec F S4096x20480 .f32 := Host.absf main_arg0
  let main_cst : FVec F S_ .f32 := constant S_ .f32 0x7F800000#32
  let main_v1 : FVec F S4096x20480 .f32 := broadcastInDim S4096x20480 ![] bcast_S_S4096x20480 main_cst
  let main_v2 : IVec S4096x20480 1 := cmpf .olt main_v0 main_v1
  let main_c : IVec S_ 1 := constantI S_ 1 1#1
  let main_v3 : IVec S_ 1 := (fun x v => Host.reduce IntOp.andi x v reducesTo_S4096x20480_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S2x20480 .f32 := Host.absf main_arg2
  let main_cst_2 : FVec F S_ .f32 := constant S_ .f32 0x7F800000#32
  let main_v10 : FVec F S2x20480 .f32 := broadcastInDim S2x20480 ![] bcast_S_S2x20480 main_cst_2
  let main_v11 : IVec S2x20480 1 := cmpf .olt main_v9 main_v10
  let main_c_3 : IVec S_ 1 := constantI S_ 1 1#1
  let main_v12 : IVec S_ 1 := (fun x v => Host.reduce IntOp.andi x v reducesTo_S2x20480_S_d0_1 h_S_) main_v11 main_c_3
  let main_v13 : IVec S_ 1 := andi main_v8 main_v12
  let main_v14 : FVec F S128x20480 .f32 := Host.absf main_arg3
  let main_cst_4 : FVec F S_ .f32 := constant S_ .f32 0x7F800000#32
  let main_v15 : FVec F S128x20480 .f32 := broadcastInDim S128x20480 ![] bcast_S_S128x20480 main_cst_4
  let main_v16 : IVec S128x20480 1 := cmpf .olt main_v14 main_v15
  fn_part1 (F := F) main_arg4 main_arg5 main_v13 main_v16
-- ==== Kernel.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S130x20480 : Shape := ⟨2, ![130, 20480]⟩
abbrev S_ : Shape := ⟨0, ![]⟩
abbrev S256x20480 : Shape := ⟨2, ![256, 20480]⟩
abbrev S1x128 : Shape := ⟨2, ![1, 128]⟩
abbrev S1x256 : Shape := ⟨2, ![1, 256]⟩
abbrev S128x2 : Shape := ⟨2, ![128, 2]⟩
abbrev S256x2 : Shape := ⟨2, ![256, 2]⟩
abbrev S2x2 : Shape := ⟨2, ![2, 2]⟩
abbrev S4096x2 : Shape := ⟨2, ![4096, 2]⟩
abbrev S1024x1024 : Shape := ⟨2, ![1024, 1024]⟩
abbrev S1024x2 : Shape := ⟨2, ![1024, 2]⟩
abbrev S1024x256 : Shape := ⟨2, ![1024, 256]⟩
abbrev S256x1024 : Shape := ⟨2, ![256, 1024]⟩

abbrev nBuf : Space → Nat
  | .hbm => 32
  | .vmem => 18
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S130x20480, .f32⟩
  | .hbm, ⟨7, _⟩ => ⟨S_, .i32⟩
  | .hbm, ⟨8, _⟩ => ⟨S_, .f32⟩
  | .hbm, ⟨9, _⟩ => ⟨S256x20480, .f32⟩
  | .hbm, ⟨10, _⟩ => ⟨S256x20480, .bf16⟩
  | .hbm, ⟨11, _⟩ => ⟨S1x128, .f32⟩
  | .hbm, ⟨12, _⟩ => ⟨S_, .i32⟩
  | .hbm, ⟨13, _⟩ => ⟨S_, .f32⟩
  | .hbm, ⟨14, _⟩ => ⟨S1x256, .f32⟩
  | .hbm, ⟨15, _⟩ => ⟨S128x2, .f32⟩
  | .hbm, ⟨16, _⟩ => ⟨S_, .i32⟩
  | .hbm, ⟨17, _⟩ => ⟨S_, .f32⟩
  | .hbm, ⟨18, _⟩ => ⟨S256x2, .f32⟩
  | .hbm, ⟨19, _⟩ => ⟨S2x2, .i32⟩
  | .hbm, ⟨20, _⟩ => ⟨S2x2, .i32⟩
  | .hbm, ⟨21, _⟩ => ⟨S_, .i32⟩
  | .hbm, ⟨22, _⟩ => ⟨S2x2, .i32⟩
  | .hbm, ⟨23, _⟩ => ⟨S2x2, .i32⟩
  | .hbm, ⟨24, _⟩ => ⟨S2x2, .i1⟩
  | .hbm, ⟨25, _⟩ => ⟨S2x2, .f32⟩
  | .hbm, ⟨26, _⟩ => ⟨S_, .i32⟩
  | .hbm, ⟨27, _⟩ => ⟨S_, .f32⟩
  | .hbm, ⟨28, _⟩ => ⟨S256x2, .f32⟩
  | .hbm, ⟨29, _⟩ => ⟨S4096x2, .f32⟩
  | .hbm, ⟨30, _⟩ => ⟨S4096x2, .f32⟩
  | .hbm, ⟨31, _⟩ => ⟨S4096x2, .f32⟩
  | .local _ .vmem, ⟨0, _⟩ => ⟨S1024x1024, .f32⟩
  | .local _ .vmem, ⟨1, _⟩ => ⟨S1024x1024, .f32⟩
  | .local _ .vmem, ⟨2, _⟩ => ⟨S256x20480, .bf16⟩
  | .local _ .vmem, ⟨3, _⟩ => ⟨S1x256, .f32⟩
  | .local _ .vmem, ⟨4, _⟩ => ⟨S256x2, .f32⟩
  | .local _ .vmem, ⟨5, _⟩ => ⟨S256x2, .f32⟩
  | .local _ .vmem, ⟨6, _⟩ => ⟨S1024x2, .f32⟩
  | .local _ .vmem, ⟨7, _⟩ => ⟨S1024x2, .f32⟩
  | .local _ .vmem, ⟨8, _⟩ => ⟨S1024x256, .f32⟩
  | .local _ .vmem, ⟨9, _⟩ => ⟨S1024x1024, .f32⟩
  | .local _ .vmem, ⟨10, _⟩ => ⟨S1024x1024, .f32⟩
  | .local _ .vmem, ⟨11, _⟩ => ⟨S256x20480, .bf16⟩
  | .local _ .vmem, ⟨12, _⟩ => ⟨S1x256, .f32⟩
  | .local _ .vmem, ⟨13, _⟩ => ⟨S256x2, .f32⟩
  | .local _ .vmem, ⟨14, _⟩ => ⟨S256x2, .f32⟩
  | .local _ .vmem, ⟨15, _⟩ => ⟨S1024x2, .f32⟩
  | .local _ .vmem, ⟨16, _⟩ => ⟨S1024x2, .f32⟩
  | .local _ .vmem, ⟨17, _⟩ => ⟨S1024x256, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_call3_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![4, 20], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c19_i32 : BitVec 32 := 19#32
  let v16 : BitVec 1 := Scalar.cmpi .eq arg1 c19_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x20480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 20], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond2 (i : grid1.Coords) : BitVec 1 :=
  let arg1 : BitVec 32 := BitVec.ofNat 32 (i 1).val
  let c19_i32 : BitVec 32 := 19#32
  let v16 : BitVec 1 := Scalar.cmpi .eq arg1 c19_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x20480 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  concatenates_S2x20480_S128x20480_S130x20480_d0 : Shape.Concatenates [S2x20480, S128x20480] S130x20480 0
  pads_S130x20480_S256x20480_01260_000 : S130x20480.Pads (![0, 0] : Fin 2 → Nat) ![126, 0] ![0, 0] S256x20480
  h_S_ : 0 < S_.numel
  bitsLt_bf16_f32 : FTy.bits .bf16 < FTy.bits .f32
  bcast_S128_S1x128_1 : S128.BroadcastsInDim S1x128 (![1] : Fin 1 → Fin S1x128.rank)
  pads_S1x128_S1x256_000_21260 : S1x128.Pads (![0, 2] : Fin 2 → Nat) ![0, 126] ![0, 0] S1x256
  transposes_S2x128_S128x2_1_0 : S2x128.Transposes [1, 0] S128x2
  pads_S128x2_S256x2_21260_000 : S128x2.Pads (![2, 0] : Fin 2 → Nat) ![126, 0] ![0, 0] S256x2
  bcast_S_S2x2 : S_.BroadcastsInDim S2x2 (![] : Fin 0 → Fin S2x2.rank)
  pads_S2x2_S256x2_02540_000 : S2x2.Pads (![0, 0] : Fin 2 → Nat) ![254, 0] ![0, 0] S256x2
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1024x2_S1024x2_0_0 : ∀ a, (![0, 0] : Fin 2 → Nat) a + S1024x2.size a ≤ S1024x2.size a
  h_S1024x2 : 0 < S1024x2.numel
  dot_S1024x1024_S256x1024_S1024x256_1_1_0_0_n_n_wf : DotDims.WF S1024x1024 S256x1024 S1024x256 [1] [1] [0] [0] [] []
  dot_S1024x256_S256x2_S1024x2_1_0_0_1_n_n_wf : DotDims.WF S1024x256 S256x2 S1024x2 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x20480.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x20480.size a
  hwx0_0 : ∀ i : grid0.Coords, EltTy.bits .f32 = 32 ∨ (Rect.block (s := S4096x20480) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x20480.size a ≤ S256x20480.size a
  hwx0_1 : ∀ i : grid0.Coords, EltTy.bits .bf16 = 32 ∨ (Rect.block (s := S256x20480) S256x20480.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2.size a ≤ S256x2.size a
  hwx0_4 : ∀ i : grid0.Coords, EltTy.bits .f32 = 32 ∨ (Rect.block (s := S256x2) S256x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2.size a ≤ S4096x2.size a
  hwx0_5 : ∀ i : grid0.Coords, EltTy.bits .f32 = 32 ∨ (Rect.block (s := S4096x2) S1024x2.size (cc0_transform_5 i) (hinb0_5 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S256x1024.size a ≤ S256x20480.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x20480.size a
  hwx1_0 : ∀ i : grid1.Coords, EltTy.bits .f32 = 32 ∨ (Rect.block (s := S4096x20480) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x20480.size a ≤ S256x20480.size a
  hwx1_1 : ∀ i : grid1.Coords, EltTy.bits .bf16 = 32 ∨ (Rect.block (s := S256x20480) S256x20480.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2.size a ≤ S256x2.size a
  hwx1_4 : ∀ i : grid1.Coords, EltTy.bits .f32 = 32 ∨ (Rect.block (s := S256x2) S256x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2.size a ≤ S4096x2.size a
  hwx1_5 : ∀ i : grid1.Coords, EltTy.bits .f32 = 32 ∨ (Rect.block (s := S4096x2) S1024x2.size (cc1_transform_5 i) (hinb1_5 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x20480.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x20480.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1024x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S4096x2 : Shape := ⟨2, ![4096, 2]⟩
abbrev S4096x128 : Shape := ⟨2, ![4096, 128]⟩
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S4096x2, .f32⟩
  | .hbm, ⟨7, _⟩ => ⟨S4096x2, .f32⟩
  | .hbm, ⟨8, _⟩ => ⟨S4096x2, .f32⟩
  | .hbm, ⟨9, _⟩ => ⟨S4096x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x2, .f32⟩
  | .hbm, ⟨34, _⟩ => ⟨S4096x2, .f32⟩
  | .hbm, ⟨35, _⟩ => ⟨S4096x2, .f32⟩
  | .hbm, ⟨36, _⟩ => ⟨S4096x2, .f32⟩
  | _, _ => ⟨S4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x20480_S2x20480_S4096x2_1_1_0_0_n_n_wf : DotDims.WF S4096x20480 S2x20480 S4096x2 [1] [1] [0] [0] [] []
  dot_S4096x20480_S128x20480_S4096x128_1_1_0_0_n_n_wf : DotDims.WF S4096x20480 S128x20480 S4096x128 [1] [1] [0] [0] [] []
  dot_S4096x128_S2x128_S4096x2_1_1_0_0_n_n_wf : DotDims.WF S4096x128 S2x128 S4096x2 [1] [1] [0] [0] [] []

variable [Facts₀]

def dot_S4096x20480_S2x20480_S4096x2_1_1_0_0_n_n : DotDims S4096x20480 S2x20480 S4096x2 where
  lhsContracting := [1]
  rhsContracting := [1]
  lhsNonContracting := [0]
  rhsNonContracting := [0]
  lhsBatch := []
  rhsBatch := []
  wf := dot_S4096x20480_S2x20480_S4096x2_1_1_0_0_n_n_wf
def dot_S4096x20480_S128x20480_S4096x128_1_1_0_0_n_n : DotDims S4096x20480 S128x20480 S4096x128 where
  lhsContracting := [1]
  rhsContracting := [1]
  lhsNonContracting := [0]
  rhsNonContracting := [0]
  lhsBatch := []
  rhsBatch := []
  wf := dot_S4096x20480_S128x20480_S4096x128_1_1_0_0_n_n_wf
def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf

class Facts : Prop extends Facts₀ where

variable [Facts]
-- ==== Proof.KB.R0Runs.lean ====
/-
  Region 0 of the program (one launch of the accumulator kernel on a 4 x 20 grid: 4 batch tiles of 1024 rows,
  20 feature tiles of 1024 columns), stated at a PARAMETER V: what the core's buffers hold when the region is
  entered. What the three cases of the kernel body share.

  A grid point t has coordinates (t / 20, t % 20). The body zeroes its accumulator scratch when the feature tile
  is the first (t % 20 = 0), adds one tile's matrix product to it at every point, and when the feature tile is
  the last (t % 20 = 19) computes the two output columns from the accumulator and stores them in the output
  block. So a point is in one of three cases: A (first tile: reset, then accumulate), B (a middle tile:
  accumulate), C (last tile: accumulate, then emit). The output window is idle (neither stored nor written
  back) in cases A and B.
-/
import proofs.«126539_j28192165331581_2_alg».proof.Proof.Gen.Kernel.Launch
import proofs.«126539_j28192165331581_2_alg».proof.Proof.Gen.Kernel.Skeleton
import proofs.«126539_j28192165331581_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or not
    (an unfetched window's block index has not moved), for any proof data whose array is V's and whose body
    leaves the block in place. Windows 0 to 4 are the inputs. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The feature tile is the first": the condition of the reset. -/
abbrev cond_0 (i : grid0.Coords) : Prop := (Scalar.cmpi .ne (Scalar.extui (Scalar.cmpi .eq (BitVec.ofNat 32 (i 1).val) 0#32)) 0#32) = 1#1
/-- It holds at the points whose number is 0 modulo 20. -/
theorem hcond_0 : ∀ t : Fin cfg0.N, cond_0 (grid0.coords t) ↔ t.val % 20 = 0 :=
  (by decide +kernel : ∀ t : Fin grid0.N, cond_0 (grid0.coords t) ↔ t.val % 20 = 0)

/-- "The feature tile is the last": the condition of the emission. -/
abbrev cond_1 (i : grid0.Coords) : Prop := k0_cond2 i = 1#1
/-- It holds at the points whose number is 19 modulo 20. -/
theorem hcond_1 : ∀ t : Fin cfg0.N, cond_1 (grid0.coords t) ↔ t.val % 20 = 19 :=
  (by decide +kernel : ∀ t : Fin grid0.N, cond_1 (grid0.coords t) ↔ t.val % 20 = 19)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
/-- Where the emission does not happen the output window is idle and is not written back. -/
theorem idleAt_5 : ∀ t : Fin cfg0.N, ¬cond_1 (grid0.coords t) → cfg0.idle 5 (grid0.coords t) = true := by decide +kernel
theorem noFlush_5 : ∀ t : Fin cfg0.N, ¬cond_1 (grid0.coords t) → (cfg0.win 5).flush t = false := by decide +kernel
/-- Where it happens the output window is live. -/
theorem liveAt_5 : ∀ t : Fin cfg0.N, cond_1 (grid0.coords t) → cfg0.idle 5 (grid0.coords t) = false := by decide +kernel

/-! ## The memrefs the body is called with -/

/-- One staging buffer of the output window, through which its contents are stated. -/
abbrev VO : View sig .tc .vmem S1024x2 .f32 := (Memref.whole cc0_stg5_0 : Memref sig .tc .vmem S1024x2 .f32).view
abbrev ms_0 (t : Fin cfg0.N) : Memref sig .tc .vmem S1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x20480 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x2 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S256x2 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x2 .f32 := win0_5.stage (cfg0.slots t 5)
abbrev hs_5 (t : Fin cfg0.N) : (ms_5 t).IsWhole := hstage0_5 ((cfg0.slots t 5).cast nbuf0_5)
/-- The accumulator scratch: a whole scoped buffer of the kernel's own. -/
abbrev scM : Memref sig .tc .vmem S1024x256 .f32 := Memref.whole cc0_scratch0
abbrev VS : View sig .tc .vmem S1024x256 .f32 := (scM).view

end Cert.Kernel.R0

end
-- ==== Proof.KB.R0RunA.lean ====
/-
  Region 0, case A (first feature tile: the scratch is reset, then one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, fun xi5 E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R0

end
-- ==== Proof.KB.R0RunB.lean ====
/-
  Region 0, case B (a middle feature tile: one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, fun xi5 E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R0

end
-- ==== Proof.KB.R0RunC.lean ====
/-
  Region 0, case C (last feature tile: one tile is accumulated, then the two output columns are computed from the accumulator and stored).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    Σ' (L5 : List (View.Piece (Elt F) S1024x2 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, ?_, fun E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R0

end
-- ==== Proof.KB.R0Frame.lean ====
/-
  Region 0: what the accumulator scratch and the output block hold after each grid point, the proof data of the
  pipeline, and the body obligation at every point.

  After point t the scratch holds: in case A the pieces of the reset followed by one accumulation; in cases B and
  C the pieces of one accumulation over what point t - 1 left (the scratch is scoped to the kernel, nothing else
  touches it between two points). The output block is stored in case C only, from the accumulator; in cases A and
  B the window is idle and its buffer is handed back as found. The region invariant before point n > 0 is "the
  scratch holds what point n - 1 left, the other scoped buffers hold anything, the generator register is at some
  state"; before the first point it is the same with the scratch at anything.
-/
import proofs.«126539_j28192165331581_2_alg».proof.Proof.KB.R0RunA
import proofs.«126539_j28192165331581_2_alg».proof.Proof.KB.R0RunB
import proofs.«126539_j28192165331581_2_alg».proof.Proof.KB.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scover_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) (y : S1024x256.Idx) :
    ∃ pc ∈ (kernelRun_A c i arg2 harg2 arg3 harg3 arg4 harg4 arg5 harg5 arg6 harg6 arg7 harg7 arg8 harg8 hc0 hc1 x0 x1 x2 x3 x4).1, y ∈ pc.1.set :=
  View.cover_of_tiledL (kernelRun_A c i arg2 harg2 arg3 harg3 arg4 harg4 arg5 harg5 arg6 harg6 arg7 harg7 arg8 harg8 hc0 hc1 x0 x1 x2 x3 x4).1 S1024x256.size (by sl_kernel_rfl) y

/-- What case A leaves in the scratch: its pieces read back. -/
def sout_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) : Vec F S1024x256 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).1)

theorem scover_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_B c i arg2 harg2 arg3 harg3 arg4 harg4 arg5 harg5 arg6 harg6 arg7 harg7 arg8 harg8 hc0 hc1 x0 x1 x2 x3 x4 xs).1, y ∈ pc.1.set :=
  View.cover_of_tiledL (kernelRun_B c i arg2 harg2 arg3 harg3 arg4 harg4 arg5 harg5 arg6 harg6 arg7 harg7 arg8 harg8 hc0 hc1 x0 x1 x2 x3 x4 xs).1 S1024x256.size (by sl_kernel_rfl) y

/-- What case B leaves in the scratch. -/
def sout_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs).1)

theorem cover_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x2.Idx) :
    ∃ pc ∈ (kernelRun_C c i arg2 harg2 arg3 harg3 arg4 harg4 arg5 harg5 arg6 harg6 arg7 harg7 arg8 harg8 hc0 hc1 x0 x1 x2 x3 x4 xs).1, y ∈ pc.1.set :=
  View.cover_of_tiledL (kernelRun_C c i arg2 harg2 arg3 harg3 arg4 harg4 arg5 harg5 arg6 harg6 arg7 harg7 arg8 harg8 hc0 hc1 x0 x1 x2 x3 x4 xs).1 S1024x2.size (by sl_kernel_rfl) y

/-- What case C leaves in the output block. -/
def out_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x2 .f32 :=
  VO.read (Elt F) (VO.writes (Elt F) VO.junk (kernelRun_C c i arg2 harg2 arg3 harg3 arg4 harg4 arg5 harg5 arg6 harg6 arg7 harg7 arg8 harg8 hc0 hc1 x0 x1 x2 x3 x4 xs).1)

theorem scover_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_C c i arg2 harg2 arg3 harg3 arg4 harg4 arg5 harg5 arg6 harg6 arg7 harg7 arg8 harg8 hc0 hc1 x0 x1 x2 x3 x4 xs).2.1, y ∈ pc.1.set :=
  View.cover_of_tiledL (kernelRun_C c i arg2 harg2 arg3 harg3 arg4 harg4 arg5 harg5 arg6 harg6 arg7 harg7 arg8 harg8 hc0 hc1 x0 x1 x2 x3 x4 xs).2.1 S1024x256.size (by sl_kernel_rfl) y

/-- What case C leaves in the scratch. -/
def sout_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs).2.1)

/-! ## The cases at a grid point: its memrefs, its input blocks -/

def soutA_at (c : Dev nD) (t : Fin cfg0.N) (hc0 : cond_0 (grid0.coords t)) (hc1 : ¬cond_1 (grid0.coords t)) : Vec F S1024x256 .f32 :=
  sout_A c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)
def soutB_at (c : Dev nD) (t : Fin cfg0.N) (hc0 : ¬cond_0 (grid0.coords t)) (hc1 : ¬cond_1 (grid0.coords t)) (xs : Vec F S1024x256 .f32) : Vec F S1024x256 .f32 :=
  sout_B c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def soutC_at (c : Dev nD) (t : Fin cfg0.N) (hc0 : ¬cond_0 (grid0.coords t)) (hc1 : cond_1 (grid0.coords t)) (xs : Vec F S1024x256 .f32) : Vec F S1024x256 .f32 :=
  sout_C c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def outC_at (c : Dev nD) (t : Fin cfg0.N) (hc0 : ¬cond_0 (grid0.coords t)) (hc1 : cond_1 (grid0.coords t)) (xs : Vec F S1024x256 .f32) : Vec F S1024x2 .f32 :=
  out_C c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-- The output component at a point where the window is idle: a placeholder nothing consults. -/
def idleOut : Vec F S1024x2 .f32 := VO.read (Elt F) VO.junk

/-! ## What the output block and the scratch hold after each point -/

/-- After the point numbered n: (the output block's buffer, the scratch), by recursion on n — the case the point
    is in, run over what the point before left in the scratch. -/
def outsAt (c : Dev nD) : (n : ℕ) → n < cfg0.N → Vec F S1024x2 .f32 × Vec F S1024x256 .f32
  | 0, hn => (idleOut, soutA_at V c ⟨0, hn⟩ ((hcond_0 ⟨0, hn⟩).mpr (Nat.zero_mod _)) (fun h => (fun h => by (try dsimp only at h); omega) ((hcond_1 ⟨0, hn⟩).mp h)))
  | n + 1, hn =>
    if h0 : (n + 1) % 20 = 0 then
      (idleOut, soutA_at V c ⟨n + 1, hn⟩ ((hcond_0 ⟨n + 1, hn⟩).mpr h0) (fun h => (fun h => by (try dsimp only at h); omega) ((hcond_1 ⟨n + 1, hn⟩).mp h)))
    else
      if h1 : (n + 1) % 20 = 19 then
        (outC_at V c ⟨n + 1, hn⟩ (fun h => h0 ((hcond_0 ⟨n + 1, hn⟩).mp h)) ((hcond_1 ⟨n + 1, hn⟩).mpr h1) (outsAt c n (Nat.lt_of_succ_lt hn)).2,
         soutC_at V c ⟨n + 1, hn⟩ (fun h => h0 ((hcond_0 ⟨n + 1, hn⟩).mp h)) ((hcond_1 ⟨n + 1, hn⟩).mpr h1) (outsAt c n (Nat.lt_of_succ_lt hn)).2)
      else
        (idleOut, soutB_at V c ⟨n + 1, hn⟩ (fun h => h0 ((hcond_0 ⟨n + 1, hn⟩).mp h)) (fun h => h1 ((hcond_1 ⟨n + 1, hn⟩).mp h)) (outsAt c n (Nat.lt_of_succ_lt hn)).2)

theorem outsAt_A (c : Dev nD) (t : Fin cfg0.N) (h0 : t.val % 20 = 0) (h1 : ¬t.val % 20 = 19) :
    outsAt V c t.val t.isLt = (idleOut, soutA_at V c t ((hcond_0 t).mpr h0) (fun h => h1 ((hcond_1 t).mp h))) := by
  obtain ⟨n, hn⟩ := t
  cases n with
  | zero => exact rfl
  | succ n => exact (dif_pos h0).trans rfl

theorem outsAt_B (c : Dev nD) (t : Fin cfg0.N) (h0 : ¬t.val % 20 = 0) (h1 : ¬t.val % 20 = 19) :
    outsAt V c t.val t.isLt = (idleOut, soutB_at V c t (fun h => h0 ((hcond_0 t).mp h)) (fun h => h1 ((hcond_1 t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 20 = 0) (h1 : t.val % 20 = 19) :
    outsAt V c t.val t.isLt = (outC_at V c t (fun h => h0 ((hcond_0 t).mp h)) ((hcond_1 t).mpr h1) (outsAt V c (t.val - 1) (Nat.lt_of_le_of_lt (Nat.sub_le _ _) t.isLt)).2,
      soutC_at V c t (fun h => h0 ((hcond_0 t).mp h)) ((hcond_1 t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than this kernel's staging buffers and scratch, each whole at some contents. -/
def otherS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped rest and the generator register, with the scratch named: one way, -/
theorem PhiA_split (c : Dev nD) :
    (Pipeline.ΦA spec0 c : sProp 𝕄) ⊢ iprop((∃ d, owns (c : Thread nD τ) scM fullShare d) ∗ otherS (F := F) c ∗ (∃ r, prngReg c r)) := by
  unfold Pipeline.ΦA otherS; rw [scopedRest0_eq]; simp only [scM, owns_whole]
  iintro ⟨⟨HS, B0, B1, B2, B3, B4, B5, B6, B7, B8⟩, Hg⟩
  isplitl [HS]; · iexact HS
  isplitl [B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and back. -/
theorem PhiA_join (c : Dev nD) :
    iprop((∃ d, owns (c : Thread nD τ) scM fullShare d) ∗ otherS (F := F) c ∗ (∃ r, prngReg c r)) ⊢ (Pipeline.ΦA spec0 c : sProp 𝕄) := by
  unfold Pipeline.ΦA otherS; rw [scopedRest0_eq]; simp only [scM, owns_whole]
  iintro ⟨HS, ⟨B0, B1, B2, B3, B4, B5, B6, B7, B8⟩, Hg⟩
  isplitl [HS B0 B1 B2 B3 B4 B5 B6 B7 B8]
  · isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- Before the point numbered n: at n = 0 what the launch hands the region; afterwards the scratch at what point
    n - 1 left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare ((outsAt V c n hn).2) ∗ otherS (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare ((outsAt V c n hn).2) ∗ otherS (F := F) c ∗ (∃ r, prngReg c r)) := rfl

theorem PhiS_pos (c : Dev nD) (n : ℕ) (h : n ≤ cfg0.N) (hz : n ≠ 0) :
    PhiS V c n h = iprop(owns (c : Thread nD τ) scM fullShare ((outsAt V c (n - 1) (by omega)).2) ∗ otherS (F := F) c ∗ (∃ r, prngReg c r)) := by
  cases n with
  | zero => exact absurd rfl hz
  | succ n => rfl

/-! ## The pipeline's proof data -/

/-- The arrays as the region finds them; after the body at point t each input's buffer at its block and the
    output's at what the recursion says; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

theorem leaves_0 (c : Dev nD) (t : Fin cfg0.N) : (dat V c).leavesExact 0 t = owns (c : Thread nD τ) (ms_0 t) fullShare (iblk V c 0 t) := by
  unfold Dat.leavesExact; rw [liveAt_0 t, after_0]
theorem leaves_1 (c : Dev nD) (t : Fin cfg0.N) : (dat V c).leavesExact 1 t = owns (c : Thread nD τ) (ms_1 t) fullShare (iblk V c 1 t) := by
  unfold Dat.leavesExact; rw [liveAt_1 t, after_1]
theorem leaves_2 (c : Dev nD) (t : Fin cfg0.N) : (dat V c).leavesExact 2 t = owns (c : Thread nD τ) (ms_2 t) fullShare (iblk V c 2 t) := by
  unfold Dat.leavesExact; rw [liveAt_2 t, after_2]
theorem leaves_3 (c : Dev nD) (t : Fin cfg0.N) : (dat V c).leavesExact 3 t = owns (c : Thread nD τ) (ms_3 t) fullShare (iblk V c 3 t) := by
  unfold Dat.leavesExact; rw [liveAt_3 t, after_3]
theorem leaves_4 (c : Dev nD) (t : Fin cfg0.N) : (dat V c).leavesExact 4 t = owns (c : Thread nD τ) (ms_4 t) fullShare (iblk V c 4 t) := by
  unfold Dat.leavesExact; rw [liveAt_4 t, after_4]

set_option maxHeartbeats 4800000 in
/-- The body at any point: the inputs' memrefs hold their blocks; the closed forms of the two conditions say
    which case the point is in; the invariant hands the body the scratch at what the point before left (at
    anything at the very first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 80 := lt_of_lt_of_eq t.isLt (show cfg0.N = 80 from N_0)
  by_cases h0 : t.val % 20 = 0
  · have h1 : ¬t.val % 20 = 19 := by omega
    rw [Dat.leavesExact_idle (dat V c) 5 t (idleAt_5 t (fun h => h1 ((hcond_1 t).mp h))) (noFlush_5 t (fun h => h1 ((hcond_1 t).mp h)))]
    rw [outsAt_A V c t h0 h1]
    unfold soutA_at sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split (F := F) c) $$ HΦ
      icases HΦ' with ⟨HS, Hoth, Hg⟩
      iapply ((kernelRun_A c (grid0.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 20 = 19
    · rw [show (dat V c).leavesExact 5 t = owns (c : Thread nD τ) (ms_5 t) fullShare ((dat V c).after 5 t) from by
        unfold Dat.leavesExact; rw [liveAt_5 t ((hcond_1 t).mpr h1)], after_5]
      rw [outsAt_C V c t h0 h1]
      unfold outC_at soutC_at out_C sout_C; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_C c (grid0.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS]
        · unfold owns; iexists _; isplitr
          swap; · iexact HS
          ipureintro; exact View.read_writes_of_cover _ _ _ _ _ (scover_C c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt_5 t (fun h => h1 ((hcond_1 t).mp h))) (noFlush_5 t (fun h => h1 ((hcond_1 t).mp h)))]
      rw [outsAt_B V c t h0 h1]
      unfold soutB_at sout_B; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_B c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 80 := N_0; omega)]
  iintro ⟨HS, Hoth, Hg⟩
  iapply (PhiA_join (F := F) c)
  isplitl [HS]; · iexists _; iexact HS
  isplitl [Hoth]; · iexact Hoth
  iexact Hg

end Cert.Kernel.R0

end
-- ==== Proof.KB.R1Runs.lean ====
/-
  Region 1 of the program (one launch of the accumulator kernel on a 4 x 20 grid: 4 batch tiles of 1024 rows,
  20 feature tiles of 1024 columns), stated at a PARAMETER V: what the core's buffers hold when the region is
  entered. What the three cases of the kernel body share.

  A grid point t has coordinates (t / 20, t % 20). The body zeroes its accumulator scratch when the feature tile
  is the first (t % 20 = 0), adds one tile's matrix product to it at every point, and when the feature tile is
  the last (t % 20 = 19) computes the two output columns from the accumulator and stores them in the output
  block. So a point is in one of three cases: A (first tile: reset, then accumulate), B (a middle tile:
  accumulate), C (last tile: accumulate, then emit). The output window is idle (neither stored nor written
  back) in cases A and B.
-/
import proofs.«126539_j28192165331581_2_alg».proof.Proof.Gen.Kernel.Launch
import proofs.«126539_j28192165331581_2_alg».proof.Proof.Gen.Kernel.Skeleton
import proofs.«126539_j28192165331581_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or not
    (an unfetched window's block index has not moved), for any proof data whose array is V's and whose body
    leaves the block in place. Windows 0 to 4 are the inputs. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The feature tile is the first": the condition of the reset. -/
abbrev cond_0 (i : grid1.Coords) : Prop := (Scalar.cmpi .ne (Scalar.extui (Scalar.cmpi .eq (BitVec.ofNat 32 (i 1).val) 0#32)) 0#32) = 1#1
/-- It holds at the points whose number is 0 modulo 20. -/
theorem hcond_0 : ∀ t : Fin cfg1.N, cond_0 (grid1.coords t) ↔ t.val % 20 = 0 :=
  (by decide +kernel : ∀ t : Fin grid1.N, cond_0 (grid1.coords t) ↔ t.val % 20 = 0)

/-- "The feature tile is the last": the condition of the emission. -/
abbrev cond_1 (i : grid1.Coords) : Prop := k1_cond2 i = 1#1
/-- It holds at the points whose number is 19 modulo 20. -/
theorem hcond_1 : ∀ t : Fin cfg1.N, cond_1 (grid1.coords t) ↔ t.val % 20 = 19 :=
  (by decide +kernel : ∀ t : Fin grid1.N, cond_1 (grid1.coords t) ↔ t.val % 20 = 19)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
/-- Where the emission does not happen the output window is idle and is not written back. -/
theorem idleAt_5 : ∀ t : Fin cfg1.N, ¬cond_1 (grid1.coords t) → cfg1.idle 5 (grid1.coords t) = true := by decide +kernel
theorem noFlush_5 : ∀ t : Fin cfg1.N, ¬cond_1 (grid1.coords t) → (cfg1.win 5).flush t = false := by decide +kernel
/-- Where it happens the output window is live. -/
theorem liveAt_5 : ∀ t : Fin cfg1.N, cond_1 (grid1.coords t) → cfg1.idle 5 (grid1.coords t) = false := by decide +kernel

/-! ## The memrefs the body is called with -/

/-- One staging buffer of the output window, through which its contents are stated. -/
abbrev VO : View sig .tc .vmem S1024x2 .f32 := (Memref.whole cc1_stg5_0 : Memref sig .tc .vmem S1024x2 .f32).view
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S256x20480 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x2 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S256x2 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x2 .f32 := win1_5.stage (cfg1.slots t 5)
abbrev hs_5 (t : Fin cfg1.N) : (ms_5 t).IsWhole := hstage1_5 ((cfg1.slots t 5).cast nbuf1_5)
/-- The accumulator scratch: a whole scoped buffer of the kernel's own. -/
abbrev scM : Memref sig .tc .vmem S1024x256 .f32 := Memref.whole cc1_scratch0
abbrev VS : View sig .tc .vmem S1024x256 .f32 := (scM).view

end Cert.Kernel.R1

end
-- ==== Proof.KB.R1RunA.lean ====
/-
  Region 1, case A (first feature tile: the scratch is reset, then one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, fun xi5 E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.KB.R1RunB.lean ====
/-
  Region 1, case B (a middle feature tile: one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, fun xi5 E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.KB.R1RunC.lean ====
/-
  Region 1, case C (last feature tile: one tile is accumulated, then the two output columns are computed from the accumulator and stored).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KB.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    Σ' (L5 : List (View.Piece (Elt F) S1024x2 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, ?_, fun E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R1

end
-- ==== Proof.KB.R1Frame.lean ====
/-
  Region 1: what the accumulator scratch and the output block hold after each grid point, the proof data of the
  pipeline, and the body obligation at every point.

  After point t the scratch holds: in case A the pieces of the reset followed by one accumulation; in cases B and
  C the pieces of one accumulation over what point t - 1 left (the scratch is scoped to the kernel, nothing else
  touches it between two points). The output block is stored in case C only, from the accumulator; in cases A and
  B the window is idle and its buffer is handed back as found. The region invariant before point n > 0 is "the
  scratch holds what point n - 1 left, the other scoped buffers hold anything, the generator register is at some
  state"; before the first point it is the same with the scratch at anything.
-/
import proofs.«126539_j28192165331581_2_alg».proof.Proof.KB.R1RunA
import proofs.«126539_j28192165331581_2_alg».proof.Proof.KB.R1RunB
import proofs.«126539_j28192165331581_2_alg».proof.Proof.KB.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scover_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) (y : S1024x256.Idx) :
    ∃ pc ∈ (kernelRun_A c i arg2 harg2 arg3 harg3 arg4 harg4 arg5 harg5 arg6 harg6 arg7 harg7 arg8 harg8 hc0 hc1 x0 x1 x2 x3 x4).1, y ∈ pc.1.set :=
  View.cover_of_tiledL (kernelRun_A c i arg2 harg2 arg3 harg3 arg4 harg4 arg5 harg5 arg6 harg6 arg7 harg7 arg8 harg8 hc0 hc1 x0 x1 x2 x3 x4).1 S1024x256.size (by sl_kernel_rfl) y

/-- What case A leaves in the scratch: its pieces read back. -/
def sout_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) : Vec F S1024x256 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).1)

theorem scover_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_B c i arg2 harg2 arg3 harg3 arg4 harg4 arg5 harg5 arg6 harg6 arg7 harg7 arg8 harg8 hc0 hc1 x0 x1 x2 x3 x4 xs).1, y ∈ pc.1.set :=
  View.cover_of_tiledL (kernelRun_B c i arg2 harg2 arg3 harg3 arg4 harg4 arg5 harg5 arg6 harg6 arg7 harg7 arg8 harg8 hc0 hc1 x0 x1 x2 x3 x4 xs).1 S1024x256.size (by sl_kernel_rfl) y

/-- What case B leaves in the scratch. -/
def sout_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs).1)

theorem cover_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x2.Idx) :
    ∃ pc ∈ (kernelRun_C c i arg2 harg2 arg3 harg3 arg4 harg4 arg5 harg5 arg6 harg6 arg7 harg7 arg8 harg8 hc0 hc1 x0 x1 x2 x3 x4 xs).1, y ∈ pc.1.set :=
  View.cover_of_tiledL (kernelRun_C c i arg2 harg2 arg3 harg3 arg4 harg4 arg5 harg5 arg6 harg6 arg7 harg7 arg8 harg8 hc0 hc1 x0 x1 x2 x3 x4 xs).1 S1024x2.size (by sl_kernel_rfl) y

/-- What case C leaves in the output block. -/
def out_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x2 .f32 :=
  VO.read (Elt F) (VO.writes (Elt F) VO.junk (kernelRun_C c i arg2 harg2 arg3 harg3 arg4 harg4 arg5 harg5 arg6 harg6 arg7 harg7 arg8 harg8 hc0 hc1 x0 x1 x2 x3 x4 xs).1)

theorem scover_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_C c i arg2 harg2 arg3 harg3 arg4 harg4 arg5 harg5 arg6 harg6 arg7 harg7 arg8 harg8 hc0 hc1 x0 x1 x2 x3 x4 xs).2.1, y ∈ pc.1.set :=
  View.cover_of_tiledL (kernelRun_C c i arg2 harg2 arg3 harg3 arg4 harg4 arg5 harg5 arg6 harg6 arg7 harg7 arg8 harg8 hc0 hc1 x0 x1 x2 x3 x4 xs).2.1 S1024x256.size (by sl_kernel_rfl) y

/-- What case C leaves in the scratch. -/
def sout_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs).2.1)

/-! ## The cases at a grid point: its memrefs, its input blocks -/

def soutA_at (c : Dev nD) (t : Fin cfg1.N) (hc0 : cond_0 (grid1.coords t)) (hc1 : ¬cond_1 (grid1.coords t)) : Vec F S1024x256 .f32 :=
  sout_A c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)
def soutB_at (c : Dev nD) (t : Fin cfg1.N) (hc0 : ¬cond_0 (grid1.coords t)) (hc1 : ¬cond_1 (grid1.coords t)) (xs : Vec F S1024x256 .f32) : Vec F S1024x256 .f32 :=
  sout_B c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def soutC_at (c : Dev nD) (t : Fin cfg1.N) (hc0 : ¬cond_0 (grid1.coords t)) (hc1 : cond_1 (grid1.coords t)) (xs : Vec F S1024x256 .f32) : Vec F S1024x256 .f32 :=
  sout_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def outC_at (c : Dev nD) (t : Fin cfg1.N) (hc0 : ¬cond_0 (grid1.coords t)) (hc1 : cond_1 (grid1.coords t)) (xs : Vec F S1024x256 .f32) : Vec F S1024x2 .f32 :=
  out_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-- The output component at a point where the window is idle: a placeholder nothing consults. -/
def idleOut : Vec F S1024x2 .f32 := VO.read (Elt F) VO.junk

/-! ## What the output block and the scratch hold after each point -/

/-- After the point numbered n: (the output block's buffer, the scratch), by recursion on n — the case the point
    is in, run over what the point before left in the scratch. -/
def outsAt (c : Dev nD) : (n : ℕ) → n < cfg1.N → Vec F S1024x2 .f32 × Vec F S1024x256 .f32
  | 0, hn => (idleOut, soutA_at V c ⟨0, hn⟩ ((hcond_0 ⟨0, hn⟩).mpr (Nat.zero_mod _)) (fun h => (fun h => by (try dsimp only at h); omega) ((hcond_1 ⟨0, hn⟩).mp h)))
  | n + 1, hn =>
    if h0 : (n + 1) % 20 = 0 then
      (idleOut, soutA_at V c ⟨n + 1, hn⟩ ((hcond_0 ⟨n + 1, hn⟩).mpr h0) (fun h => (fun h => by (try dsimp only at h); omega) ((hcond_1 ⟨n + 1, hn⟩).mp h)))
    else
      if h1 : (n + 1) % 20 = 19 then
        (outC_at V c ⟨n + 1, hn⟩ (fun h => h0 ((hcond_0 ⟨n + 1, hn⟩).mp h)) ((hcond_1 ⟨n + 1, hn⟩).mpr h1) (outsAt c n (Nat.lt_of_succ_lt hn)).2,
         soutC_at V c ⟨n + 1, hn⟩ (fun h => h0 ((hcond_0 ⟨n + 1, hn⟩).mp h)) ((hcond_1 ⟨n + 1, hn⟩).mpr h1) (outsAt c n (Nat.lt_of_succ_lt hn)).2)
      else
        (idleOut, soutB_at V c ⟨n + 1, hn⟩ (fun h => h0 ((hcond_0 ⟨n + 1, hn⟩).mp h)) (fun h => h1 ((hcond_1 ⟨n + 1, hn⟩).mp h)) (outsAt c n (Nat.lt_of_succ_lt hn)).2)

theorem outsAt_A (c : Dev nD) (t : Fin cfg1.N) (h0 : t.val % 20 = 0) (h1 : ¬t.val % 20 = 19) :
    outsAt V c t.val t.isLt = (idleOut, soutA_at V c t ((hcond_0 t).mpr h0) (fun h => h1 ((hcond_1 t).mp h))) := by
  obtain ⟨n, hn⟩ := t
  cases n with
  | zero => exact rfl
  | succ n => exact (dif_pos h0).trans rfl

theorem outsAt_B (c : Dev nD) (t : Fin cfg1.N) (h0 : ¬t.val % 20 = 0) (h1 : ¬t.val % 20 = 19) :
    outsAt V c t.val t.isLt = (idleOut, soutB_at V c t (fun h => h0 ((hcond_0 t).mp h)) (fun h => h1 ((hcond_1 t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 20 = 0) (h1 : t.val % 20 = 19) :
    outsAt V c t.val t.isLt = (outC_at V c t (fun h => h0 ((hcond_0 t).mp h)) ((hcond_1 t).mpr h1) (outsAt V c (t.val - 1) (Nat.lt_of_le_of_lt (Nat.sub_le _ _) t.isLt)).2,
      soutC_at V c t (fun h => h0 ((hcond_0 t).mp h)) ((hcond_1 t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than this kernel's staging buffers and scratch, each whole at some contents. -/
def otherS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The scoped rest and the generator register, with the scratch named: one way, -/
theorem PhiA_split (c : Dev nD) :
    (Pipeline.ΦA spec1 c : sProp 𝕄) ⊢ iprop((∃ d, owns (c : Thread nD τ) scM fullShare d) ∗ otherS (F := F) c ∗ (∃ r, prngReg c r)) := by
  unfold Pipeline.ΦA otherS; rw [scopedRest1_eq]; simp only [scM, owns_whole]
  iintro ⟨⟨B0, B1, B2, B3, B4, B5, B6, B7, B8, HS⟩, Hg⟩
  isplitl [HS]; · iexact HS
  isplitl [B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and back. -/
theorem PhiA_join (c : Dev nD) :
    iprop((∃ d, owns (c : Thread nD τ) scM fullShare d) ∗ otherS (F := F) c ∗ (∃ r, prngReg c r)) ⊢ (Pipeline.ΦA spec1 c : sProp 𝕄) := by
  unfold Pipeline.ΦA otherS; rw [scopedRest1_eq]; simp only [scM, owns_whole]
  iintro ⟨HS, ⟨B0, B1, B2, B3, B4, B5, B6, B7, B8⟩, Hg⟩
  isplitl [HS B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

/-- Before the point numbered n: at n = 0 what the launch hands the region; afterwards the scratch at what point
    n - 1 left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare ((outsAt V c n hn).2) ∗ otherS (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ otherS (F := F) c ∗ (∃ r, prngReg c r)) := rfl

theorem PhiS_pos (c : Dev nD) (n : ℕ) (h : n ≤ cfg1.N) (hz : n ≠ 0) :
    PhiS V c n h = iprop(owns (c : Thread nD τ) scM fullShare ((outsAt V c (n - 1) (by omega)).2) ∗ otherS (F := F) c ∗ (∃ r, prngReg c r)) := by
  cases n with
  | zero => exact absurd rfl hz
  | succ n => rfl

/-! ## The pipeline's proof data -/

/-- The arrays as the region finds them; after the body at point t each input's buffer at its block and the
    output's at what the recursion says; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

theorem leaves_0 (c : Dev nD) (t : Fin cfg1.N) : (dat V c).leavesExact 0 t = owns (c : Thread nD τ) (ms_0 t) fullShare (iblk V c 0 t) := by
  unfold Dat.leavesExact; rw [liveAt_0 t, after_0]
theorem leaves_1 (c : Dev nD) (t : Fin cfg1.N) : (dat V c).leavesExact 1 t = owns (c : Thread nD τ) (ms_1 t) fullShare (iblk V c 1 t) := by
  unfold Dat.leavesExact; rw [liveAt_1 t, after_1]
theorem leaves_2 (c : Dev nD) (t : Fin cfg1.N) : (dat V c).leavesExact 2 t = owns (c : Thread nD τ) (ms_2 t) fullShare (iblk V c 2 t) := by
  unfold Dat.leavesExact; rw [liveAt_2 t, after_2]
theorem leaves_3 (c : Dev nD) (t : Fin cfg1.N) : (dat V c).leavesExact 3 t = owns (c : Thread nD τ) (ms_3 t) fullShare (iblk V c 3 t) := by
  unfold Dat.leavesExact; rw [liveAt_3 t, after_3]
theorem leaves_4 (c : Dev nD) (t : Fin cfg1.N) : (dat V c).leavesExact 4 t = owns (c : Thread nD τ) (ms_4 t) fullShare (iblk V c 4 t) := by
  unfold Dat.leavesExact; rw [liveAt_4 t, after_4]

set_option maxHeartbeats 4800000 in
/-- The body at any point: the inputs' memrefs hold their blocks; the closed forms of the two conditions say
    which case the point is in; the invariant hands the body the scratch at what the point before left (at
    anything at the very first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 80 := lt_of_lt_of_eq t.isLt (show cfg1.N = 80 from N_1)
  by_cases h0 : t.val % 20 = 0
  · have h1 : ¬t.val % 20 = 19 := by omega
    rw [Dat.leavesExact_idle (dat V c) 5 t (idleAt_5 t (fun h => h1 ((hcond_1 t).mp h))) (noFlush_5 t (fun h => h1 ((hcond_1 t).mp h)))]
    rw [outsAt_A V c t h0 h1]
    unfold soutA_at sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split (F := F) c) $$ HΦ
      icases HΦ' with ⟨HS, Hoth, Hg⟩
      iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 20 = 19
    · rw [show (dat V c).leavesExact 5 t = owns (c : Thread nD τ) (ms_5 t) fullShare ((dat V c).after 5 t) from by
        unfold Dat.leavesExact; rw [liveAt_5 t ((hcond_1 t).mpr h1)], after_5]
      rw [outsAt_C V c t h0 h1]
      unfold outC_at soutC_at out_C sout_C; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS]
        · unfold owns; iexists _; isplitr
          swap; · iexact HS
          ipureintro; exact View.read_writes_of_cover _ _ _ _ _ (scover_C c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt_5 t (fun h => h1 ((hcond_1 t).mp h))) (noFlush_5 t (fun h => h1 ((hcond_1 t).mp h)))]
      rw [outsAt_B V c t h0 h1]
      unfold soutB_at sout_B; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_B c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 80 := N_1; omega)]
  iintro ⟨HS, Hoth, Hg⟩
  iapply (PhiA_join (F := F) c)
  isplitl [HS]; · iexists _; iexact HS
  isplitl [Hoth]; · iexact Hoth
  iexact Hg

end Cert.Kernel.R1

end
-- ==== Proof.KB.Run.lean ====
/-
  The whole program as a run: eight stretches of host operations build the kernel's operands, the two kernel
  regions run one after the other (the white batch, then the black batch), one host subtraction ends it.

  Between two items every unscoped buffer of the core is held at known contents: the launch memory, then each
  host stretch's operations applied, then after a region its arrays at what the pipeline's write-backs leave
  (the inputs as entered, the output array as the proof data says) and every other buffer as entered. Each
  region is entered from the contents the item before it left; its proof data are the region modules' at those
  contents. At the end every unscoped buffer is read against the last contents: the arguments have come through
  unchanged and the result is the difference of the two regions' output arrays.
-/
import proofs.«126539_j28192165331581_2_alg».proof.Proof.Gen.Kernel.Regions
import proofs.«126539_j28192165331581_2_alg».proof.Proof.KB.R0Frame
import proofs.«126539_j28192165331581_2_alg».proof.Proof.KB.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What region 0 is entered from: the launch memory after the eight host stretches. -/
abbrev E0 : (c : Dev nD) → (b : Ref sig .tc) → Buf (Elt F) ((c : Thread nD τ).loc b) := fun c b => Gen.V8 m c b
/-- After region 0: its arrays at what the pipeline leaves, every other buffer as entered. -/
def W9 (c : Dev nD) : Valuation τ sig (Elt F) :=
  Pipeline.withArrays spec0 c (Gen.V8 m c) fun w => (R0.dat (E0 m) c).arrAt w cfg0.N
theorem W9_arr (c : Dev nD) (w : Fin cfg0.W) :
    W9 m c (Proc.devRef .tc (Pipeline.arrRef spec0 w)) = (R0.dat (E0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = Gen.V8 m c (Proc.devRef .tc b) := by
  unfold W9; exact Pipeline.withArrays_of_ne spec0 c _ _ b hb
/-- What region 1 is entered from. -/
abbrev E1 : (c : Dev nD) → (b : Ref sig .tc) → Buf (Elt F) ((c : Thread nD τ).loc b) := fun c b => W9 m c b
theorem hF0 (c : Dev nD) (w : Fin cfg0.W) : (R0.dat (E0 m) c).arrAt w cfg0.N = E1 m c (Pipeline.arrRef spec0 w) :=
  (W9_arr m c w).symm
theorem hrest0 (c : Dev nD) : ∀ b, b ∉ Finset.univ.image (Pipeline.arrRef spec0) → E1 m c b = E0 m c b :=
  fun b hb => W9_of_ne m c b fun w e => hb (Finset.mem_image.mpr ⟨w, Finset.mem_univ _, e⟩)

/-- After region 1. -/
def W10 (c : Dev nD) : Valuation τ sig (Elt F) :=
  Pipeline.withArrays spec1 c (W9 m c) fun w => (R1.dat (E1 m) c).arrAt w cfg1.N
theorem W10_arr (c : Dev nD) (w : Fin cfg1.W) :
    W10 m c (Proc.devRef .tc (Pipeline.arrRef spec1 w)) = (R1.dat (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E2 : (c : Dev nD) → (b : Ref sig .tc) → Buf (Elt F) ((c : Thread nD τ).loc b) := fun c b => W10 m c b
theorem hF1 (c : Dev nD) (w : Fin cfg1.W) : (R1.dat (E1 m) c).arrAt w cfg1.N = E2 m c (Pipeline.arrRef spec1 w) :=
  (W10_arr m c w).symm
theorem hrest1 (c : Dev nD) : ∀ b, b ∉ Finset.univ.image (Pipeline.arrRef spec1) → E2 m c b = E1 m c b :=
  fun b hb => W10_of_ne m c b fun w e => hb (Finset.mem_image.mpr ⟨w, Finset.mem_univ _, e⟩)

/-- After the closing subtraction. -/
abbrev W11 (c : Dev nD) : Valuation τ sig (Elt F) := StableHlo.after hostOps2 (W10 m c)
theorem W11_of (c : Dev nD) (r : Ref sig .tc) (h : r ∉ Gen.hostOps2_W) : W11 m c r = W10 m c r :=
  StableHlo.after_of_writes_sub hostOps2 _ Gen.hostOps2_writes h

/-! ## The arguments come through unchanged -/

theorem V8_arg (c : Dev nD) (r : Ref sig .tc) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    Gen.V8 m c r = m ((c : Thread nD τ).loc r) :=
  (Gen.V8_of m c r h8).trans <| (Gen.V7_of m c r h7).trans <| (Gen.V6_of m c r h6).trans <| (Gen.V5_of m c r h5).trans <|
    (Gen.V4_of m c r h4).trans <| (Gen.V3_of m c r h3).trans <| (Gen.V2_of m c r h2).trans <| (Gen.V1_of m c r h1).trans rfl

theorem W9_main_arg0 (c : Dev nD) : W9 m c main_arg0 = m ((c : Thread nD τ).loc main_arg0) :=
  (W9_arr m c 0).trans (((R0.dat (E0 m) c).arrAt_in 0 rfl _).trans ((R0.A_eq (E0 m) c 0).trans
    (V8_arg m c main_arg0 (by decide) (by decide) (by decide) (by decide) (by decide) (by decide) (by decide) (by decide))))
theorem W9_other (c : Dev nD) (r : Ref sig .tc) (hb : ∀ w, Pipeline.arrRef spec0 w ≠ r) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    W9 m c r = m ((c : Thread nD τ).loc r) :=
  (W9_of_ne m c r hb).trans (V8_arg m c r h1 h2 h3 h4 h5 h6 h7 h8)

theorem W10_main_arg1 (c : Dev nD) : W10 m c main_arg1 = m ((c : Thread nD τ).loc main_arg1) :=
  (W10_arr m c 0).trans (((R1.dat (E1 m) c).arrAt_in 0 rfl _).trans ((R1.A_eq (E1 m) c 0).trans
    (W9_other m c main_arg1 (by decide) (by decide) (by decide) (by decide) (by decide) (by decide) (by decide) (by decide) (by decide))))

theorem W11_main_arg0 (c : Dev nD) : W11 m c main_arg0 = m ((c : Thread nD τ).loc main_arg0) :=
  (W11_of m c main_arg0 (by decide)).trans ((W10_of_ne m c main_arg0 (by decide)).trans (W9_main_arg0 m c))
theorem W11_main_arg1 (c : Dev nD) : W11 m c main_arg1 = m ((c : Thread nD τ).loc main_arg1) :=
  (W11_of m c main_arg1 (by decide)).trans (W10_main_arg1 m c)
theorem W11_other (c : Dev nD) (r : Ref sig .tc) (h0 : r ∉ Gen.hostOps2_W) (hb1 : ∀ w, Pipeline.arrRef spec1 w ≠ r) (hb : ∀ w, Pipeline.arrRef spec0 w ≠ r) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    W11 m c r = m ((c : Thread nD τ).loc r) :=
  (W11_of m c r h0).trans ((W10_of_ne m c r hb1).trans (W9_other m c r hb h1 h2 h3 h4 h5 h6 h7 h8))
theorem W11_main_arg2 (c : Dev nD) : W11 m c main_arg2 = m ((c : Thread nD τ).loc main_arg2) :=
  W11_other m c main_arg2 (by decide) (by decide) (by decide) (by decide) (by decide) (by decide) (by decide) (by decide) (by decide) (by decide) (by decide)
theorem W11_main_arg3 (c : Dev nD) : W11 m c main_arg3 = m ((c : Thread nD τ).loc main_arg3) :=
  W11_other m c main_arg3 (by decide) (by decide) (by decide) (by decide) (by decide) (by decide) (by decide) (by decide) (by decide) (by decide) (by decide)
theorem W11_main_arg4 (c : Dev nD) : W11 m c main_arg4 = m ((c : Thread nD τ).loc main_arg4) :=
  W11_other m c main_arg4 (by decide) (by decide) (by decide) (by decide) (by decide) (by decide) (by decide) (by decide) (by decide) (by decide) (by decide)
theorem W11_main_arg5 (c : Dev nD) : W11 m c main_arg5 = m ((c : Thread nD τ).loc main_arg5) :=
  W11_other m c main_arg5 (by decide) (by decide) (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-- The closing host stretch as a segment, from the contents region 1 leaves. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W10 m) (R (F := F))

/-! ## The regions as segments -/

set_option backward.isDefEq.respectTransparency.types false in
/-- Region 0 over the thread state: its arrays split out of the unscoped buffers and put back at the exit
    contents; the generator register and the scoped rest into the region invariant and out; nothing owed; no
    semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (Gen.V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the same over its own contents. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven items in order. -/
abbrev segs (c : Dev nD) : List (Seg (pcfgs (F := F)) adm (pdats m) () defs₀ 𝒱₀ L lv) :=
  [.host (Gen.seg0 m 𝒱₀ L lv (ER (F := F))), .host (Gen.seg1 m 𝒱₀ L lv (ER (F := F))), .host (Gen.seg2 m 𝒱₀ L lv (ER (F := F))), .host (Gen.seg3 m 𝒱₀ L lv (ER (F := F))),
   .host (Gen.seg4 m 𝒱₀ L lv (ER (F := F))), .host (Gen.seg5 m 𝒱₀ L lv (ER (F := F))), .host (Gen.seg6 m 𝒱₀ L lv (ER (F := F))), .host (Gen.seg7 m 𝒱₀ L lv (ER (F := F))),
   .region (reg0 m), .region (reg1 m), .host (segLast m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state regrouped: the buffers and the generator register on one side, the core owing nothing on the other. -/
theorem lastChain (c : Dev nD) :
    iprop(StableHlo.held (c : Thread nD τ) (Pipeline.ucRefs τ sig) (W11 m c) ∗ R (F := F) c)
      ⊢ iprop(iprop(StableHlo.held (c : Thread nD τ) (Pipeline.ucRefs τ sig) (W11 m c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of the program terminates, and in every
    final state the result array holds the last contents' and each argument array is as launched. -/
theorem run : θ_run defs (onTc (τ := τ) (main (F := F))) ⟨m, fun _ => 0, ρ⟩ (fun r => ∀ c : Dev nD,
      r.2.mem ((c.tc : Thread nD τ).loc main_v16) = W11 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W11 m c) ∗ ∃ r, prngReg c r))
    (hch := fun c => ⟨.rfl, .rfl, .rfl, .rfl, .rfl, .rfl, .rfl, .rfl, .rfl, .rfl, .rfl, lastChain m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c =>
      ⟨h c _ (mem_uc main_v16 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c)⟩)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Run

end
-- ==== Proof.KI.R0Runs.lean ====
/-
  Region 0 of the program (one launch of the accumulator kernel on a 4 x 20 grid: 4 batch tiles of 1024 rows,
  20 feature tiles of 1024 columns), stated at a PARAMETER V: what the core's buffers hold when the region is
  entered. What the three cases of the kernel body share.

  A grid point t has coordinates (t / 20, t % 20). The body zeroes its accumulator scratch when the feature tile
  is the first (t % 20 = 0), adds one tile's matrix product to it at every point, and when the feature tile is
  the last (t % 20 = 19) computes the two output columns from the accumulator and stores them in the output
  block. So a point is in one of three cases: A (first tile: reset, then accumulate), B (a middle tile:
  accumulate), C (last tile: accumulate, then emit). The output window is idle (neither stored nor written
  back) in cases A and B.
-/
import proofs.«126539_j28192165331581_2_alg».proof.Proof.Gen.KernelIdeal.Launch
import proofs.«126539_j28192165331581_2_alg».proof.Proof.Gen.KernelIdeal.Skeleton
import proofs.«126539_j28192165331581_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or not
    (an unfetched window's block index has not moved), for any proof data whose array is V's and whose body
    leaves the block in place. Windows 0 to 4 are the inputs. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The feature tile is the first": the condition of the reset. -/
abbrev cond_0 (i : grid0.Coords) : Prop := (Scalar.cmpi .ne (Scalar.extui (Scalar.cmpi .eq (BitVec.ofNat 32 (i 1).val) 0#32)) 0#32) = 1#1
/-- It holds at the points whose number is 0 modulo 20. -/
theorem hcond_0 : ∀ t : Fin cfg0.N, cond_0 (grid0.coords t) ↔ t.val % 20 = 0 :=
  (by decide +kernel : ∀ t : Fin grid0.N, cond_0 (grid0.coords t) ↔ t.val % 20 = 0)

/-- "The feature tile is the last": the condition of the emission. -/
abbrev cond_1 (i : grid0.Coords) : Prop := k0_cond2 i = 1#1
/-- It holds at the points whose number is 19 modulo 20. -/
theorem hcond_1 : ∀ t : Fin cfg0.N, cond_1 (grid0.coords t) ↔ t.val % 20 = 19 :=
  (by decide +kernel : ∀ t : Fin grid0.N, cond_1 (grid0.coords t) ↔ t.val % 20 = 19)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
/-- Where the emission does not happen the output window is idle and is not written back. -/
theorem idleAt_5 : ∀ t : Fin cfg0.N, ¬cond_1 (grid0.coords t) → cfg0.idle 5 (grid0.coords t) = true := by decide +kernel
theorem noFlush_5 : ∀ t : Fin cfg0.N, ¬cond_1 (grid0.coords t) → (cfg0.win 5).flush t = false := by decide +kernel
/-- Where it happens the output window is live. -/
theorem liveAt_5 : ∀ t : Fin cfg0.N, cond_1 (grid0.coords t) → cfg0.idle 5 (grid0.coords t) = false := by decide +kernel

/-! ## The memrefs the body is called with -/

/-- One staging buffer of the output window, through which its contents are stated. -/
abbrev VO : View sig .tc .vmem S1024x2 .f32 := (Memref.whole cc0_stg5_0 : Memref sig .tc .vmem S1024x2 .f32).view
abbrev ms_0 (t : Fin cfg0.N) : Memref sig .tc .vmem S1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x20480 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x2 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S256x2 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x2 .f32 := win0_5.stage (cfg0.slots t 5)
abbrev hs_5 (t : Fin cfg0.N) : (ms_5 t).IsWhole := hstage0_5 ((cfg0.slots t 5).cast nbuf0_5)
/-- The accumulator scratch: a whole scoped buffer of the kernel's own. -/
abbrev scM : Memref sig .tc .vmem S1024x256 .f32 := Memref.whole cc0_scratch0
abbrev VS : View sig .tc .vmem S1024x256 .f32 := (scM).view

end Cert.KernelIdeal.R0

end
-- ==== Proof.KI.R0RunA.lean ====
/-
  Region 0, case A (first feature tile: the scratch is reset, then one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, fun xi5 E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R0

end
-- ==== Proof.KI.R0RunB.lean ====
/-
  Region 0, case B (a middle feature tile: one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, fun xi5 E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R0

end
-- ==== Proof.KI.R0RunC.lean ====
/-
  Region 0, case C (last feature tile: one tile is accumulated, then the two output columns are computed from the accumulator and stored).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    Σ' (L5 : List (View.Piece (Elt F) S1024x2 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__nnue_kernel i arg2 harg2 arg3 harg3 arg4 harg4 arg5 harg5 arg6 harg6 arg7 harg7 arg8 harg8) K } := by
  refine ⟨?_, ?_, fun E K => ?run⟩
  case run =>
    simp only [cc0__nnue_kernel_eq_skeleton]; unfold cc0__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R0

end
-- ==== Proof.KI.R0Frame.lean ====
/-
  Region 0: what the accumulator scratch and the output block hold after each grid point, the proof data of the
  pipeline, and the body obligation at every point.

  After point t the scratch holds: in case A the pieces of the reset followed by one accumulation; in cases B and
  C the pieces of one accumulation over what point t - 1 left (the scratch is scoped to the kernel, nothing else
  touches it between two points). The output block is stored in case C only, from the accumulator; in cases A and
  B the window is idle and its buffer is handed back as found. The region invariant before point n > 0 is "the
  scratch holds what point n - 1 left, the other scoped buffers hold anything, the generator register is at some
  state"; before the first point it is the same with the scratch at anything.
-/
import proofs.«126539_j28192165331581_2_alg».proof.Proof.KI.R0RunA
import proofs.«126539_j28192165331581_2_alg».proof.Proof.KI.R0RunB
import proofs.«126539_j28192165331581_2_alg».proof.Proof.KI.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scover_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) (y : S1024x256.Idx) :
    ∃ pc ∈ (kernelRun_A c i arg2 harg2 arg3 harg3 arg4 harg4 arg5 harg5 arg6 harg6 arg7 harg7 arg8 harg8 hc0 hc1 x0 x1 x2 x3 x4).1, y ∈ pc.1.set :=
  View.cover_of_tiledL (kernelRun_A c i arg2 harg2 arg3 harg3 arg4 harg4 arg5 harg5 arg6 harg6 arg7 harg7 arg8 harg8 hc0 hc1 x0 x1 x2 x3 x4).1 S1024x256.size (by sl_kernel_rfl) y

/-- What case A leaves in the scratch: its pieces read back. -/
def sout_A (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) : Vec F S1024x256 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).1)

theorem scover_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_B c i arg2 harg2 arg3 harg3 arg4 harg4 arg5 harg5 arg6 harg6 arg7 harg7 arg8 harg8 hc0 hc1 x0 x1 x2 x3 x4 xs).1, y ∈ pc.1.set :=
  View.cover_of_tiledL (kernelRun_B c i arg2 harg2 arg3 harg3 arg4 harg4 arg5 harg5 arg6 harg6 arg7 harg7 arg8 harg8 hc0 hc1 x0 x1 x2 x3 x4 xs).1 S1024x256.size (by sl_kernel_rfl) y

/-- What case B leaves in the scratch. -/
def sout_B (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs).1)

theorem cover_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x2.Idx) :
    ∃ pc ∈ (kernelRun_C c i arg2 harg2 arg3 harg3 arg4 harg4 arg5 harg5 arg6 harg6 arg7 harg7 arg8 harg8 hc0 hc1 x0 x1 x2 x3 x4 xs).1, y ∈ pc.1.set :=
  View.cover_of_tiledL (kernelRun_C c i arg2 harg2 arg3 harg3 arg4 harg4 arg5 harg5 arg6 harg6 arg7 harg7 arg8 harg8 hc0 hc1 x0 x1 x2 x3 x4 xs).1 S1024x2.size (by sl_kernel_rfl) y

/-- What case C leaves in the output block. -/
def out_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x2 .f32 :=
  VO.read (Elt F) (VO.writes (Elt F) VO.junk (kernelRun_C c i arg2 harg2 arg3 harg3 arg4 harg4 arg5 harg5 arg6 harg6 arg7 harg7 arg8 harg8 hc0 hc1 x0 x1 x2 x3 x4 xs).1)

theorem scover_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_C c i arg2 harg2 arg3 harg3 arg4 harg4 arg5 harg5 arg6 harg6 arg7 harg7 arg8 harg8 hc0 hc1 x0 x1 x2 x3 x4 xs).2.1, y ∈ pc.1.set :=
  View.cover_of_tiledL (kernelRun_C c i arg2 harg2 arg3 harg3 arg4 harg4 arg5 harg5 arg6 harg6 arg7 harg7 arg8 harg8 hc0 hc1 x0 x1 x2 x3 x4 xs).2.1 S1024x256.size (by sl_kernel_rfl) y

/-- What case C leaves in the scratch. -/
def sout_C (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs).2.1)

/-! ## The cases at a grid point: its memrefs, its input blocks -/

def soutA_at (c : Dev nD) (t : Fin cfg0.N) (hc0 : cond_0 (grid0.coords t)) (hc1 : ¬cond_1 (grid0.coords t)) : Vec F S1024x256 .f32 :=
  sout_A c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)
def soutB_at (c : Dev nD) (t : Fin cfg0.N) (hc0 : ¬cond_0 (grid0.coords t)) (hc1 : ¬cond_1 (grid0.coords t)) (xs : Vec F S1024x256 .f32) : Vec F S1024x256 .f32 :=
  sout_B c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def soutC_at (c : Dev nD) (t : Fin cfg0.N) (hc0 : ¬cond_0 (grid0.coords t)) (hc1 : cond_1 (grid0.coords t)) (xs : Vec F S1024x256 .f32) : Vec F S1024x256 .f32 :=
  sout_C c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def outC_at (c : Dev nD) (t : Fin cfg0.N) (hc0 : ¬cond_0 (grid0.coords t)) (hc1 : cond_1 (grid0.coords t)) (xs : Vec F S1024x256 .f32) : Vec F S1024x2 .f32 :=
  out_C c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-- The output component at a point where the window is idle: a placeholder nothing consults. -/
def idleOut : Vec F S1024x2 .f32 := VO.read (Elt F) VO.junk

/-! ## What the output block and the scratch hold after each point -/

/-- After the point numbered n: (the output block's buffer, the scratch), by recursion on n — the case the point
    is in, run over what the point before left in the scratch. -/
def outsAt (c : Dev nD) : (n : ℕ) → n < cfg0.N → Vec F S1024x2 .f32 × Vec F S1024x256 .f32
  | 0, hn => (idleOut, soutA_at V c ⟨0, hn⟩ ((hcond_0 ⟨0, hn⟩).mpr (Nat.zero_mod _)) (fun h => (fun h => by (try dsimp only at h); omega) ((hcond_1 ⟨0, hn⟩).mp h)))
  | n + 1, hn =>
    if h0 : (n + 1) % 20 = 0 then
      (idleOut, soutA_at V c ⟨n + 1, hn⟩ ((hcond_0 ⟨n + 1, hn⟩).mpr h0) (fun h => (fun h => by (try dsimp only at h); omega) ((hcond_1 ⟨n + 1, hn⟩).mp h)))
    else
      if h1 : (n + 1) % 20 = 19 then
        (outC_at V c ⟨n + 1, hn⟩ (fun h => h0 ((hcond_0 ⟨n + 1, hn⟩).mp h)) ((hcond_1 ⟨n + 1, hn⟩).mpr h1) (outsAt c n (Nat.lt_of_succ_lt hn)).2,
         soutC_at V c ⟨n + 1, hn⟩ (fun h => h0 ((hcond_0 ⟨n + 1, hn⟩).mp h)) ((hcond_1 ⟨n + 1, hn⟩).mpr h1) (outsAt c n (Nat.lt_of_succ_lt hn)).2)
      else
        (idleOut, soutB_at V c ⟨n + 1, hn⟩ (fun h => h0 ((hcond_0 ⟨n + 1, hn⟩).mp h)) (fun h => h1 ((hcond_1 ⟨n + 1, hn⟩).mp h)) (outsAt c n (Nat.lt_of_succ_lt hn)).2)

theorem outsAt_A (c : Dev nD) (t : Fin cfg0.N) (h0 : t.val % 20 = 0) (h1 : ¬t.val % 20 = 19) :
    outsAt V c t.val t.isLt = (idleOut, soutA_at V c t ((hcond_0 t).mpr h0) (fun h => h1 ((hcond_1 t).mp h))) := by
  obtain ⟨n, hn⟩ := t
  cases n with
  | zero => exact rfl
  | succ n => exact (dif_pos h0).trans rfl

theorem outsAt_B (c : Dev nD) (t : Fin cfg0.N) (h0 : ¬t.val % 20 = 0) (h1 : ¬t.val % 20 = 19) :
    outsAt V c t.val t.isLt = (idleOut, soutB_at V c t (fun h => h0 ((hcond_0 t).mp h)) (fun h => h1 ((hcond_1 t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 20 = 0) (h1 : t.val % 20 = 19) :
    outsAt V c t.val t.isLt = (outC_at V c t (fun h => h0 ((hcond_0 t).mp h)) ((hcond_1 t).mpr h1) (outsAt V c (t.val - 1) (Nat.lt_of_le_of_lt (Nat.sub_le _ _) t.isLt)).2,
      soutC_at V c t (fun h => h0 ((hcond_0 t).mp h)) ((hcond_1 t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than this kernel's staging buffers and scratch, each whole at some contents. -/
def otherS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped rest and the generator register, with the scratch named: one way, -/
theorem PhiA_split (c : Dev nD) :
    (Pipeline.ΦA spec0 c : sProp 𝕄) ⊢ iprop((∃ d, owns (c : Thread nD τ) scM fullShare d) ∗ otherS (F := F) c ∗ (∃ r, prngReg c r)) := by
  unfold Pipeline.ΦA otherS; rw [scopedRest0_eq]; simp only [scM, owns_whole]
  iintro ⟨⟨HS, B0, B1, B2, B3, B4, B5, B6, B7, B8⟩, Hg⟩
  isplitl [HS]; · iexact HS
  isplitl [B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and back. -/
theorem PhiA_join (c : Dev nD) :
    iprop((∃ d, owns (c : Thread nD τ) scM fullShare d) ∗ otherS (F := F) c ∗ (∃ r, prngReg c r)) ⊢ (Pipeline.ΦA spec0 c : sProp 𝕄) := by
  unfold Pipeline.ΦA otherS; rw [scopedRest0_eq]; simp only [scM, owns_whole]
  iintro ⟨HS, ⟨B0, B1, B2, B3, B4, B5, B6, B7, B8⟩, Hg⟩
  isplitl [HS B0 B1 B2 B3 B4 B5 B6 B7 B8]
  · isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- Before the point numbered n: at n = 0 what the launch hands the region; afterwards the scratch at what point
    n - 1 left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare ((outsAt V c n hn).2) ∗ otherS (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare ((outsAt V c n hn).2) ∗ otherS (F := F) c ∗ (∃ r, prngReg c r)) := rfl

theorem PhiS_pos (c : Dev nD) (n : ℕ) (h : n ≤ cfg0.N) (hz : n ≠ 0) :
    PhiS V c n h = iprop(owns (c : Thread nD τ) scM fullShare ((outsAt V c (n - 1) (by omega)).2) ∗ otherS (F := F) c ∗ (∃ r, prngReg c r)) := by
  cases n with
  | zero => exact absurd rfl hz
  | succ n => rfl

/-! ## The pipeline's proof data -/

/-- The arrays as the region finds them; after the body at point t each input's buffer at its block and the
    output's at what the recursion says; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

theorem leaves_0 (c : Dev nD) (t : Fin cfg0.N) : (dat V c).leavesExact 0 t = owns (c : Thread nD τ) (ms_0 t) fullShare (iblk V c 0 t) := by
  unfold Dat.leavesExact; rw [liveAt_0 t, after_0]
theorem leaves_1 (c : Dev nD) (t : Fin cfg0.N) : (dat V c).leavesExact 1 t = owns (c : Thread nD τ) (ms_1 t) fullShare (iblk V c 1 t) := by
  unfold Dat.leavesExact; rw [liveAt_1 t, after_1]
theorem leaves_2 (c : Dev nD) (t : Fin cfg0.N) : (dat V c).leavesExact 2 t = owns (c : Thread nD τ) (ms_2 t) fullShare (iblk V c 2 t) := by
  unfold Dat.leavesExact; rw [liveAt_2 t, after_2]
theorem leaves_3 (c : Dev nD) (t : Fin cfg0.N) : (dat V c).leavesExact 3 t = owns (c : Thread nD τ) (ms_3 t) fullShare (iblk V c 3 t) := by
  unfold Dat.leavesExact; rw [liveAt_3 t, after_3]
theorem leaves_4 (c : Dev nD) (t : Fin cfg0.N) : (dat V c).leavesExact 4 t = owns (c : Thread nD τ) (ms_4 t) fullShare (iblk V c 4 t) := by
  unfold Dat.leavesExact; rw [liveAt_4 t, after_4]

set_option maxHeartbeats 4800000 in
/-- The body at any point: the inputs' memrefs hold their blocks; the closed forms of the two conditions say
    which case the point is in; the invariant hands the body the scratch at what the point before left (at
    anything at the very first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 80 := lt_of_lt_of_eq t.isLt (show cfg0.N = 80 from N_0)
  by_cases h0 : t.val % 20 = 0
  · have h1 : ¬t.val % 20 = 19 := by omega
    rw [Dat.leavesExact_idle (dat V c) 5 t (idleAt_5 t (fun h => h1 ((hcond_1 t).mp h))) (noFlush_5 t (fun h => h1 ((hcond_1 t).mp h)))]
    rw [outsAt_A V c t h0 h1]
    unfold soutA_at sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split (F := F) c) $$ HΦ
      icases HΦ' with ⟨HS, Hoth, Hg⟩
      iapply ((kernelRun_A c (grid0.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 20 = 19
    · rw [show (dat V c).leavesExact 5 t = owns (c : Thread nD τ) (ms_5 t) fullShare ((dat V c).after 5 t) from by
        unfold Dat.leavesExact; rw [liveAt_5 t ((hcond_1 t).mpr h1)], after_5]
      rw [outsAt_C V c t h0 h1]
      unfold outC_at soutC_at out_C sout_C; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_C c (grid0.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS]
        · unfold owns; iexists _; isplitr
          swap; · iexact HS
          ipureintro; exact View.read_writes_of_cover _ _ _ _ _ (scover_C c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt_5 t (fun h => h1 ((hcond_1 t).mp h))) (noFlush_5 t (fun h => h1 ((hcond_1 t).mp h)))]
      rw [outsAt_B V c t h0 h1]
      unfold soutB_at sout_B; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_B c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 80 := N_0; omega)]
  iintro ⟨HS, Hoth, Hg⟩
  iapply (PhiA_join (F := F) c)
  isplitl [HS]; · iexists _; iexact HS
  isplitl [Hoth]; · iexact Hoth
  iexact Hg

end Cert.KernelIdeal.R0

end
-- ==== Proof.KI.R1Runs.lean ====
/-
  Region 1 of the program (one launch of the accumulator kernel on a 4 x 20 grid: 4 batch tiles of 1024 rows,
  20 feature tiles of 1024 columns), stated at a PARAMETER V: what the core's buffers hold when the region is
  entered. What the three cases of the kernel body share.

  A grid point t has coordinates (t / 20, t % 20). The body zeroes its accumulator scratch when the feature tile
  is the first (t % 20 = 0), adds one tile's matrix product to it at every point, and when the feature tile is
  the last (t % 20 = 19) computes the two output columns from the accumulator and stores them in the output
  block. So a point is in one of three cases: A (first tile: reset, then accumulate), B (a middle tile:
  accumulate), C (last tile: accumulate, then emit). The output window is idle (neither stored nor written
  back) in cases A and B.
-/
import proofs.«126539_j28192165331581_2_alg».proof.Proof.Gen.KernelIdeal.Launch
import proofs.«126539_j28192165331581_2_alg».proof.Proof.Gen.KernelIdeal.Skeleton
import proofs.«126539_j28192165331581_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or not
    (an unfetched window's block index has not moved), for any proof data whose array is V's and whose body
    leaves the block in place. Windows 0 to 4 are the inputs. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The feature tile is the first": the condition of the reset. -/
abbrev cond_0 (i : grid1.Coords) : Prop := (Scalar.cmpi .ne (Scalar.extui (Scalar.cmpi .eq (BitVec.ofNat 32 (i 1).val) 0#32)) 0#32) = 1#1
/-- It holds at the points whose number is 0 modulo 20. -/
theorem hcond_0 : ∀ t : Fin cfg1.N, cond_0 (grid1.coords t) ↔ t.val % 20 = 0 :=
  (by decide +kernel : ∀ t : Fin grid1.N, cond_0 (grid1.coords t) ↔ t.val % 20 = 0)

/-- "The feature tile is the last": the condition of the emission. -/
abbrev cond_1 (i : grid1.Coords) : Prop := k1_cond2 i = 1#1
/-- It holds at the points whose number is 19 modulo 20. -/
theorem hcond_1 : ∀ t : Fin cfg1.N, cond_1 (grid1.coords t) ↔ t.val % 20 = 19 :=
  (by decide +kernel : ∀ t : Fin grid1.N, cond_1 (grid1.coords t) ↔ t.val % 20 = 19)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
/-- Where the emission does not happen the output window is idle and is not written back. -/
theorem idleAt_5 : ∀ t : Fin cfg1.N, ¬cond_1 (grid1.coords t) → cfg1.idle 5 (grid1.coords t) = true := by decide +kernel
theorem noFlush_5 : ∀ t : Fin cfg1.N, ¬cond_1 (grid1.coords t) → (cfg1.win 5).flush t = false := by decide +kernel
/-- Where it happens the output window is live. -/
theorem liveAt_5 : ∀ t : Fin cfg1.N, cond_1 (grid1.coords t) → cfg1.idle 5 (grid1.coords t) = false := by decide +kernel

/-! ## The memrefs the body is called with -/

/-- One staging buffer of the output window, through which its contents are stated. -/
abbrev VO : View sig .tc .vmem S1024x2 .f32 := (Memref.whole cc1_stg5_0 : Memref sig .tc .vmem S1024x2 .f32).view
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S256x20480 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x2 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S256x2 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x2 .f32 := win1_5.stage (cfg1.slots t 5)
abbrev hs_5 (t : Fin cfg1.N) : (ms_5 t).IsWhole := hstage1_5 ((cfg1.slots t 5).cast nbuf1_5)
/-- The accumulator scratch: a whole scoped buffer of the kernel's own. -/
abbrev scM : Memref sig .tc .vmem S1024x256 .f32 := Memref.whole cc1_scratch0
abbrev VS : View sig .tc .vmem S1024x256 .f32 := (scM).view

end Cert.KernelIdeal.R1

end
-- ==== Proof.KI.R1RunA.lean ====
/-
  Region 1, case A (first feature tile: the scratch is reset, then one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, fun xi5 E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.KI.R1RunB.lean ====
/-
  Region 1, case B (a middle feature tile: one tile is accumulated; the output is idle).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    { LS : List (View.Piece (Elt F) S1024x256 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, fun xi5 E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.KI.R1RunC.lean ====
/-
  Region 1, case C (last feature tile: one tile is accumulated, then the two output columns are computed from the accumulator and stored).
  The run of the kernel body on whole staging memrefs: the five inputs at their contents, an idle output handed
  back untouched, the accumulator scratch at what the point before left (or at anything, where the body resets it
  first); it ends with the inputs as they were and each buffer it stored into with its pieces written. The pieces
  are the witness the symbolic run finds.
-/
import proofs.«126539_j28192165331581_2_alg».proof.Proof.KI.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    Σ' (L5 : List (View.Piece (Elt F) S1024x2 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__nnue_kernel i arg2 harg2 arg3 harg3 arg4 harg4 arg5 harg5 arg6 harg6 arg7 harg7 arg8 harg8) K } := by
  refine ⟨?_, ?_, fun E K => ?run⟩
  case run =>
    simp only [cc1__nnue_kernel_eq_skeleton]; unfold cc1__nnue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R1

end
-- ==== Proof.KI.R1Frame.lean ====
/-
  Region 1: what the accumulator scratch and the output block hold after each grid point, the proof data of the
  pipeline, and the body obligation at every point.

  After point t the scratch holds: in case A the pieces of the reset followed by one accumulation; in cases B and
  C the pieces of one accumulation over what point t - 1 left (the scratch is scoped to the kernel, nothing else
  touches it between two points). The output block is stored in case C only, from the accumulator; in cases A and
  B the window is idle and its buffer is handed back as found. The region invariant before point n > 0 is "the
  scratch holds what point n - 1 left, the other scoped buffers hold anything, the generator register is at some
  state"; before the first point it is the same with the scratch at anything.
-/
import proofs.«126539_j28192165331581_2_alg».proof.Proof.KI.R1RunA
import proofs.«126539_j28192165331581_2_alg».proof.Proof.KI.R1RunB
import proofs.«126539_j28192165331581_2_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scover_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) (y : S1024x256.Idx) :
    ∃ pc ∈ (kernelRun_A c i arg2 harg2 arg3 harg3 arg4 harg4 arg5 harg5 arg6 harg6 arg7 harg7 arg8 harg8 hc0 hc1 x0 x1 x2 x3 x4).1, y ∈ pc.1.set :=
  View.cover_of_tiledL (kernelRun_A c i arg2 harg2 arg3 harg3 arg4 harg4 arg5 harg5 arg6 harg6 arg7 harg7 arg8 harg8 hc0 hc1 x0 x1 x2 x3 x4).1 S1024x256.size (by sl_kernel_rfl) y

/-- What case A leaves in the scratch: its pieces read back. -/
def sout_A (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) : Vec F S1024x256 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).1)

theorem scover_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_B c i arg2 harg2 arg3 harg3 arg4 harg4 arg5 harg5 arg6 harg6 arg7 harg7 arg8 harg8 hc0 hc1 x0 x1 x2 x3 x4 xs).1, y ∈ pc.1.set :=
  View.cover_of_tiledL (kernelRun_B c i arg2 harg2 arg3 harg3 arg4 harg4 arg5 harg5 arg6 harg6 arg7 harg7 arg8 harg8 hc0 hc1 x0 x1 x2 x3 x4 xs).1 S1024x256.size (by sl_kernel_rfl) y

/-- What case B leaves in the scratch. -/
def sout_B (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs).1)

theorem cover_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x2.Idx) :
    ∃ pc ∈ (kernelRun_C c i arg2 harg2 arg3 harg3 arg4 harg4 arg5 harg5 arg6 harg6 arg7 harg7 arg8 harg8 hc0 hc1 x0 x1 x2 x3 x4 xs).1, y ∈ pc.1.set :=
  View.cover_of_tiledL (kernelRun_C c i arg2 harg2 arg3 harg3 arg4 harg4 arg5 harg5 arg6 harg6 arg7 harg7 arg8 harg8 hc0 hc1 x0 x1 x2 x3 x4 xs).1 S1024x2.size (by sl_kernel_rfl) y

/-- What case C leaves in the output block. -/
def out_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x2 .f32 :=
  VO.read (Elt F) (VO.writes (Elt F) VO.junk (kernelRun_C c i arg2 harg2 arg3 harg3 arg4 harg4 arg5 harg5 arg6 harg6 arg7 harg7 arg8 harg8 hc0 hc1 x0 x1 x2 x3 x4 xs).1)

theorem scover_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) (y : S1024x256.Idx) :
    ∃ pc ∈ (kernelRun_C c i arg2 harg2 arg3 harg3 arg4 harg4 arg5 harg5 arg6 harg6 arg7 harg7 arg8 harg8 hc0 hc1 x0 x1 x2 x3 x4 xs).2.1, y ∈ pc.1.set :=
  View.cover_of_tiledL (kernelRun_C c i arg2 harg2 arg3 harg3 arg4 harg4 arg5 harg5 arg6 harg6 arg7 harg7 arg8 harg8 hc0 hc1 x0 x1 x2 x3 x4 xs).2.1 S1024x256.size (by sl_kernel_rfl) y

/-- What case C leaves in the scratch. -/
def sout_C (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) : Vec F S1024x256 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs).2.1)

/-! ## The cases at a grid point: its memrefs, its input blocks -/

def soutA_at (c : Dev nD) (t : Fin cfg1.N) (hc0 : cond_0 (grid1.coords t)) (hc1 : ¬cond_1 (grid1.coords t)) : Vec F S1024x256 .f32 :=
  sout_A c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)
def soutB_at (c : Dev nD) (t : Fin cfg1.N) (hc0 : ¬cond_0 (grid1.coords t)) (hc1 : ¬cond_1 (grid1.coords t)) (xs : Vec F S1024x256 .f32) : Vec F S1024x256 .f32 :=
  sout_B c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def soutC_at (c : Dev nD) (t : Fin cfg1.N) (hc0 : ¬cond_0 (grid1.coords t)) (hc1 : cond_1 (grid1.coords t)) (xs : Vec F S1024x256 .f32) : Vec F S1024x256 .f32 :=
  sout_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs
def outC_at (c : Dev nD) (t : Fin cfg1.N) (hc0 : ¬cond_0 (grid1.coords t)) (hc1 : cond_1 (grid1.coords t)) (xs : Vec F S1024x256 .f32) : Vec F S1024x2 .f32 :=
  out_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-- The output component at a point where the window is idle: a placeholder nothing consults. -/
def idleOut : Vec F S1024x2 .f32 := VO.read (Elt F) VO.junk

/-! ## What the output block and the scratch hold after each point -/

/-- After the point numbered n: (the output block's buffer, the scratch), by recursion on n — the case the point
    is in, run over what the point before left in the scratch. -/
def outsAt (c : Dev nD) : (n : ℕ) → n < cfg1.N → Vec F S1024x2 .f32 × Vec F S1024x256 .f32
  | 0, hn => (idleOut, soutA_at V c ⟨0, hn⟩ ((hcond_0 ⟨0, hn⟩).mpr (Nat.zero_mod _)) (fun h => (fun h => by (try dsimp only at h); omega) ((hcond_1 ⟨0, hn⟩).mp h)))
  | n + 1, hn =>
    if h0 : (n + 1) % 20 = 0 then
      (idleOut, soutA_at V c ⟨n + 1, hn⟩ ((hcond_0 ⟨n + 1, hn⟩).mpr h0) (fun h => (fun h => by (try dsimp only at h); omega) ((hcond_1 ⟨n + 1, hn⟩).mp h)))
    else
      if h1 : (n + 1) % 20 = 19 then
        (outC_at V c ⟨n + 1, hn⟩ (fun h => h0 ((hcond_0 ⟨n + 1, hn⟩).mp h)) ((hcond_1 ⟨n + 1, hn⟩).mpr h1) (outsAt c n (Nat.lt_of_succ_lt hn)).2,
         soutC_at V c ⟨n + 1, hn⟩ (fun h => h0 ((hcond_0 ⟨n + 1, hn⟩).mp h)) ((hcond_1 ⟨n + 1, hn⟩).mpr h1) (outsAt c n (Nat.lt_of_succ_lt hn)).2)
      else
        (idleOut, soutB_at V c ⟨n + 1, hn⟩ (fun h => h0 ((hcond_0 ⟨n + 1, hn⟩).mp h)) (fun h => h1 ((hcond_1 ⟨n + 1, hn⟩).mp h)) (outsAt c n (Nat.lt_of_succ_lt hn)).2)

theorem outsAt_A (c : Dev nD) (t : Fin cfg1.N) (h0 : t.val % 20 = 0) (h1 : ¬t.val % 20 = 19) :
    outsAt V c t.val t.isLt = (idleOut, soutA_at V c t ((hcond_0 t).mpr h0) (fun h => h1 ((hcond_1 t).mp h))) := by
  obtain ⟨n, hn⟩ := t
  cases n with
  | zero => exact rfl
  | succ n => exact (dif_pos h0).trans rfl

theorem outsAt_B (c : Dev nD) (t : Fin cfg1.N) (h0 : ¬t.val % 20 = 0) (h1 : ¬t.val % 20 = 19) :
    outsAt V c t.val t.isLt = (idleOut, soutB_at V c t (fun h => h0 ((hcond_0 t).mp h)) (fun h => h1 ((hcond_1 t).mp h)) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 20 = 0) (h1 : t.val % 20 = 19) :
    outsAt V c t.val t.isLt = (outC_at V c t (fun h => h0 ((hcond_0 t).mp h)) ((hcond_1 t).mpr h1) (outsAt V c (t.val - 1) (Nat.lt_of_le_of_lt (Nat.sub_le _ _) t.isLt)).2,
      soutC_at V c t (fun h => h0 ((hcond_0 t).mp h)) ((hcond_1 t).mpr h1) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than this kernel's staging buffers and scratch, each whole at some contents. -/
def otherS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The scoped rest and the generator register, with the scratch named: one way, -/
theorem PhiA_split (c : Dev nD) :
    (Pipeline.ΦA spec1 c : sProp 𝕄) ⊢ iprop((∃ d, owns (c : Thread nD τ) scM fullShare d) ∗ otherS (F := F) c ∗ (∃ r, prngReg c r)) := by
  unfold Pipeline.ΦA otherS; rw [scopedRest1_eq]; simp only [scM, owns_whole]
  iintro ⟨⟨B0, B1, B2, B3, B4, B5, B6, B7, B8, HS⟩, Hg⟩
  isplitl [HS]; · iexact HS
  isplitl [B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- and back. -/
theorem PhiA_join (c : Dev nD) :
    iprop((∃ d, owns (c : Thread nD τ) scM fullShare d) ∗ otherS (F := F) c ∗ (∃ r, prngReg c r)) ⊢ (Pipeline.ΦA spec1 c : sProp 𝕄) := by
  unfold Pipeline.ΦA otherS; rw [scopedRest1_eq]; simp only [scM, owns_whole]
  iintro ⟨HS, ⟨B0, B1, B2, B3, B4, B5, B6, B7, B8⟩, Hg⟩
  isplitl [HS B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg

/-- Before the point numbered n: at n = 0 what the launch hands the region; afterwards the scratch at what point
    n - 1 left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare ((outsAt V c n hn).2) ∗ otherS (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ otherS (F := F) c ∗ (∃ r, prngReg c r)) := rfl

theorem PhiS_pos (c : Dev nD) (n : ℕ) (h : n ≤ cfg1.N) (hz : n ≠ 0) :
    PhiS V c n h = iprop(owns (c : Thread nD τ) scM fullShare ((outsAt V c (n - 1) (by omega)).2) ∗ otherS (F := F) c ∗ (∃ r, prngReg c r)) := by
  cases n with
  | zero => exact absurd rfl hz
  | succ n => rfl

/-! ## The pipeline's proof data -/

/-- The arrays as the region finds them; after the body at point t each input's buffer at its block and the
    output's at what the recursion says; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

theorem leaves_0 (c : Dev nD) (t : Fin cfg1.N) : (dat V c).leavesExact 0 t = owns (c : Thread nD τ) (ms_0 t) fullShare (iblk V c 0 t) := by
  unfold Dat.leavesExact; rw [liveAt_0 t, after_0]
theorem leaves_1 (c : Dev nD) (t : Fin cfg1.N) : (dat V c).leavesExact 1 t = owns (c : Thread nD τ) (ms_1 t) fullShare (iblk V c 1 t) := by
  unfold Dat.leavesExact; rw [liveAt_1 t, after_1]
theorem leaves_2 (c : Dev nD) (t : Fin cfg1.N) : (dat V c).leavesExact 2 t = owns (c : Thread nD τ) (ms_2 t) fullShare (iblk V c 2 t) := by
  unfold Dat.leavesExact; rw [liveAt_2 t, after_2]
theorem leaves_3 (c : Dev nD) (t : Fin cfg1.N) : (dat V c).leavesExact 3 t = owns (c : Thread nD τ) (ms_3 t) fullShare (iblk V c 3 t) := by
  unfold Dat.leavesExact; rw [liveAt_3 t, after_3]
theorem leaves_4 (c : Dev nD) (t : Fin cfg1.N) : (dat V c).leavesExact 4 t = owns (c : Thread nD τ) (ms_4 t) fullShare (iblk V c 4 t) := by
  unfold Dat.leavesExact; rw [liveAt_4 t, after_4]

set_option maxHeartbeats 4800000 in
/-- The body at any point: the inputs' memrefs hold their blocks; the closed forms of the two conditions say
    which case the point is in; the invariant hands the body the scratch at what the point before left (at
    anything at the very first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 80 := lt_of_lt_of_eq t.isLt (show cfg1.N = 80 from N_1)
  by_cases h0 : t.val % 20 = 0
  · have h1 : ¬t.val % 20 = 19 := by omega
    rw [Dat.leavesExact_idle (dat V c) 5 t (idleAt_5 t (fun h => h1 ((hcond_1 t).mp h))) (noFlush_5 t (fun h => h1 ((hcond_1 t).mp h)))]
    rw [outsAt_A V c t h0 h1]
    unfold soutA_at sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split (F := F) c) $$ HΦ
      icases HΦ' with ⟨HS, Hoth, Hg⟩
      iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_A c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 20 = 19
    · rw [show (dat V c).leavesExact 5 t = owns (c : Thread nD τ) (ms_5 t) fullShare ((dat V c).after 5 t) from by
        unfold Dat.leavesExact; rw [liveAt_5 t ((hcond_1 t).mpr h1)], after_5]
      rw [outsAt_C V c t h0 h1]
      unfold outC_at soutC_at out_C sout_C; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS]
        · unfold owns; iexists _; isplitr
          swap; · iexact HS
          ipureintro; exact View.read_writes_of_cover _ _ _ _ _ (scover_C c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C c _ _ _ _ _ _ _ _ _ _ _ _ _ _ _ _ _ _ _ _ _ _ _)
    · rw [Dat.leavesExact_idle (dat V c) 5 t (idleAt_5 t (fun h => h1 ((hcond_1 t).mp h))) (noFlush_5 t (fun h => h1 ((hcond_1 t).mp h)))]
      rw [outsAt_B V c t h0 h1]
      unfold soutB_at sout_B; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS]
        · unfold owns; iexists _; isplitr
          swap; · iexact HS
          ipureintro; exact View.read_writes_of_cover _ _ _ _ _ (scover_B c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 80 := N_1; omega)]
  iintro ⟨HS, Hoth, Hg⟩
  iapply (PhiA_join (F := F) c)
  isplitl [HS]; · iexists _; iexact HS
  isplitl [Hoth]; · iexact Hoth
  iexact Hg

end Cert.KernelIdeal.R1

end
-- ==== Proof.KI.Run.lean ====
/-
  The whole program as a run: eight stretches of host operations build the kernel's operands, the two kernel
  regions run one after the other (the white batch, then the black batch), one host subtraction ends it.

  Between two items every unscoped buffer of the core is held at known contents: the launch memory, then each
  host stretch's operations applied, then after a region its arrays at what the pipeline's write-backs leave
  (the inputs as entered, the output array as the proof data says) and every other buffer as entered. Each
  region is entered from the contents the item before it left; its proof data are the region modules' at those
  contents. At the end every unscoped buffer is read against the last contents: the arguments have come through
  unchanged and the result is the difference of the two regions' output arrays.
-/
import proofs.«126539_j28192165331581_2_alg».proof.Proof.Gen.KernelIdeal.Regions
import proofs.«126539_j28192165331581_2_alg».proof.Proof.KI.R0Frame
import proofs.«126539_j28192165331581_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What region 0 is entered from: the launch memory after the eight host stretches. -/
abbrev E0 : (c : Dev nD) → (b : Ref sig .tc) → Buf (Elt F) ((c : Thread nD τ).loc b) := fun c b => Gen.V8 m c b
/-- After region 0: its arrays at what the pipeline leaves, every other buffer as entered. -/
def W9 (c : Dev nD) : Valuation τ sig (Elt F) :=
  Pipeline.withArrays spec0 c (Gen.V8 m c) fun w => (R0.dat (E0 m) c).arrAt w cfg0.N
theorem W9_arr (c : Dev nD) (w : Fin cfg0.W) :
    W9 m c (Proc.devRef .tc (Pipeline.arrRef spec0 w)) = (R0.dat (E0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = Gen.V8 m c (Proc.devRef .tc b) := by
  unfold W9; exact Pipeline.withArrays_of_ne spec0 c _ _ b hb
/-- What region 1 is entered from. -/
abbrev E1 : (c : Dev nD) → (b : Ref sig .tc) → Buf (Elt F) ((c : Thread nD τ).loc b) := fun c b => W9 m c b
theorem hF0 (c : Dev nD) (w : Fin cfg0.W) : (R0.dat (E0 m) c).arrAt w cfg0.N = E1 m c (Pipeline.arrRef spec0 w) :=
  (W9_arr m c w).symm
theorem hrest0 (c : Dev nD) : ∀ b, b ∉ Finset.univ.image (Pipeline.arrRef spec0) → E1 m c b = E0 m c b :=
  fun b hb => W9_of_ne m c b fun w e => hb (Finset.mem_image.mpr ⟨w, Finset.mem_univ _, e⟩)

/-- After region 1. -/
def W10 (c : Dev nD) : Valuation τ sig (Elt F) :=
  Pipeline.withArrays spec1 c (W9 m c) fun w => (R1.dat (E1 m) c).arrAt w cfg1.N
theorem W10_arr (c : Dev nD) (w : Fin cfg1.W) :
    W10 m c (Proc.devRef .tc (Pipeline.arrRef spec1 w)) = (R1.dat (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E2 : (c : Dev nD) → (b : Ref sig .tc) → Buf (Elt F) ((c : Thread nD τ).loc b) := fun c b => W10 m c b
theorem hF1 (c : Dev nD) (w : Fin cfg1.W) : (R1.dat (E1 m) c).arrAt w cfg1.N = E2 m c (Pipeline.arrRef spec1 w) :=
  (W10_arr m c w).symm
theorem hrest1 (c : Dev nD) : ∀ b, b ∉ Finset.univ.image (Pipeline.arrRef spec1) → E2 m c b = E1 m c b :=
  fun b hb => W10_of_ne m c b fun w e => hb (Finset.mem_image.mpr ⟨w, Finset.mem_univ _, e⟩)

/-- After the closing subtraction. -/
abbrev W11 (c : Dev nD) : Valuation τ sig (Elt F) := StableHlo.after hostOps2 (W10 m c)
theorem W11_of (c : Dev nD) (r : Ref sig .tc) (h : r ∉ Gen.hostOps2_W) : W11 m c r = W10 m c r :=
  StableHlo.after_of_writes_sub hostOps2 _ Gen.hostOps2_writes h

/-! ## The arguments come through unchanged -/

theorem V8_arg (c : Dev nD) (r : Ref sig .tc) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    Gen.V8 m c r = m ((c : Thread nD τ).loc r) :=
  (Gen.V8_of m c r h8).trans <| (Gen.V7_of m c r h7).trans <| (Gen.V6_of m c r h6).trans <| (Gen.V5_of m c r h5).trans <|
    (Gen.V4_of m c r h4).trans <| (Gen.V3_of m c r h3).trans <| (Gen.V2_of m c r h2).trans <| (Gen.V1_of m c r h1).trans rfl

theorem W9_main_arg0 (c : Dev nD) : W9 m c main_arg0 = m ((c : Thread nD τ).loc main_arg0) :=
  (W9_arr m c 0).trans (((R0.dat (E0 m) c).arrAt_in 0 rfl _).trans ((R0.A_eq (E0 m) c 0).trans
    (V8_arg m c main_arg0 (by decide) (by decide) (by decide) (by decide) (by decide) (by decide) (by decide) (by decide))))
theorem W9_other (c : Dev nD) (r : Ref sig .tc) (hb : ∀ w, Pipeline.arrRef spec0 w ≠ r) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    W9 m c r = m ((c : Thread nD τ).loc r) :=
  (W9_of_ne m c r hb).trans (V8_arg m c r h1 h2 h3 h4 h5 h6 h7 h8)

theorem W10_main_arg1 (c : Dev nD) : W10 m c main_arg1 = m ((c : Thread nD τ).loc main_arg1) :=
  (W10_arr m c 0).trans (((R1.dat (E1 m) c).arrAt_in 0 rfl _).trans ((R1.A_eq (E1 m) c 0).trans
    (W9_other m c main_arg1 (by decide) (by decide) (by decide) (by decide) (by decide) (by decide) (by decide) (by decide) (by decide))))

theorem W11_main_arg0 (c : Dev nD) : W11 m c main_arg0 = m ((c : Thread nD τ).loc main_arg0) :=
  (W11_of m c main_arg0 (by decide)).trans ((W10_of_ne m c main_arg0 (by decide)).trans (W9_main_arg0 m c))
theorem W11_main_arg1 (c : Dev nD) : W11 m c main_arg1 = m ((c : Thread nD τ).loc main_arg1) :=
  (W11_of m c main_arg1 (by decide)).trans (W10_main_arg1 m c)
theorem W11_other (c : Dev nD) (r : Ref sig .tc) (h0 : r ∉ Gen.hostOps2_W) (hb1 : ∀ w, Pipeline.arrRef spec1 w ≠ r) (hb : ∀ w, Pipeline.arrRef spec0 w ≠ r) (h1 : r ∉ Gen.hostOps0_W) (h2 : r ∉ Gen.hostOps0_1_W) (h3 : r ∉ Gen.hostOps0_2_W)
    (h4 : r ∉ Gen.hostOps0_3_W) (h5 : r ∉ Gen.hostOps0_4_W) (h6 : r ∉ Gen.hostOps0_5_W) (h7 : r ∉ Gen.hostOps0_6_W) (h8 : r ∉ Gen.hostOps0_7_W) :
    W11 m c r = m ((c : Thread nD τ).loc r) :=
  (W11_of m c r h0).trans ((W10_of_ne m c r hb1).trans (W9_other m c r hb h1 h2 h3 h4 h5 h6 h7 h8))
theorem W11_main_arg2 (c : Dev nD) : W11 m c main_arg2 = m ((c : Thread nD τ).loc main_arg2) :=
  W11_other m c main_arg2 (by decide) (by decide) (by decide) (by decide) (by decide) (by decide) (by decide) (by decide) (by decide) (by decide) (by decide)
theorem W11_main_arg3 (c : Dev nD) : W11 m c main_arg3 = m ((c : Thread nD τ).loc main_arg3) :=
  W11_other m c main_arg3 (by decide) (by decide) (by decide) (by decide) (by decide) (by decide) (by decide) (by decide) (by decide) (by decide) (by decide)
theorem W11_main_arg4 (c : Dev nD) : W11 m c main_arg4 = m ((c : Thread nD τ).loc main_arg4) :=
  W11_other m c main_arg4 (by decide) (by decide) (by decide) (by decide) (by decide) (by decide) (by decide) (by decide) (by decide) (by decide) (by decide)
theorem W11_main_arg5 (c : Dev nD) : W11 m c main_arg5 = m ((c : Thread nD τ).loc main_arg5) :=
  W11_other m c main_arg5 (by decide) (by decide) (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-- The closing host stretch as a segment, from the contents region 1 leaves. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W10 m) (R (F := F))

/-! ## The regions as segments -/

set_option backward.isDefEq.respectTransparency.types false in
/-- Region 0 over the thread state: its arrays split out of the unscoped buffers and put back at the exit
    contents; the generator register and the scoped rest into the region invariant and out; nothing owed; no
    semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (Gen.V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the same over its own contents. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven items in order. -/
abbrev segs (c : Dev nD) : List (Seg (pcfgs (F := F)) adm (pdats m) () defs₀ 𝒱₀ L lv) :=
  [.host (Gen.seg0 m 𝒱₀ L lv (ER (F := F))), .host (Gen.seg1 m 𝒱₀ L lv (ER (F := F))), .host (Gen.seg2 m 𝒱₀ L lv (ER (F := F))), .host (Gen.seg3 m 𝒱₀ L lv (ER (F := F))),
   .host (Gen.seg4 m 𝒱₀ L lv (ER (F := F))), .host (Gen.seg5 m 𝒱₀ L lv (ER (F := F))), .host (Gen.seg6 m 𝒱₀ L lv (ER (F := F))), .host (Gen.seg7 m 𝒱₀ L lv (ER (F := F))),
   .region (reg0 m), .region (reg1 m), .host (segLast m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state regrouped: the buffers and the generator register on one side, the core owing nothing on the other. -/
theorem lastChain (c : Dev nD) :
    iprop(StableHlo.held (c : Thread nD τ) (Pipeline.ucRefs τ sig) (W11 m c) ∗ R (F := F) c)
      ⊢ iprop(iprop(StableHlo.held (c : Thread nD τ) (Pipeline.ucRefs τ sig) (W11 m c) ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of the program terminates, and in every
    final state the result array holds the last contents' and each argument array is as launched. -/
theorem run : θ_run defs (onTc (τ := τ) (main (F := F))) ⟨m, fun _ => 0, ρ⟩ (fun r => ∀ c : Dev nD,
      r.2.mem ((c.tc : Thread nD τ).loc main_v16) = W11 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W11 m c) ∗ ∃ r, prngReg c r))
    (hch := fun c => ⟨.rfl, .rfl, .rfl, .rfl, .rfl, .rfl, .rfl, .rfl, .rfl, .rfl, .rfl, lastChain m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c =>
      ⟨h c _ (mem_uc main_v16 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c)⟩)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Run

end
-- ==== Proof.KI.R0Pieces.lean ====
/-
  Region 0: what each case of the kernel body leaves, as values.

  Every load and store of the body goes through a whole buffer, except the load of the stacked weight, which
  reads the 256 x 1024 part of it that belongs to the point's feature tile. So the pieces the run found read back
  as follows. The scratch after case A (reset, then accumulate) holds the accumulation payload over the zero block;
  after cases B and C it holds the accumulation payload over what the scratch held before. The output block after
  case C holds the emission payload of the scratch it has just written, the bias row and the two 256 x 2 matrices.
  All four statements hold for any arithmetic on the floats: nothing is computed here.
-/
import proofs.«126539_j28192165331581_2_alg».proof.Proof.KI.R0Frame
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets on both axes, however they are spelt. -/
theorem hz2 : (![0, 0] : Fin 2 → Nat) = fun _ => 0 := funext fun a => by fin_cases a <;> rfl

/-- The part of the stacked weight the body loads at a point: all 256 rows, the 1024 columns of the point's
    feature tile. -/
abbrev wslice (i : grid0.Coords) : Rect S256x20480 := Rect.unit (s := S256x20480) (k0_off1 i) S256x1024.size (k0_off1_inb i)

/-- Case A leaves in the scratch: the zero block plus the product of the input block with the weight slice. -/
theorem sout_A_eq (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    sout_A c i arg2 harg2 arg3 harg3 arg4 harg4 arg5 harg5 arg6 harg6 arg7 harg7 arg8 harg8 hc0 hc1 x0 x1 x2 x3 x4 = k0_pay2 (View.ld x1 (wslice i)) x0 k0_pay1 := by
  unfold sout_A
  rw [View.read_writes_eq_canon _ _ _ (scover_A c i arg2 harg2 arg3 harg3 arg4 harg4 arg5 harg5 arg6 harg6 arg7 harg7 arg8 harg8 hc0 hc1 x0 x1 x2 x3 x4)]
  unfold kernelRun_A
  dsimp only
  sl_unfold_run_names
  rw [View.canon_cons_unit_zero (S := S1024x256) hz2, View.readCov_unit_zero (S := S1024x256) _ hz2]
  simp only [View.readAt_eq_ld, harg2.read_unread, harg3.read_unread, View.ld_unit_zero (S := S1024x1024) hz2]

/-- Case B leaves in the scratch: what it held plus the product of the input block with the weight slice. -/
theorem sout_B_eq (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    sout_B c i arg2 harg2 arg3 harg3 arg4 harg4 arg5 harg5 arg6 harg6 arg7 harg7 arg8 harg8 hc0 hc1 x0 x1 x2 x3 x4 xs = k0_pay2 (View.ld x1 (wslice i)) x0 xs := by
  unfold sout_B
  rw [View.read_writes_eq_canon _ _ _ (scover_B c i arg2 harg2 arg3 harg3 arg4 harg4 arg5 harg5 arg6 harg6 arg7 harg7 arg8 harg8 hc0 hc1 x0 x1 x2 x3 x4 xs)]
  unfold kernelRun_B
  dsimp only
  sl_unfold_run_names
  rw [View.canon_unit_zero (S := S1024x256) hz2]
  simp only [View.readAt_eq_ld, harg2.read_unread, harg3.read_unread, harg8.read_unread, View.ld_unit_zero (S := S1024x1024) hz2, View.ld_unit_zero (S := S1024x256) hz2]

/-- Case C leaves in the scratch the same as case B. -/
theorem sout_C_eq (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    sout_C c i arg2 harg2 arg3 harg3 arg4 harg4 arg5 harg5 arg6 harg6 arg7 harg7 arg8 harg8 hc0 hc1 x0 x1 x2 x3 x4 xs = k0_pay2 (View.ld x1 (wslice i)) x0 xs := by
  unfold sout_C
  rw [View.read_writes_eq_canon _ _ _ (scover_C c i arg2 harg2 arg3 harg3 arg4 harg4 arg5 harg5 arg6 harg6 arg7 harg7 arg8 harg8 hc0 hc1 x0 x1 x2 x3 x4 xs)]
  unfold kernelRun_C
  dsimp only
  sl_unfold_run_names
  rw [View.canon_unit_zero (S := S1024x256) hz2]
  simp only [View.readAt_eq_ld, harg2.read_unread, harg3.read_unread, harg8.read_unread, View.ld_unit_zero (S := S1024x1024) hz2, View.ld_unit_zero (S := S1024x256) hz2]

/-- Case C leaves in the output block: the two output columns computed from the accumulator it has just updated,
    the bias row and the two 256 x 2 matrices. -/
theorem out_C_eq (c : Dev nD) (i : grid0.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    out_C c i arg2 harg2 arg3 harg3 arg4 harg4 arg5 harg5 arg6 harg6 arg7 harg7 arg8 harg8 hc0 hc1 x0 x1 x2 x3 x4 xs = k0_pay3 (k0_pay2 (View.ld x1 (wslice i)) x0 xs) x2 x3 x4 := by
  unfold out_C
  rw [View.read_writes_eq_canon _ _ _ (cover_C c i arg2 harg2 arg3 harg3 arg4 harg4 arg5 harg5 arg6 harg6 arg7 harg7 arg8 harg8 hc0 hc1 x0 x1 x2 x3 x4 xs)]
  unfold kernelRun_C
  dsimp only
  sl_unfold_run_names
  rw [View.canon_unit_zero (S := S1024x2) hz2, View.readCov_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1x256) hz2, View.ld_unit_zero (S := S256x2) hz2]

end Cert.KernelIdeal.R0

end
-- ==== Proof.KI.R0Blocks.lean ====
/-
  Region 0: the windows' blocks and the weight slice, read entry by entry.

  A grid point t has coordinates (t / 20, t % 20). The input window's block at t is the 1024 x 1024 tile of the
  batch of feature rows at tile row t / 20 and tile column t % 20: its entry (p, f) is the batch's entry
  (1024 (t / 20) + p, 1024 (t % 20) + f). The four small operands' windows hold their whole arrays at every point:
  a block's entry is the array's entry at the same place. The slice of the stacked weight the body loads at a point
  with feature tile k is columns 1024 k to 1024 k + 1023 of all 256 rows. In each case an element of a block sits in
  its array, on every axis, at the block's index times the block's extent plus the element's own coordinate, and the
  block indices are decided once over the 80 grid points.
-/
import proofs.«126539_j28192165331581_2_alg».proof.Proof.KI.R0Pieces
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The block indices, decided over the grid -/

/-- The input window's block index at point t is (t / 20, t % 20); the four small operands' is (0, 0); the output
    window's is (t / 20, 0). -/
theorem idx_facts : ∀ t : Fin cfg0.N,
    win0_0.index t (0 : Fin 2) = t.val / 20 ∧ win0_0.index t (1 : Fin 2) = t.val % 20
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 20 ∧ win0_5.index t (1 : Fin 2) = 0 :=
  (by decide +kernel : ∀ t : Fin grid0.N, _)

/-- The grid's coordinates of point t are (t / 20, t % 20). -/
theorem coords_facts : ∀ t : Fin cfg0.N, ((grid0.coords t) 0).val = t.val / 20 ∧ ((grid0.coords t) 1).val = t.val % 20 :=
  (by decide +kernel : ∀ t : Fin grid0.N, _)

/-- There are 80 grid points. -/
theorem lt_80 (t : Fin cfg0.N) : t.val < 80 := lt_of_lt_of_eq t.isLt (show cfg0.N = 80 from N_0)

/-! ## The blocks, entry by entry -/

/-- Entry (p, f) of the input block at point t is the batch's entry (1024 (t / 20) + p, 1024 (t % 20) + f). -/
theorem iblk0_apply (c : Dev nD) (t : Fin cfg0.N) (p f : Fin 1024) :
    (iblk V c 0 t : Vec F S1024x1024 .f32) (ix2 p f)
      = (V c main_arg0 : Vec F S4096x20480 .f32)
          (ix2 (⟨1024 * (t.val / 20) + p.val, by have := lt_80 t; omega⟩ : Fin 4096)
            (⟨1024 * (t.val % 20) + f.val, by omega⟩ : Fin 20480)) := by
  obtain ⟨e0, e1, -⟩ := idx_facts t
  unfold iblk
  rw [View.read_apply]
  show (V c main_arg0 : Vec F S4096x20480 .f32) _ = (V c main_arg0 : Vec F S4096x20480 .f32) _
  refine congrArg (V c main_arg0 : Vec F S4096x20480 .f32) (funext fun a => Fin.ext ?_)
  match a with
  | ⟨0, _⟩ => show win0_0.index t (0 : Fin 2) * 1024 + 1 * p.val = 1024 * (t.val / 20) + p.val; rw [e0]; omega
  | ⟨1, _⟩ => show win0_0.index t (1 : Fin 2) * 1024 + 1 * f.val = 1024 * (t.val % 20) + f.val; rw [e1]; omega

/-- The stacked weight's window holds the whole array at every point. -/
theorem iblk1_apply (c : Dev nD) (t : Fin cfg0.N) (q : Fin 256) (f : Fin 20480) :
    (iblk V c 1 t : Vec F S256x20480 .bf16) (ix2 q f) = (V c main_v2 : Vec F S256x20480 .bf16) (ix2 q f) := by
  obtain ⟨-, -, e0, e1, -⟩ := idx_facts t
  unfold iblk
  rw [View.read_apply]
  show (V c main_v2 : Vec F S256x20480 .bf16) _ = (V c main_v2 : Vec F S256x20480 .bf16) _
  refine congrArg (V c main_v2 : Vec F S256x20480 .bf16) (funext fun a => Fin.ext ?_)
  match a with
  | ⟨0, _⟩ => show win0_1.index t (0 : Fin 2) * 256 + 1 * q.val = q.val; rw [e0]; omega
  | ⟨1, _⟩ => show win0_1.index t (1 : Fin 2) * 20480 + 1 * f.val = f.val; rw [e1]; omega

/-- The bias row's window holds the whole array at every point. -/
theorem iblk2_apply (c : Dev nD) (t : Fin cfg0.N) (u : Fin 1) (q : Fin 256) :
    (iblk V c 2 t : Vec F S1x256 .f32) (ix2 u q) = (V c main_v4 : Vec F S1x256 .f32) (ix2 u q) := by
  obtain ⟨-, -, -, -, e0, e1, -⟩ := idx_facts t
  unfold iblk
  rw [View.read_apply]
  show (V c main_v4 : Vec F S1x256 .f32) _ = (V c main_v4 : Vec F S1x256 .f32) _
  refine congrArg (V c main_v4 : Vec F S1x256 .f32) (funext fun a => Fin.ext ?_)
  match a with
  | ⟨0, _⟩ => show win0_2.index t (0 : Fin 2) * 1 + 1 * u.val = u.val; rw [e0]; omega
  | ⟨1, _⟩ => show win0_2.index t (1 : Fin 2) * 256 + 1 * q.val = q.val; rw [e1]; omega

/-- The output layer's window holds the whole array at every point. -/
theorem iblk3_apply (c : Dev nD) (t : Fin cfg0.N) (q : Fin 256) (o : Fin 2) :
    (iblk V c 3 t : Vec F S256x2 .f32) (ix2 q o) = (V c main_v6 : Vec F S256x2 .f32) (ix2 q o) := by
  obtain ⟨-, -, -, -, -, -, e0, e1, -⟩ := idx_facts t
  unfold iblk
  rw [View.read_apply]
  show (V c main_v6 : Vec F S256x2 .f32) _ = (V c main_v6 : Vec F S256x2 .f32) _
  refine congrArg (V c main_v6 : Vec F S256x2 .f32) (funext fun a => Fin.ext ?_)
  match a with
  | ⟨0, _⟩ => show win0_3.index t (0 : Fin 2) * 256 + 1 * q.val = q.val; rw [e0]; omega
  | ⟨1, _⟩ => show win0_3.index t (1 : Fin 2) * 2 + 1 * o.val = o.val; rw [e1]; omega

/-- The selector's window holds the whole array at every point. -/
theorem iblk4_apply (c : Dev nD) (t : Fin cfg0.N) (q : Fin 256) (o : Fin 2) :
    (iblk V c 4 t : Vec F S256x2 .f32) (ix2 q o) = (V c main_v13 : Vec F S256x2 .f32) (ix2 q o) := by
  obtain ⟨-, -, -, -, -, -, -, -, e0, e1, -⟩ := idx_facts t
  unfold iblk
  rw [View.read_apply]
  show (V c main_v13 : Vec F S256x2 .f32) _ = (V c main_v13 : Vec F S256x2 .f32) _
  refine congrArg (V c main_v13 : Vec F S256x2 .f32) (funext fun a => Fin.ext ?_)
  match a with
  | ⟨0, _⟩ => show win0_4.index t (0 : Fin 2) * 256 + 1 * q.val = q.val; rw [e0]; omega
  | ⟨1, _⟩ => show win0_4.index t (1 : Fin 2) * 2 + 1 * o.val = o.val; rw [e1]; omega

/-! ## The weight slice, entry by entry -/

/-- Entry (q, f) of the slice loaded at a point with feature tile k = i 1 is the weight's entry (q, 1024 k + f). -/
theorem wslice_ld (x1 : Vec F S256x20480 .bf16) (i : grid0.Coords) (q : Fin 256) (f : Fin 1024) :
    (View.ld x1 (wslice i) : Vec F S256x1024 .bf16) (ix2 q f)
      = x1 (ix2 q (⟨1024 * (i 1).val + f.val, by have : (i 1).val < 20 := (i 1).isLt; omega⟩ : Fin 20480)) := by
  show x1 ((wslice i).idx (ix2 q f)) = _
  refine congrArg x1 (funext fun a => Fin.ext ?_)
  match a with
  | ⟨0, _⟩ =>
    show k0_off1 i (0 : Fin 2) + 1 * q.val = q.val
    rw [k0_off1_eq i]; show 0 + 1 * q.val = q.val; omega
  | ⟨1, _⟩ =>
    show k0_off1 i (1 : Fin 2) + 1 * f.val = 1024 * (i 1).val + f.val
    rw [k0_off1_eq i]; show 1024 * (i 1).val + 1 * f.val = 1024 * (i 1).val + f.val; omega

/-- The same at a grid point: feature tile t % 20. -/
theorem wslice_ld_at (x1 : Vec F S256x20480 .bf16) (t : Fin cfg0.N) (q : Fin 256) (f : Fin 1024) :
    (View.ld x1 (wslice (grid0.coords t)) : Vec F S256x1024 .bf16) (ix2 q f)
      = x1 (ix2 q (⟨1024 * (t.val % 20) + f.val, by omega⟩ : Fin 20480)) := by
  rw [wslice_ld x1 (grid0.coords t) q f]
  refine congrArg x1 (congrArg (ix2 q) (Fin.ext ?_))
  show 1024 * ((grid0.coords t) 1).val + f.val = 1024 * (t.val % 20) + f.val
  rw [(coords_facts t).2]

end Cert.KernelIdeal.R0

end
-- ==== Proof.KI.R0Cover.lean ====
/-
  Region 0: from the output blocks to the output array.

  The output window is written back exactly at the points whose feature tile is the last (t % 20 = 19); the block
  written back at such a point is rows 1024 (t / 20) to 1024 (t / 20) + 1023 of the 4096 x 2 output array. So if,
  at each of those four points, entry (p, o) of the output block is G (1024 (t / 20) + p) o for one function G of
  the row and the column, then after the region the whole array is G: row r lies in the block written back at the
  point 20 (r / 1024) + 19, and the four blocks cover the 4096 rows.
-/
import proofs.«126539_j28192165331581_2_alg».proof.Proof.KI.R0Blocks

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- At a point of the last feature tile, the output block at any entry, from its values at entries named by their two
    coordinates. -/
theorem out_at (c : Dev nD) (G : Fin 4096 → Fin 2 → Elt F .f32)
    (hout : ∀ t : Fin cfg0.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (t : Fin cfg0.N) (h19 : t.val % 20 = 19) (y : S1024x2.Idx) :
    ((outsAt V c t.val t.isLt).1 : Vec F S1024x2 .f32) y
      = G ⟨1024 * (t.val / 20) + (y 0).val, by have := lt_80 t; have : (y 0).val < 1024 := (y 0).isLt; omega⟩ (y 1) := by
  obtain ⟨p, o, rfl⟩ : ∃ (p : Fin 1024) (o : Fin 2), y = ix2 p o := ⟨y 0, y 1, eq_ix2 y⟩
  exact hout t h19 p o

/-- What a point that writes back writes is its block of G. -/
theorem flushed_eq (c : Dev nD) (G : Fin 4096 → Fin 2 → Elt F .f32)
    (hout : ∀ t : Fin cfg0.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (t : Fin cfg0.N) (hf : (cfg0.win 5).flush t = true) :
    (dat V c).flushed 5 t
      = ((cfg0.win 5).blk t).view.read (Elt F) (fun j : S4096x2.Idx => G (j 0) (j 1)) := by
  have h19 : t.val % 20 = 19 := (flush0_5 t).mp hf
  obtain ⟨-, -, -, -, -, -, -, -, -, -, e0, e1⟩ := idx_facts t
  show (cfg0.win 5).cut (grid0.coords t) ((dat V c).after 5 t) = _
  rw [after_5]
  funext j
  rw [View.read_apply]
  refine (out_at V c G hout t h19 j).trans ?_
  have hr : (⟨1024 * (t.val / 20) + (j 0).val, by have := lt_80 t; have : (j 0).val < 1024 := (j 0).isLt; omega⟩ : Fin 4096)
      = ((((cfg0.win 5).blk t).view.emb j) 0 : Fin 4096) := Fin.ext (by
    show 1024 * (t.val / 20) + (j 0).val = win0_5.index t (0 : Fin 2) * 1024 + 1 * (j 0).val
    rw [e0]; omega)
  have ho : (j 1 : Fin 2) = ((((cfg0.win 5).blk t).view.emb j) 1 : Fin 2) := Fin.ext (by
    show (j 1).val = win0_5.index t (1 : Fin 2) * 2 + 1 * (j 1).val
    rw [e1]; omega)
  exact congrArg₂ G hr ho

/-- Every entry of the output array lies in the block some point writes back. -/
theorem cover (i : S4096x2.Idx) : ∃ t : Fin cfg0.N, (cfg0.win 5).flush t = true ∧ i ∈ ((cfg0.win 5).blk t).view.set := by
  have h0 : (i 0).val < 4096 := (i 0).isLt
  have h1 : (i 1).val < 2 := (i 1).isLt
  have hN : cfg0.N = 80 := N_0
  let t : Fin cfg0.N := ⟨20 * ((i 0).val / 1024) + 19, by omega⟩
  have ht : t.val = 20 * ((i 0).val / 1024) + 19 := rfl
  obtain ⟨-, -, -, -, -, -, -, -, -, -, e0, e1⟩ := idx_facts t
  refine ⟨t, (flush0_5 t).mpr (by rw [ht]; omega), ?_⟩
  show i ∈ ((View.whole main_v14).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 2 ≤ (i 1).val ∧ (i 1).val < win0_5.index t (1 : Fin 2) * 2 + 2
    rw [e1]; omega

/-- After the region the output array is G, entry by entry. -/
theorem arrAt_of_out (c : Dev nD) (G : Fin 4096 → Fin 2 → Elt F .f32)
    (hout : ∀ t : Fin cfg0.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (r : Fin 4096) (o : Fin 2) :
    ((dat V c).arrAt 5 cfg0.N : Vec F S4096x2 .f32) (ix2 r o) = G r o := by
  have hfinal : (dat V c).arrAt 5 cfg0.N = (fun j : S4096x2.Idx => G (j 0) (j 1)) :=
    (dat V c).arrAt_eq_of_cover 5 (fun j : S4096x2.Idx => G (j 0) (j 1)) (fun t hf => flushed_eq V c G hout t hf) cover
  rw [hfinal]

end Cert.KernelIdeal.R0

end
-- ==== Proof.Spec.lean ====
/-
  The mathematics both programs compute, stated once over matrices of extended reals indexed by literal
  Fin types, with no program in sight.

  Inputs: two batches of feature rows W, Bk (4096 x 20480), the piece-square weight P (2 x 20480), the
  accumulator weight A (128 x 20480) with its bias b (128) and the output layer L (2 x 128).

  The kernel's side: the two weights are stacked into ONE 256-row matrix wc (rows 0,1 = P, rows 2..129 = A,
  the rest zero); the 20480 features are cut into 20 tiles of 1024 columns and the product of a row with wc
  is accumulated tile after tile from zero (accUpTo); after the last tile the accumulator row acc yields
  sum_c acc c * sel c o  +  sum_c clip (acc c + biasRow c) * wl c o, where sel picks columns 0,1 (the
  piece-square part), biasRow and wl are b and the transpose of L moved to columns 2..129 and zero
  elsewhere, and clip x = min 1 (max 0 x). The result is the white branch minus the black branch.

  The reference's side: (W.P^T - Bk.P^T) + (clip (W.A^T + b).L^T - clip (Bk.A^T + b).L^T).
-/
import Idealize.ShloMosaic.PureOps.Ideal
import Idealize.ShloMosaic.Lib.ValueIdx

noncomputable section

open scoped BigOperators

namespace Cert.Spec

/-- A matrix of extended reals. -/
abbrev Mat (a b : ℕ) := Fin a → Fin b → EReal

/-- Column 1024 * k + f of a feature row: feature f of tile k. -/
def col (k : Fin 20) (f : Fin 1024) : Fin 20480 := ⟨1024 * k.val + f.val, by omega⟩

/-- The stacked weight: rows 0 and 1 are the piece-square weight, rows 2..129 the accumulator weight, rows
    130..255 zero. -/
def wc (P : Mat 2 20480) (A : Mat 128 20480) : Mat 256 20480 := fun c f =>
  if h : c.val < 2 then P ⟨c.val, h⟩ f
  else if h2 : c.val < 130 then A ⟨c.val - 2, by omega⟩ f else 0

/-- The bias moved to columns 2..129, zero elsewhere. -/
def biasRow (b : Fin 128 → EReal) : Fin 256 → EReal := fun c =>
  if h : 2 ≤ c.val ∧ c.val < 130 then b ⟨c.val - 2, by omega⟩ else 0

/-- The output layer transposed and moved to rows 2..129, zero elsewhere. -/
def wl (L : Mat 2 128) : Mat 256 2 := fun c o =>
  if h : 2 ≤ c.val ∧ c.val < 130 then L o ⟨c.val - 2, by omega⟩ else 0

/-- The 2 x 2 identity padded with zero rows to 256 x 2: it selects columns 0 and 1. -/
def sel : Mat 256 2 := fun c o => if c.val = o.val then 1 else 0

/-- The clipped rectifier: clamp to the interval [0, 1]. -/
def clip (x : EReal) : EReal := min 1 (max 0 x)

/-- One tile's contribution to entry (i, c) of the product of X with the stacked weight. -/
def blockDot (X : Mat 4096 20480) (Wc : Mat 256 20480) (i : Fin 4096) (c : Fin 256) (k : Fin 20) : EReal :=
  ∑ f : Fin 1024, X i (col k f) * Wc c (col k f)

/-- The accumulator entry (i, c) after the first n tiles, accumulated from zero in tile order. -/
def accUpTo (X : Mat 4096 20480) (Wc : Mat 256 20480) (i : Fin 4096) (c : Fin 256) : ℕ → EReal
  | 0 => 0
  | n + 1 => accUpTo X Wc i c n + (if h : n < 20 then blockDot X Wc i c ⟨n, h⟩ else 0)

/-- One branch of the kernel: the piece-square columns of the accumulator plus the output layer applied to the
    clipped, biased accumulator. -/
def branch (X : Mat 4096 20480) (P : Mat 2 20480) (A : Mat 128 20480) (b : Fin 128 → EReal) (L : Mat 2 128)
    (i : Fin 4096) (o : Fin 2) : EReal :=
  (∑ c : Fin 256, accUpTo X (wc P A) i c 20 * sel c o)
    + (∑ c : Fin 256, clip (accUpTo X (wc P A) i c 20 + biasRow b c) * wl L c o)

/-- What the kernel's program computes: the white branch minus the black branch. -/
def kernelOut (W Bk : Mat 4096 20480) (P : Mat 2 20480) (A : Mat 128 20480) (b : Fin 128 → EReal) (L : Mat 2 128)
    (i : Fin 4096) (o : Fin 2) : EReal :=
  branch W P A b L i o - branch Bk P A b L i o

/-- What the reference computes. -/
def refOut (W Bk : Mat 4096 20480) (P : Mat 2 20480) (A : Mat 128 20480) (b : Fin 128 → EReal) (L : Mat 2 128)
    (i : Fin 4096) (o : Fin 2) : EReal :=
  ((∑ f : Fin 20480, W i f * P o f) - (∑ f : Fin 20480, Bk i f * P o f))
    + ((∑ a : Fin 128, clip ((∑ f : Fin 20480, W i f * A a f) + b a) * L o a)
        - (∑ a : Fin 128, clip ((∑ f : Fin 20480, Bk i f * A a f) + b a) * L o a))

/-- Every entry of a matrix is a real number. -/
def RealMat {a b : ℕ} (M : Mat a b) : Prop := ∀ i j, ∃ r : ℝ, M i j = (r : EReal)
/-- Every entry of a vector is a real number. -/
def RealVec {a : ℕ} (v : Fin a → EReal) : Prop := ∀ i, ∃ r : ℝ, v i = (r : EReal)

end Cert.Spec

end
-- ==== Proof.KI.R0Payloads.lean ====
/-
  The kernel body's three stored values, entry by entry, over the extended reals.

  The reset stores the zero block. The accumulation stores, at entry (p, q) of the 1024 x 256 scratch, the old
  entry plus the sum over the 1024 features f of the tile of x (p, f) * w (q, f): a product of the input block
  with the transposed weight slice, accumulated into zero and then added; the roundings to the narrow format and
  the casts to the same shape are identities on extended reals. The emission stores, at entry (p, o) of the
  1024 x 2 output block, sum_q acc (p, q) * sel (q, o) + sum_q clip (acc (p, q) + bias (0, q)) * wl (q, o), where
  the bias row is broadcast over the 1024 rows and clip is the maximum with 0 followed by the minimum with 1.
-/
import proofs.«126539_j28192165331581_2_alg».proof.Proof.Gen.KernelIdeal.Skeleton
import proofs.«126539_j28192165331581_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R0

open Cert.KernelIdeal Cert.KernelIdeal.Gen
open Idealize.ShloMosaic Idealize.ShloMosaic.ValueIdx

/-! ### The two matrix products at an entry -/

/-- The accumulation's product: rows of the left operand against rows of the right operand. -/
abbrev dotAcc : DotDims S1024x1024 S256x1024 S1024x256 := dot_S1024x1024_S256x1024_S1024x256_1_1_0_0_n_n
/-- The emission's products: rows of the left operand against columns of the right operand. -/
abbrev dotOut : DotDims S1024x256 S256x2 S1024x2 := dot_S1024x256_S256x2_S1024x2_1_0_0_1_n_n

theorem lhs_acc_0 (i : S1024x256.Idx) (q : dotAcc.contr.Idx) : (dotAcc.lhsIdx i q 0).val = (i 0).val := by
  unfold DotDims.lhsIdx
  rw [dif_neg (show ¬(0 : Fin S1024x1024.rank) ∈ dotAcc.lhsBatch by decide), dif_pos (show (0 : Fin S1024x1024.rank) ∈ dotAcc.lhsNonContracting by decide)]
  rfl
theorem lhs_acc_1 (i : S1024x256.Idx) (q : dotAcc.contr.Idx) : (dotAcc.lhsIdx i q 1).val = (q ⟨0, by decide⟩).val :=
  dotAcc.lhsIdx_val_of_single rfl i q
theorem rhs_acc_0 (i : S1024x256.Idx) (q : dotAcc.contr.Idx) : (dotAcc.rhsIdx i q 0).val = (i 1).val := by
  unfold DotDims.rhsIdx
  rw [dif_neg (show ¬(0 : Fin S256x1024.rank) ∈ dotAcc.rhsBatch by decide), dif_pos (show (0 : Fin S256x1024.rank) ∈ dotAcc.rhsNonContracting by decide)]
  rfl
theorem rhs_acc_1 (i : S1024x256.Idx) (q : dotAcc.contr.Idx) : (dotAcc.rhsIdx i q 1).val = (q ⟨0, by decide⟩).val :=
  dotAcc.rhsIdx_val_of_single rfl i q

/-- Into the zero block, the accumulation's product at entry (p, q) is the sum over the 1024 features of the
    products of row p of the left operand and row q of the right operand. -/
theorem mmAcc_at {φ₁ φ₂ : FTy} (lhs : FVec Ideal S1024x1024 φ₁) (rhs : FVec Ideal S256x1024 φ₂) (p : Fin 1024) (q : Fin 256) :
    FloatOps.matmul dotAcc none lhs rhs (constant (F := Ideal) S1024x256 .f32 0x00000000#32) (ix2 p q)
      = ∑ f : Fin 1024, lhs (ix2 p f) * rhs (ix2 q f) := by
  rw [Ideal.matmul_constant_zero_apply, ← Equiv.sum_comp (ValueIdx.contrEquiv1 dotAcc 1024 rfl rfl).symm]
  refine Finset.sum_congr rfl fun k _ => ?_
  have hk := ValueIdx.contrEquiv1_symm_val dotAcc 1024 rfl rfl k
  have el : dotAcc.lhsIdx (ix2 p q) ((ValueIdx.contrEquiv1 dotAcc 1024 rfl rfl).symm k) = ix2 p k := funext fun a => Fin.ext (by
    match a with
    | ⟨0, _⟩ => exact lhs_acc_0 _ _
    | ⟨1, _⟩ => exact (lhs_acc_1 _ _).trans hk)
  have er : dotAcc.rhsIdx (ix2 p q) ((ValueIdx.contrEquiv1 dotAcc 1024 rfl rfl).symm k) = ix2 q k := funext fun a => Fin.ext (by
    match a with
    | ⟨0, _⟩ => exact rhs_acc_0 _ _
    | ⟨1, _⟩ => exact (rhs_acc_1 _ _).trans hk)
  rw [el, er]

theorem lhs_out_0 (i : S1024x2.Idx) (q : dotOut.contr.Idx) : (dotOut.lhsIdx i q 0).val = (i 0).val := by
  unfold DotDims.lhsIdx
  rw [dif_neg (show ¬(0 : Fin S1024x256.rank) ∈ dotOut.lhsBatch by decide), dif_pos (show (0 : Fin S1024x256.rank) ∈ dotOut.lhsNonContracting by decide)]
  rfl
theorem lhs_out_1 (i : S1024x2.Idx) (q : dotOut.contr.Idx) : (dotOut.lhsIdx i q 1).val = (q ⟨0, by decide⟩).val :=
  dotOut.lhsIdx_val_of_single rfl i q
theorem rhs_out_0 (i : S1024x2.Idx) (q : dotOut.contr.Idx) : (dotOut.rhsIdx i q 0).val = (q ⟨0, by decide⟩).val :=
  dotOut.rhsIdx_val_of_single rfl i q
theorem rhs_out_1 (i : S1024x2.Idx) (q : dotOut.contr.Idx) : (dotOut.rhsIdx i q 1).val = (i 1).val := by
  unfold DotDims.rhsIdx
  rw [dif_neg (show ¬(1 : Fin S256x2.rank) ∈ dotOut.rhsBatch by decide), dif_pos (show (1 : Fin S256x2.rank) ∈ dotOut.rhsNonContracting by decide)]
  rfl

/-- Into the zero block, the emission's product at entry (p, o) is the sum over the 256 accumulator columns of
    the products of row p of the left operand and column o of the right operand. -/
theorem mmOut_at {φ₁ φ₂ : FTy} (lhs : FVec Ideal S1024x256 φ₁) (rhs : FVec Ideal S256x2 φ₂) (p : Fin 1024) (o : Fin 2) :
    FloatOps.matmul dotOut none lhs rhs (constant (F := Ideal) S1024x2 .f32 0x00000000#32) (ix2 p o)
      = ∑ q : Fin 256, lhs (ix2 p q) * rhs (ix2 q o) := by
  rw [Ideal.matmul_constant_zero_apply, ← Equiv.sum_comp (ValueIdx.contrEquiv1 dotOut 256 rfl rfl).symm]
  refine Finset.sum_congr rfl fun k _ => ?_
  have hk := ValueIdx.contrEquiv1_symm_val dotOut 256 rfl rfl k
  have el : dotOut.lhsIdx (ix2 p o) ((ValueIdx.contrEquiv1 dotOut 256 rfl rfl).symm k) = ix2 p k := funext fun a => Fin.ext (by
    match a with
    | ⟨0, _⟩ => exact lhs_out_0 _ _
    | ⟨1, _⟩ => exact (lhs_out_1 _ _).trans hk)
  have er : dotOut.rhsIdx (ix2 p o) ((ValueIdx.contrEquiv1 dotOut 256 rfl rfl).symm k) = ix2 k o := funext fun a => Fin.ext (by
    match a with
    | ⟨0, _⟩ => exact (rhs_out_0 _ _).trans hk
    | ⟨1, _⟩ => exact rhs_out_1 _ _)
  rw [el, er]

/-! ### The three stored values at an entry -/

/-- The pattern with sign 0, exponent field 127 and fraction 0 denotes 2^23 * 2^(127 - 127 - 23) = 1. -/
theorem one_pattern : Ideal.ofBits .f32 0x3F800000#32 = (1 : EReal) := by
  simp [Ideal.ofBits, Ideal.ieee, -EReal.coe_mul]
  norm_num

/-- The reset stores zero at every entry. -/
theorem pay1_at (p : Fin 1024) (q : Fin 256) : k0_pay1 (F := Ideal) (ix2 p q) = 0 := by
  unfold k0_pay1
  rw [shapeCast_self]
  exact Ideal.ofBits_zero_f32

/-- The accumulation stores the old entry plus the tile's product entry. -/
theorem pay2_at (v6 : Vec Ideal S256x1024 .bf16) (v8 : Vec Ideal S1024x1024 .f32) (v10 : Vec Ideal S1024x256 .f32)
    (p : Fin 1024) (q : Fin 256) :
    k0_pay2 (F := Ideal) v6 v8 v10 (ix2 p q) = v10 (ix2 p q) + ∑ f : Fin 1024, v8 (ix2 p f) * v6 (ix2 q f) := by
  unfold k0_pay2
  rw [shapeCast_self, shapeCast_self]
  exact congrArg (v10 (ix2 p q) + ·) (mmAcc_at (truncf .bf16 v8 bitsLt_bf16_f32) v6 p q)

/-- The clipped, biased accumulator at entry (p, q): the bias row is read at q whatever the row p. -/
theorem clip_at (v19 : Vec Ideal S1024x256 .f32) (v20 : Vec Ideal S1x256 .f32) (p : Fin 1024) (q : Fin 256) :
    minimumf (broadcast S1024x256 (Scalar.ofBits (F := Ideal) .f32 0x3F800000#32))
        (maximumf (broadcast S1024x256 (Scalar.ofBits (F := Ideal) .f32 0x00000000#32))
          (addf v19 (broadcastTo S1024x256 v20 broadcasts_S1x256_S1024x256))) (ix2 p q)
      = Cert.Spec.clip (v19 (ix2 p q) + v20 (ix2 (0 : Fin 1) q)) := by
  show min (Ideal.ofBits .f32 0x3F800000#32) (max (Ideal.ofBits .f32 0x00000000#32)
    (v19 (ix2 p q) + broadcastTo S1024x256 v20 broadcasts_S1x256_S1024x256 (ix2 p q))) = _
  rw [one_pattern, Ideal.ofBits_zero_f32, broadcastTo_1b_ab_apply]
  rfl

/-- The emission stores the accumulator row times the second matrix plus the clipped, biased accumulator row
    times the first. -/
theorem pay3_at (v19 : Vec Ideal S1024x256 .f32) (v20 : Vec Ideal S1x256 .f32) (v29 v34 : Vec Ideal S256x2 .f32)
    (p : Fin 1024) (o : Fin 2) :
    k0_pay3 (F := Ideal) v19 v20 v29 v34 (ix2 p o)
      = (∑ q : Fin 256, v19 (ix2 p q) * v34 (ix2 q o))
        + (∑ q : Fin 256, Cert.Spec.clip (v19 (ix2 p q) + v20 (ix2 (0 : Fin 1) q)) * v29 (ix2 q o)) := by
  unfold k0_pay3
  rw [shapeCast_self, shapeCast_self, shapeCast_self]
  show FloatOps.matmul dotOut none _ _ _ (ix2 p o) + FloatOps.matmul dotOut none _ _ _ (ix2 p o) = _
  rw [mmOut_at, mmOut_at]
  refine congrArg ((∑ q : Fin 256, v19 (ix2 p q) * v34 (ix2 q o)) + ·) ?_
  exact Finset.sum_congr rfl fun q _ => congrArg (· * v29 (ix2 q o)) (clip_at v19 v20 p q)

end Cert.KernelIdeal.R0

end
-- ==== Proof.Spec2.lean ====
/-
  One branch of the kernel as a function of the five arrays the kernel region actually stages: the batch X, the
  stacked weight Wc, the padded bias row, the padded output layer Wl and the padded identity Sel. The kernel's
  branch of Spec.lean is this at the arrays the host glue builds from the program's arguments.
-/
import proofs.«126539_j28192165331581_2_alg».proof.Proof.Spec

noncomputable section

open scoped BigOperators

namespace Cert.Spec

/-- The two output columns of row i: the accumulator row times Sel, plus the clipped biased accumulator row times Wl. -/
def branchG (X : Mat 4096 20480) (Wc : Mat 256 20480) (bias : Fin 256 → EReal) (Wl Sel : Mat 256 2)
    (i : Fin 4096) (o : Fin 2) : EReal :=
  (∑ c : Fin 256, accUpTo X Wc i c 20 * Sel c o)
    + (∑ c : Fin 256, clip (accUpTo X Wc i c 20 + bias c) * Wl c o)

theorem branch_eq_branchG (X : Mat 4096 20480) (P : Mat 2 20480) (A : Mat 128 20480) (b : Fin 128 → EReal) (L : Mat 2 128)
    (i : Fin 4096) (o : Fin 2) : branch X P A b L i o = branchG X (wc P A) (biasRow b) (wl L) sel i o := rfl

end Cert.Spec

end
-- ==== Proof.KI.R0Value.lean ====
/-
  Region 0: the value of the accumulator scratch after every grid point, and of the output array after the region.

  Write X for the batch (4096 x 20480), Wc for the stacked weight (256 x 20480), and bias, Wl, Sel for the padded
  bias row and the two padded 256 x 2 matrices, all as the region finds them. Point t = 20 i + k works on batch
  tile i and feature tile k. Its input block is rows 1024 i .. 1024 i + 1023 and columns 1024 k .. 1024 k + 1023 of
  X, and the weight slice it loads is the same columns of Wc; so the accumulation adds to entry (p, q) of the
  scratch the contribution of tile k to entry (1024 i + p, q) of X . Wc^T.

  By induction on the point: after point t the scratch holds at (p, q) the accumulator of row 1024 i + p and
  column q after the tiles 0 .. k. At k = 0 the reset has put zero there and tile 0 is added. At k > 0 the point
  before is (i, k - 1), the same batch tile one feature tile behind, and tile k is added to what it left.

  At k = 19 the accumulator is complete (all twenty tiles) and the emission stores, at (p, o),
  sum_q acc q * Sel q o + sum_q clip (acc q + bias q) * Wl q o, which is the branch formula of the specification at
  row 1024 i + p. These are the only points whose output block is written back, and their blocks tile the output
  array; so the array ends holding the branch formula at every row.
-/
import proofs.«126539_j28192165331581_2_alg».proof.Proof.KI.R0Pieces
import proofs.«126539_j28192165331581_2_alg».proof.Proof.KI.R0Blocks
import proofs.«126539_j28192165331581_2_alg».proof.Proof.KI.R0Cover
import proofs.«126539_j28192165331581_2_alg».proof.Proof.KI.R0Payloads
import proofs.«126539_j28192165331581_2_alg».proof.Proof.Spec2
import Idealize.ShloMosaic.Lib.Pipeline.Value

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ### The five arrays the region stages, as matrices -/

/-- The batch of feature rows. -/
def matX (c : Dev nD) : Cert.Spec.Mat 4096 20480 := fun i f => (V c main_arg0 : S4096x20480.Idx → EReal) (ix2 i f)
/-- The stacked weight. -/
def matW (c : Dev nD) : Cert.Spec.Mat 256 20480 := fun q f => (V c main_v2 : S256x20480.Idx → EReal) (ix2 q f)
/-- The padded bias row. -/
def vecB (c : Dev nD) : Fin 256 → EReal := fun q => (V c main_v4 : S1x256.Idx → EReal) (ix2 (0 : Fin 1) q)
/-- The padded output layer. -/
def matL (c : Dev nD) : Cert.Spec.Mat 256 2 := fun q o => (V c main_v6 : S256x2.Idx → EReal) (ix2 q o)
/-- The padded identity. -/
def matS (c : Dev nD) : Cert.Spec.Mat 256 2 := fun q o => (V c main_v13 : S256x2.Idx → EReal) (ix2 q o)

/-! ### The cases at a point, as payloads of the point's blocks -/

/-- The weight slice and the input block of point t go into the accumulation payload. -/
abbrev accPay (c : Dev nD) (t : Fin cfg0.N) (xs : Vec Ideal S1024x256 .f32) : Vec Ideal S1024x256 .f32 :=
  k0_pay2 (View.ld (iblk V c 1 t) (wslice (grid0.coords t))) (iblk V c 0 t) xs

theorem soutA_at_eq (c : Dev nD) (t : Fin cfg0.N) (hc0 : cond_0 (grid0.coords t)) (hc1 : ¬cond_1 (grid0.coords t)) :
    soutA_at V c t hc0 hc1 = accPay V c t (k0_pay1 (F := Ideal)) :=
  sout_A_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)

theorem soutB_at_eq (c : Dev nD) (t : Fin cfg0.N) (hc0 : ¬cond_0 (grid0.coords t)) (hc1 : ¬cond_1 (grid0.coords t))
    (xs : Vec Ideal S1024x256 .f32) : soutB_at V c t hc0 hc1 xs = accPay V c t xs :=
  sout_B_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem soutC_at_eq (c : Dev nD) (t : Fin cfg0.N) (hc0 : ¬cond_0 (grid0.coords t)) (hc1 : cond_1 (grid0.coords t))
    (xs : Vec Ideal S1024x256 .f32) : soutC_at V c t hc0 hc1 xs = accPay V c t xs :=
  sout_C_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem outC_at_eq (c : Dev nD) (t : Fin cfg0.N) (hc0 : ¬cond_0 (grid0.coords t)) (hc1 : cond_1 (grid0.coords t))
    (xs : Vec Ideal S1024x256 .f32) :
    outC_at V c t hc0 hc1 xs = k0_pay3 (accPay V c t xs) (iblk V c 2 t) (iblk V c 3 t) (iblk V c 4 t) :=
  out_C_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-! ### What one point adds to an accumulator entry -/

/-- One more tile: the accumulator after k + 1 tiles is the accumulator after k tiles plus tile k's contribution. -/
theorem accUpTo_step (X : Cert.Spec.Mat 4096 20480) (W : Cert.Spec.Mat 256 20480) (r : Fin 4096) (q : Fin 256) (k : Fin 20) :
    Cert.Spec.accUpTo X W r q (k.val + 1) = Cert.Spec.accUpTo X W r q k.val + Cert.Spec.blockDot X W r q k := by
  rw [Cert.Spec.accUpTo, dif_pos k.isLt]

/-- At point t the accumulation payload adds, at entry (p, q), the contribution of feature tile t % 20 to entry
    (1024 (t / 20) + p, q) of the product of the batch with the stacked weight. -/
theorem accPay_at (c : Dev nD) (t : Fin cfg0.N) (xs : Vec Ideal S1024x256 .f32) (p : Fin 1024) (q : Fin 256)
    (r : Fin 4096) (k : Fin 20) (hr : r.val = 1024 * (t.val / 20) + p.val) (hk : k.val = t.val % 20) :
    accPay V c t xs (ix2 p q) = xs (ix2 p q) + Cert.Spec.blockDot (matX V c) (matW V c) r q k := by
  refine (pay2_at (View.ld (iblk V c 1 t) (wslice (grid0.coords t))) (iblk V c 0 t) xs p q).trans ?_
  refine congrArg (xs (ix2 p q) + ·) ?_
  unfold Cert.Spec.blockDot
  refine Finset.sum_congr rfl fun f _ => ?_
  rw [iblk0_apply V c t p f, wslice_ld_at (iblk V c 1 t) t q f, iblk1_apply V c t q]
  unfold matX matW
  refine congrArg₂ (· * ·) (congrArg (V c main_arg0 : S4096x20480.Idx → EReal) (funext fun a => ?_))
    (congrArg (V c main_v2 : S256x20480.Idx → EReal) (funext fun a => ?_))
  · match a with
    | ⟨0, _⟩ => exact Fin.ext hr.symm
    | ⟨1, _⟩ => exact Fin.ext (show 1024 * (t.val % 20) + f.val = 1024 * k.val + f.val by rw [hk])
  · match a with
    | ⟨0, _⟩ => rfl
    | ⟨1, _⟩ => exact Fin.ext (show 1024 * (t.val % 20) + f.val = 1024 * k.val + f.val by rw [hk])

/-! ### The scratch after each point, and the output block at the last feature tile -/

/-- After point n the scratch holds, at entry (p, q), the accumulator of row 1024 (n / 20) + p and column q after
    the first n % 20 + 1 feature tiles: by induction on the point. At a first tile the reset gives zero and the
    tile is added; at a later tile the tile is added onto what the point before left, which is in the same batch
    tile and one feature tile behind. -/
theorem scratch_after (c : Dev nD) : ∀ (n : ℕ) (hn : n < cfg0.N) (p : Fin 1024) (q : Fin 256) (r : Fin 4096),
    r.val = 1024 * (n / 20) + p.val →
    (outsAt V c n hn).2 (ix2 p q) = Cert.Spec.accUpTo (matX V c) (matW V c) r q (n % 20 + 1) := by
  intro n
  induction n using Nat.strong_induction_on with
  | _ n ih =>
    intro hn p q r hr
    have hk : (⟨n % 20, Nat.mod_lt _ (by decide)⟩ : Fin 20).val = (⟨n, hn⟩ : Fin cfg0.N).val % 20 := rfl
    refine Eq.trans ?_ (accUpTo_step (matX V c) (matW V c) r q ⟨n % 20, Nat.mod_lt _ (by decide)⟩).symm
    by_cases h0 : n % 20 = 0
    · have h1 : ¬n % 20 = 19 := by omega
      rw [outsAt_A V c ⟨n, hn⟩ h0 h1]
      dsimp only
      rw [soutA_at_eq V c ⟨n, hn⟩, accPay_at V c ⟨n, hn⟩ (k0_pay1 (F := Ideal)) p q r ⟨n % 20, Nat.mod_lt _ (by decide)⟩ hr hk, pay1_at]
      refine congrArg (· + Cert.Spec.blockDot (matX V c) (matW V c) r q ⟨n % 20, Nat.mod_lt _ (by decide)⟩) ?_
      show (0 : EReal) = Cert.Spec.accUpTo (matX V c) (matW V c) r q (n % 20)
      rw [h0]
      rfl
    · have hpos : 0 < n := Nat.pos_of_ne_zero (fun e => h0 (by rw [e]))
      have hr' : r.val = 1024 * ((n - 1) / 20) + p.val := by rw [hr]; omega
      have hstep : (n - 1) % 20 + 1 = n % 20 := by omega
      have hprev := ih (n - 1) (by omega) (Nat.lt_of_le_of_lt (Nat.sub_le _ _) hn) p q r hr'
      rw [hstep] at hprev
      by_cases h1 : n % 20 = 19
      · rw [outsAt_C V c ⟨n, hn⟩ h0 h1]
        dsimp only
        rw [soutC_at_eq V c ⟨n, hn⟩, accPay_at V c ⟨n, hn⟩ _ p q r ⟨n % 20, Nat.mod_lt _ (by decide)⟩ hr hk]
        exact congrArg (· + Cert.Spec.blockDot (matX V c) (matW V c) r q ⟨n % 20, Nat.mod_lt _ (by decide)⟩) hprev
      · rw [outsAt_B V c ⟨n, hn⟩ h0 h1]
        dsimp only
        rw [soutB_at_eq V c ⟨n, hn⟩, accPay_at V c ⟨n, hn⟩ _ p q r ⟨n % 20, Nat.mod_lt _ (by decide)⟩ hr hk]
        exact congrArg (· + Cert.Spec.blockDot (matX V c) (matW V c) r q ⟨n % 20, Nat.mod_lt _ (by decide)⟩) hprev

/-- At a last feature tile the accumulation payload holds the full accumulator row. -/
theorem accPay_last (c : Dev nD) (t : Fin cfg0.N) (h19 : t.val % 20 = 19) (p : Fin 1024) (q : Fin 256) (r : Fin 4096)
    (hr : r.val = 1024 * (t.val / 20) + p.val) :
    accPay V c t (outsAt V c (t.val - 1) (Nat.lt_of_le_of_lt (Nat.sub_le _ _) t.isLt)).2 (ix2 p q)
      = Cert.Spec.accUpTo (matX V c) (matW V c) r q 20 := by
  have h0 : ¬t.val % 20 = 0 := by omega
  have e := scratch_after V c t.val t.isLt p q r hr
  rw [outsAt_C V c t h0 h19] at e
  dsimp only at e
  rw [soutC_at_eq V c t, h19] at e
  exact e

/-- At a last feature tile the output block holds, at entry (p, o), the two output columns of row
    1024 (t / 20) + p: the accumulator row times the padded identity plus the clipped, biased accumulator row times
    the padded output layer. -/
theorem out_last (c : Dev nD) (t : Fin cfg0.N) (h19 : t.val % 20 = 19) (p : Fin 1024) (o : Fin 2) (r : Fin 4096)
    (hr : r.val = 1024 * (t.val / 20) + p.val) :
    (outsAt V c t.val t.isLt).1 (ix2 p o)
      = Cert.Spec.branchG (matX V c) (matW V c) (vecB V c) (matL V c) (matS V c) r o := by
  have h0 : ¬t.val % 20 = 0 := by omega
  rw [outsAt_C V c t h0 h19]
  dsimp only
  rw [outC_at_eq V c t,
    pay3_at (accPay V c t (outsAt V c (t.val - 1) (Nat.lt_of_le_of_lt (Nat.sub_le _ _) t.isLt)).2)
      (iblk V c 2 t) (iblk V c 3 t) (iblk V c 4 t) p o]
  unfold Cert.Spec.branchG
  refine congrArg₂ (· + ·) (Finset.sum_congr rfl fun q _ => ?_) (Finset.sum_congr rfl fun q _ => ?_)
  · rw [accPay_last V c t h19 p q r hr, iblk4_apply V c t q o]
    rfl
  · rw [accPay_last V c t h19 p q r hr, iblk2_apply V c t (0 : Fin 1) q, iblk3_apply V c t q o]
    rfl

/-! ### The output array after the region -/

/-- After the region the output array holds, at entry (r, o), the branch formula of row r and column o over the five
    staged arrays. -/
theorem arrAt_out_mat (c : Dev nD) (r : Fin 4096) (o : Fin 2) :
    ((dat V c).arrAt 5 cfg0.N : Vec Ideal S4096x2 .f32) (ix2 r o)
      = Cert.Spec.branchG (matX V c) (matW V c) (vecB V c) (matL V c) (matS V c) r o :=
  arrAt_of_out V c (fun r o => Cert.Spec.branchG (matX V c) (matW V c) (vecB V c) (matL V c) (matS V c) r o)
    (fun t h19 p o => out_last V c t h19 p o _ rfl) r o

/-- The same with the five matrices written out as reads of the staged arrays. -/
theorem arrAt_out (c : Dev nD) (r : Fin 4096) (o : Fin 2) :
    ((dat V c).arrAt 5 cfg0.N : Vec Ideal S4096x2 .f32) (ix2 r o)
      = Cert.Spec.branchG (fun i f => (V c main_arg0 : S4096x20480.Idx → EReal) (ix2 i f))
          (fun q f => (V c main_v2 : S256x20480.Idx → EReal) (ix2 q f))
          (fun q => (V c main_v4 : S1x256.Idx → EReal) (ix2 (0 : Fin 1) q))
          (fun q o => (V c main_v6 : S256x2.Idx → EReal) (ix2 q o))
          (fun q o => (V c main_v13 : S256x2.Idx → EReal) (ix2 q o)) r o :=
  arrAt_out_mat V c r o

end Cert.KernelIdeal.R0

end
-- ==== Proof.KI.R1Pieces.lean ====
/-
  Region 1: what each case of the kernel body leaves, as values.

  Every load and store of the body goes through a whole buffer, except the load of the stacked weight, which
  reads the 256 x 1024 part of it that belongs to the point's feature tile. So the pieces the run found read back
  as follows. The scratch after case A (reset, then accumulate) holds the accumulation payload over the zero block;
  after cases B and C it holds the accumulation payload over what the scratch held before. The output block after
  case C holds the emission payload of the scratch it has just written, the bias row and the two 256 x 2 matrices.
  All four statements hold for any arithmetic on the floats: nothing is computed here.
-/
import proofs.«126539_j28192165331581_2_alg».proof.Proof.KI.R1Frame
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets on both axes, however they are spelt. -/
theorem hz2 : (![0, 0] : Fin 2 → Nat) = fun _ => 0 := funext fun a => by fin_cases a <;> rfl

/-- The part of the stacked weight the body loads at a point: all 256 rows, the 1024 columns of the point's
    feature tile. -/
abbrev wslice (i : grid1.Coords) : Rect S256x20480 := Rect.unit (s := S256x20480) (k1_off1 i) S256x1024.size (k1_off1_inb i)

/-- Case A leaves in the scratch: the zero block plus the product of the input block with the weight slice. -/
theorem sout_A_eq (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : cond_0 i) (hc1 : ¬cond_1 i)
    (x0 : Vec F S1024x1024 .f32) (x1 : Vec F S256x20480 .bf16) (x2 : Vec F S1x256 .f32) (x3 : Vec F S256x2 .f32) (x4 : Vec F S256x2 .f32) :
    sout_A c i arg2 harg2 arg3 harg3 arg4 harg4 arg5 harg5 arg6 harg6 arg7 harg7 arg8 harg8 hc0 hc1 x0 x1 x2 x3 x4 = k1_pay2 (View.ld x1 (wslice i)) x0 k1_pay1 := by
  unfold sout_A
  rw [View.read_writes_eq_canon _ _ _ (scover_A c i arg2 harg2 arg3 harg3 arg4 harg4 arg5 harg5 arg6 harg6 arg7 harg7 arg8 harg8 hc0 hc1 x0 x1 x2 x3 x4)]
  unfold kernelRun_A
  dsimp only
  sl_unfold_run_names
  rw [View.canon_cons_unit_zero (S := S1024x256) hz2, View.readCov_unit_zero (S := S1024x256) _ hz2]
  simp only [View.readAt_eq_ld, harg2.read_unread, harg3.read_unread, View.ld_unit_zero (S := S1024x1024) hz2]

/-- Case B leaves in the scratch: what it held plus the product of the input block with the weight slice. -/
theorem sout_B_eq (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : ¬cond_1 i)
    (x0 : Vec F S1024x1024 .f32) (x1 : Vec F S256x20480 .bf16) (x2 : Vec F S1x256 .f32) (x3 : Vec F S256x2 .f32) (x4 : Vec F S256x2 .f32) (xs : Vec F S1024x256 .f32) :
    sout_B c i arg2 harg2 arg3 harg3 arg4 harg4 arg5 harg5 arg6 harg6 arg7 harg7 arg8 harg8 hc0 hc1 x0 x1 x2 x3 x4 xs = k1_pay2 (View.ld x1 (wslice i)) x0 xs := by
  unfold sout_B
  rw [View.read_writes_eq_canon _ _ _ (scover_B c i arg2 harg2 arg3 harg3 arg4 harg4 arg5 harg5 arg6 harg6 arg7 harg7 arg8 harg8 hc0 hc1 x0 x1 x2 x3 x4 xs)]
  unfold kernelRun_B
  dsimp only
  sl_unfold_run_names
  rw [View.canon_unit_zero (S := S1024x256) hz2]
  simp only [View.readAt_eq_ld, harg2.read_unread, harg3.read_unread, harg8.read_unread, View.ld_unit_zero (S := S1024x1024) hz2, View.ld_unit_zero (S := S1024x256) hz2]

/-- Case C leaves in the scratch the same as case B. -/
theorem sout_C_eq (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    sout_C c i arg2 harg2 arg3 harg3 arg4 harg4 arg5 harg5 arg6 harg6 arg7 harg7 arg8 harg8 hc0 hc1 x0 x1 x2 x3 x4 xs = k1_pay2 (View.ld x1 (wslice i)) x0 xs := by
  unfold sout_C
  rw [View.read_writes_eq_canon _ _ _ (scover_C c i arg2 harg2 arg3 harg3 arg4 harg4 arg5 harg5 arg6 harg6 arg7 harg7 arg8 harg8 hc0 hc1 x0 x1 x2 x3 x4 xs)]
  unfold kernelRun_C
  dsimp only
  sl_unfold_run_names
  rw [View.canon_unit_zero (S := S1024x256) hz2]
  simp only [View.readAt_eq_ld, harg2.read_unread, harg3.read_unread, harg8.read_unread, View.ld_unit_zero (S := S1024x1024) hz2, View.ld_unit_zero (S := S1024x256) hz2]

/-- Case C leaves in the output block: the two output columns computed from the accumulator it has just updated,
    the bias row and the two 256 x 2 matrices. -/
theorem out_C_eq (c : Dev nD) (i : grid1.Coords) (arg2 : Memref sig .tc .vmem S1024x1024 .f32) (harg2 : arg2.IsWhole) (arg3 : Memref sig .tc .vmem S256x20480 .bf16) (harg3 : arg3.IsWhole) (arg4 : Memref sig .tc .vmem S1x256 .f32) (harg4 : arg4.IsWhole) (arg5 : Memref sig .tc .vmem S256x2 .f32) (harg5 : arg5.IsWhole) (arg6 : Memref sig .tc .vmem S256x2 .f32) (harg6 : arg6.IsWhole) (arg7 : Memref sig .tc .vmem S1024x2 .f32) (harg7 : arg7.IsWhole) (arg8 : Memref sig .tc .vmem S1024x256 .f32) (harg8 : arg8.IsWhole) (hc0 : ¬cond_0 i) (hc1 : cond_1 i)
    (x0 : Vec F S1024x1024 .f32) (x1 : Vec F S256x20480 .bf16) (x2 : Vec F S1x256 .f32) (x3 : Vec F S256x2 .f32) (x4 : Vec F S256x2 .f32) (xs : Vec F S1024x256 .f32) :
    out_C c i arg2 harg2 arg3 harg3 arg4 harg4 arg5 harg5 arg6 harg6 arg7 harg7 arg8 harg8 hc0 hc1 x0 x1 x2 x3 x4 xs = k1_pay3 (k1_pay2 (View.ld x1 (wslice i)) x0 xs) x2 x3 x4 := by
  unfold out_C
  rw [View.read_writes_eq_canon _ _ _ (cover_C c i arg2 harg2 arg3 harg3 arg4 harg4 arg5 harg5 arg6 harg6 arg7 harg7 arg8 harg8 hc0 hc1 x0 x1 x2 x3 x4 xs)]
  unfold kernelRun_C
  dsimp only
  sl_unfold_run_names
  rw [View.canon_unit_zero (S := S1024x2) hz2, View.readCov_unit_zero (S := S1024x256) _ hz2]
  simp only [View.readAt_eq_ld, harg2.read_unread, harg3.read_unread, harg4.read_unread, harg5.read_unread, harg6.read_unread, harg8.read_unread,
    View.ld_unit_zero (S := S1024x1024) hz2, View.ld_unit_zero (S := S1024x256) hz2, View.ld_unit_zero (S := S1x256) hz2, View.ld_unit_zero (S := S256x2) hz2]

end Cert.KernelIdeal.R1

end
-- ==== Proof.KI.R1Blocks.lean ====
/-
  Region 1: the windows' blocks and the weight slice, read entry by entry.

  A grid point t has coordinates (t / 20, t % 20). The input window's block at t is the 1024 x 1024 tile of the
  batch of feature rows at tile row t / 20 and tile column t % 20: its entry (p, f) is the batch's entry
  (1024 (t / 20) + p, 1024 (t % 20) + f). The four small operands' windows hold their whole arrays at every point:
  a block's entry is the array's entry at the same place. The slice of the stacked weight the body loads at a point
  with feature tile k is columns 1024 k to 1024 k + 1023 of all 256 rows. In each case an element of a block sits in
  its array, on every axis, at the block's index times the block's extent plus the element's own coordinate, and the
  block indices are decided once over the 80 grid points.
-/
import proofs.«126539_j28192165331581_2_alg».proof.Proof.KI.R1Pieces
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The block indices, decided over the grid -/

/-- The input window's block index at point t is (t / 20, t % 20); the four small operands' is (0, 0); the output
    window's is (t / 20, 0). -/
theorem idx_facts : ∀ t : Fin cfg1.N,
    win1_0.index t (0 : Fin 2) = t.val / 20 ∧ win1_0.index t (1 : Fin 2) = t.val % 20
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 20 ∧ win1_5.index t (1 : Fin 2) = 0 :=
  (by decide +kernel : ∀ t : Fin grid1.N, _)

/-- The grid's coordinates of point t are (t / 20, t % 20). -/
theorem coords_facts : ∀ t : Fin cfg1.N, ((grid1.coords t) 0).val = t.val / 20 ∧ ((grid1.coords t) 1).val = t.val % 20 :=
  (by decide +kernel : ∀ t : Fin grid1.N, _)

/-- There are 80 grid points. -/
theorem lt_80 (t : Fin cfg1.N) : t.val < 80 := lt_of_lt_of_eq t.isLt (show cfg1.N = 80 from N_1)

/-! ## The blocks, entry by entry -/

/-- Entry (p, f) of the input block at point t is the batch's entry (1024 (t / 20) + p, 1024 (t % 20) + f). -/
theorem iblk0_apply (c : Dev nD) (t : Fin cfg1.N) (p f : Fin 1024) :
    (iblk V c 0 t : Vec F S1024x1024 .f32) (ix2 p f)
      = (V c main_arg1 : Vec F S4096x20480 .f32)
          (ix2 (⟨1024 * (t.val / 20) + p.val, by have := lt_80 t; omega⟩ : Fin 4096)
            (⟨1024 * (t.val % 20) + f.val, by omega⟩ : Fin 20480)) := by
  obtain ⟨e0, e1, -⟩ := idx_facts t
  unfold iblk
  rw [View.read_apply]
  show (V c main_arg1 : Vec F S4096x20480 .f32) _ = (V c main_arg1 : Vec F S4096x20480 .f32) _
  refine congrArg (V c main_arg1 : Vec F S4096x20480 .f32) (funext fun a => Fin.ext ?_)
  match a with
  | ⟨0, _⟩ => show win1_0.index t (0 : Fin 2) * 1024 + 1 * p.val = 1024 * (t.val / 20) + p.val; rw [e0]; omega
  | ⟨1, _⟩ => show win1_0.index t (1 : Fin 2) * 1024 + 1 * f.val = 1024 * (t.val % 20) + f.val; rw [e1]; omega

/-- The stacked weight's window holds the whole array at every point. -/
theorem iblk1_apply (c : Dev nD) (t : Fin cfg1.N) (q : Fin 256) (f : Fin 20480) :
    (iblk V c 1 t : Vec F S256x20480 .bf16) (ix2 q f) = (V c main_v2 : Vec F S256x20480 .bf16) (ix2 q f) := by
  obtain ⟨-, -, e0, e1, -⟩ := idx_facts t
  unfold iblk
  rw [View.read_apply]
  show (V c main_v2 : Vec F S256x20480 .bf16) _ = (V c main_v2 : Vec F S256x20480 .bf16) _
  refine congrArg (V c main_v2 : Vec F S256x20480 .bf16) (funext fun a => Fin.ext ?_)
  match a with
  | ⟨0, _⟩ => show win1_1.index t (0 : Fin 2) * 256 + 1 * q.val = q.val; rw [e0]; omega
  | ⟨1, _⟩ => show win1_1.index t (1 : Fin 2) * 20480 + 1 * f.val = f.val; rw [e1]; omega

/-- The bias row's window holds the whole array at every point. -/
theorem iblk2_apply (c : Dev nD) (t : Fin cfg1.N) (u : Fin 1) (q : Fin 256) :
    (iblk V c 2 t : Vec F S1x256 .f32) (ix2 u q) = (V c main_v4 : Vec F S1x256 .f32) (ix2 u q) := by
  obtain ⟨-, -, -, -, e0, e1, -⟩ := idx_facts t
  unfold iblk
  rw [View.read_apply]
  show (V c main_v4 : Vec F S1x256 .f32) _ = (V c main_v4 : Vec F S1x256 .f32) _
  refine congrArg (V c main_v4 : Vec F S1x256 .f32) (funext fun a => Fin.ext ?_)
  match a with
  | ⟨0, _⟩ => show win1_2.index t (0 : Fin 2) * 1 + 1 * u.val = u.val; rw [e0]; omega
  | ⟨1, _⟩ => show win1_2.index t (1 : Fin 2) * 256 + 1 * q.val = q.val; rw [e1]; omega

/-- The output layer's window holds the whole array at every point. -/
theorem iblk3_apply (c : Dev nD) (t : Fin cfg1.N) (q : Fin 256) (o : Fin 2) :
    (iblk V c 3 t : Vec F S256x2 .f32) (ix2 q o) = (V c main_v6 : Vec F S256x2 .f32) (ix2 q o) := by
  obtain ⟨-, -, -, -, -, -, e0, e1, -⟩ := idx_facts t
  unfold iblk
  rw [View.read_apply]
  show (V c main_v6 : Vec F S256x2 .f32) _ = (V c main_v6 : Vec F S256x2 .f32) _
  refine congrArg (V c main_v6 : Vec F S256x2 .f32) (funext fun a => Fin.ext ?_)
  match a with
  | ⟨0, _⟩ => show win1_3.index t (0 : Fin 2) * 256 + 1 * q.val = q.val; rw [e0]; omega
  | ⟨1, _⟩ => show win1_3.index t (1 : Fin 2) * 2 + 1 * o.val = o.val; rw [e1]; omega

/-- The selector's window holds the whole array at every point. -/
theorem iblk4_apply (c : Dev nD) (t : Fin cfg1.N) (q : Fin 256) (o : Fin 2) :
    (iblk V c 4 t : Vec F S256x2 .f32) (ix2 q o) = (V c main_v13 : Vec F S256x2 .f32) (ix2 q o) := by
  obtain ⟨-, -, -, -, -, -, -, -, e0, e1, -⟩ := idx_facts t
  unfold iblk
  rw [View.read_apply]
  show (V c main_v13 : Vec F S256x2 .f32) _ = (V c main_v13 : Vec F S256x2 .f32) _
  refine congrArg (V c main_v13 : Vec F S256x2 .f32) (funext fun a => Fin.ext ?_)
  match a with
  | ⟨0, _⟩ => show win1_4.index t (0 : Fin 2) * 256 + 1 * q.val = q.val; rw [e0]; omega
  | ⟨1, _⟩ => show win1_4.index t (1 : Fin 2) * 2 + 1 * o.val = o.val; rw [e1]; omega

/-! ## The weight slice, entry by entry -/

/-- Entry (q, f) of the slice loaded at a point with feature tile k = i 1 is the weight's entry (q, 1024 k + f). -/
theorem wslice_ld (x1 : Vec F S256x20480 .bf16) (i : grid1.Coords) (q : Fin 256) (f : Fin 1024) :
    (View.ld x1 (wslice i) : Vec F S256x1024 .bf16) (ix2 q f)
      = x1 (ix2 q (⟨1024 * (i 1).val + f.val, by have : (i 1).val < 20 := (i 1).isLt; omega⟩ : Fin 20480)) := by
  show x1 ((wslice i).idx (ix2 q f)) = _
  refine congrArg x1 (funext fun a => Fin.ext ?_)
  match a with
  | ⟨0, _⟩ =>
    show k1_off1 i (0 : Fin 2) + 1 * q.val = q.val
    rw [k1_off1_eq i]; show 0 + 1 * q.val = q.val; omega
  | ⟨1, _⟩ =>
    show k1_off1 i (1 : Fin 2) + 1 * f.val = 1024 * (i 1).val + f.val
    rw [k1_off1_eq i]; show 1024 * (i 1).val + 1 * f.val = 1024 * (i 1).val + f.val; omega

/-- The same at a grid point: feature tile t % 20. -/
theorem wslice_ld_at (x1 : Vec F S256x20480 .bf16) (t : Fin cfg1.N) (q : Fin 256) (f : Fin 1024) :
    (View.ld x1 (wslice (grid1.coords t)) : Vec F S256x1024 .bf16) (ix2 q f)
      = x1 (ix2 q (⟨1024 * (t.val % 20) + f.val, by omega⟩ : Fin 20480)) := by
  rw [wslice_ld x1 (grid1.coords t) q f]
  refine congrArg x1 (congrArg (ix2 q) (Fin.ext ?_))
  show 1024 * ((grid1.coords t) 1).val + f.val = 1024 * (t.val % 20) + f.val
  rw [(coords_facts t).2]

end Cert.KernelIdeal.R1

end
-- ==== Proof.KI.R1Cover.lean ====
/-
  Region 1: from the output blocks to the output array.

  The output window is written back exactly at the points whose feature tile is the last (t % 20 = 19); the block
  written back at such a point is rows 1024 (t / 20) to 1024 (t / 20) + 1023 of the 4096 x 2 output array. So if,
  at each of those four points, entry (p, o) of the output block is G (1024 (t / 20) + p) o for one function G of
  the row and the column, then after the region the whole array is G: row r lies in the block written back at the
  point 20 (r / 1024) + 19, and the four blocks cover the 4096 rows.
-/
import proofs.«126539_j28192165331581_2_alg».proof.Proof.KI.R1Blocks

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- At a point of the last feature tile, the output block at any entry, from its values at entries named by their two
    coordinates. -/
theorem out_at (c : Dev nD) (G : Fin 4096 → Fin 2 → Elt F .f32)
    (hout : ∀ t : Fin cfg1.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (t : Fin cfg1.N) (h19 : t.val % 20 = 19) (y : S1024x2.Idx) :
    ((outsAt V c t.val t.isLt).1 : Vec F S1024x2 .f32) y
      = G ⟨1024 * (t.val / 20) + (y 0).val, by have := lt_80 t; have : (y 0).val < 1024 := (y 0).isLt; omega⟩ (y 1) := by
  obtain ⟨p, o, rfl⟩ : ∃ (p : Fin 1024) (o : Fin 2), y = ix2 p o := ⟨y 0, y 1, eq_ix2 y⟩
  exact hout t h19 p o

/-- What a point that writes back writes is its block of G. -/
theorem flushed_eq (c : Dev nD) (G : Fin 4096 → Fin 2 → Elt F .f32)
    (hout : ∀ t : Fin cfg1.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (t : Fin cfg1.N) (hf : (cfg1.win 5).flush t = true) :
    (dat V c).flushed 5 t
      = ((cfg1.win 5).blk t).view.read (Elt F) (fun j : S4096x2.Idx => G (j 0) (j 1)) := by
  have h19 : t.val % 20 = 19 := (flush1_5 t).mp hf
  obtain ⟨-, -, -, -, -, -, -, -, -, -, e0, e1⟩ := idx_facts t
  show (cfg1.win 5).cut (grid1.coords t) ((dat V c).after 5 t) = _
  rw [after_5]
  funext j
  rw [View.read_apply]
  refine (out_at V c G hout t h19 j).trans ?_
  have hr : (⟨1024 * (t.val / 20) + (j 0).val, by have := lt_80 t; have : (j 0).val < 1024 := (j 0).isLt; omega⟩ : Fin 4096)
      = ((((cfg1.win 5).blk t).view.emb j) 0 : Fin 4096) := Fin.ext (by
    show 1024 * (t.val / 20) + (j 0).val = win1_5.index t (0 : Fin 2) * 1024 + 1 * (j 0).val
    rw [e0]; omega)
  have ho : (j 1 : Fin 2) = ((((cfg1.win 5).blk t).view.emb j) 1 : Fin 2) := Fin.ext (by
    show (j 1).val = win1_5.index t (1 : Fin 2) * 2 + 1 * (j 1).val
    rw [e1]; omega)
  exact congrArg₂ G hr ho

/-- Every entry of the output array lies in the block some point writes back. -/
theorem cover (i : S4096x2.Idx) : ∃ t : Fin cfg1.N, (cfg1.win 5).flush t = true ∧ i ∈ ((cfg1.win 5).blk t).view.set := by
  have h0 : (i 0).val < 4096 := (i 0).isLt
  have h1 : (i 1).val < 2 := (i 1).isLt
  have hN : cfg1.N = 80 := N_1
  let t : Fin cfg1.N := ⟨20 * ((i 0).val / 1024) + 19, by omega⟩
  have ht : t.val = 20 * ((i 0).val / 1024) + 19 := rfl
  obtain ⟨-, -, -, -, -, -, -, -, -, -, e0, e1⟩ := idx_facts t
  refine ⟨t, (flush1_5 t).mpr (by rw [ht]; omega), ?_⟩
  show i ∈ ((View.whole main_v15).slice (win1_5.rect t)).set
  rw [View.set_slice_whole, Rect.mem_set_unit]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 2 ≤ (i 1).val ∧ (i 1).val < win1_5.index t (1 : Fin 2) * 2 + 2
    rw [e1]; omega

/-- After the region the output array is G, entry by entry. -/
theorem arrAt_of_out (c : Dev nD) (G : Fin 4096 → Fin 2 → Elt F .f32)
    (hout : ∀ t : Fin cfg1.N, t.val % 20 = 19 → ∀ (p : Fin 1024) (o : Fin 2),
      ((outsAt V c t.val t.isLt).1 : Vec F S1024x2 .f32) (ix2 p o)
        = G ⟨1024 * (t.val / 20) + p.val, by have := lt_80 t; omega⟩ o)
    (r : Fin 4096) (o : Fin 2) :
    ((dat V c).arrAt 5 cfg1.N : Vec F S4096x2 .f32) (ix2 r o) = G r o := by
  have hfinal : (dat V c).arrAt 5 cfg1.N = (fun j : S4096x2.Idx => G (j 0) (j 1)) :=
    (dat V c).arrAt_eq_of_cover 5 (fun j : S4096x2.Idx => G (j 0) (j 1)) (fun t hf => flushed_eq V c G hout t hf) cover
  rw [hfinal]

end Cert.KernelIdeal.R1

end
-- ==== Proof.KI.R1Payloads.lean ====
/-
  The kernel body's three stored values, entry by entry, over the extended reals.

  The reset stores the zero block. The accumulation stores, at entry (p, q) of the 1024 x 256 scratch, the old
  entry plus the sum over the 1024 features f of the tile of x (p, f) * w (q, f): a product of the input block
  with the transposed weight slice, accumulated into zero and then added; the roundings to the narrow format and
  the casts to the same shape are identities on extended reals. The emission stores, at entry (p, o) of the
  1024 x 2 output block, sum_q acc (p, q) * sel (q, o) + sum_q clip (acc (p, q) + bias (0, q)) * wl (q, o), where
  the bias row is broadcast over the 1024 rows and clip is the maximum with 0 followed by the minimum with 1.
-/
import proofs.«126539_j28192165331581_2_alg».proof.Proof.Gen.KernelIdeal.Skeleton
import proofs.«126539_j28192165331581_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R1

open Cert.KernelIdeal Cert.KernelIdeal.Gen
open Idealize.ShloMosaic Idealize.ShloMosaic.ValueIdx

/-! ### The two matrix products at an entry -/

/-- The accumulation's product: rows of the left operand against rows of the right operand. -/
abbrev dotAcc : DotDims S1024x1024 S256x1024 S1024x256 := dot_S1024x1024_S256x1024_S1024x256_1_1_0_0_n_n
/-- The emission's products: rows of the left operand against columns of the right operand. -/
abbrev dotOut : DotDims S1024x256 S256x2 S1024x2 := dot_S1024x256_S256x2_S1024x2_1_0_0_1_n_n

theorem lhs_acc_0 (i : S1024x256.Idx) (q : dotAcc.contr.Idx) : (dotAcc.lhsIdx i q 0).val = (i 0).val := by
  unfold DotDims.lhsIdx
  rw [dif_neg (show ¬(0 : Fin S1024x1024.rank) ∈ dotAcc.lhsBatch by decide), dif_pos (show (0 : Fin S1024x1024.rank) ∈ dotAcc.lhsNonContracting by decide)]
  rfl
theorem lhs_acc_1 (i : S1024x256.Idx) (q : dotAcc.contr.Idx) : (dotAcc.lhsIdx i q 1).val = (q ⟨0, by decide⟩).val :=
  dotAcc.lhsIdx_val_of_single rfl i q
theorem rhs_acc_0 (i : S1024x256.Idx) (q : dotAcc.contr.Idx) : (dotAcc.rhsIdx i q 0).val = (i 1).val := by
  unfold DotDims.rhsIdx
  rw [dif_neg (show ¬(0 : Fin S256x1024.rank) ∈ dotAcc.rhsBatch by decide), dif_pos (show (0 : Fin S256x1024.rank) ∈ dotAcc.rhsNonContracting by decide)]
  rfl
theorem rhs_acc_1 (i : S1024x256.Idx) (q : dotAcc.contr.Idx) : (dotAcc.rhsIdx i q 1).val = (q ⟨0, by decide⟩).val :=
  dotAcc.rhsIdx_val_of_single rfl i q

/-- Into the zero block, the accumulation's product at entry (p, q) is the sum over the 1024 features of the
    products of row p of the left operand and row q of the right operand. -/
theorem mmAcc_at {φ₁ φ₂ : FTy} (lhs : FVec Ideal S1024x1024 φ₁) (rhs : FVec Ideal S256x1024 φ₂) (p : Fin 1024) (q : Fin 256) :
    FloatOps.matmul dotAcc none lhs rhs (constant (F := Ideal) S1024x256 .f32 0x00000000#32) (ix2 p q)
      = ∑ f : Fin 1024, lhs (ix2 p f) * rhs (ix2 q f) := by
  rw [Ideal.matmul_constant_zero_apply, ← Equiv.sum_comp (ValueIdx.contrEquiv1 dotAcc 1024 rfl rfl).symm]
  refine Finset.sum_congr rfl fun k _ => ?_
  have hk := ValueIdx.contrEquiv1_symm_val dotAcc 1024 rfl rfl k
  have el : dotAcc.lhsIdx (ix2 p q) ((ValueIdx.contrEquiv1 dotAcc 1024 rfl rfl).symm k) = ix2 p k := funext fun a => Fin.ext (by
    match a with
    | ⟨0, _⟩ => exact lhs_acc_0 _ _
    | ⟨1, _⟩ => exact (lhs_acc_1 _ _).trans hk)
  have er : dotAcc.rhsIdx (ix2 p q) ((ValueIdx.contrEquiv1 dotAcc 1024 rfl rfl).symm k) = ix2 q k := funext fun a => Fin.ext (by
    match a with
    | ⟨0, _⟩ => exact rhs_acc_0 _ _
    | ⟨1, _⟩ => exact (rhs_acc_1 _ _).trans hk)
  rw [el, er]

theorem lhs_out_0 (i : S1024x2.Idx) (q : dotOut.contr.Idx) : (dotOut.lhsIdx i q 0).val = (i 0).val := by
  unfold DotDims.lhsIdx
  rw [dif_neg (show ¬(0 : Fin S1024x256.rank) ∈ dotOut.lhsBatch by decide), dif_pos (show (0 : Fin S1024x256.rank) ∈ dotOut.lhsNonContracting by decide)]
  rfl
theorem lhs_out_1 (i : S1024x2.Idx) (q : dotOut.contr.Idx) : (dotOut.lhsIdx i q 1).val = (q ⟨0, by decide⟩).val :=
  dotOut.lhsIdx_val_of_single rfl i q
theorem rhs_out_0 (i : S1024x2.Idx) (q : dotOut.contr.Idx) : (dotOut.rhsIdx i q 0).val = (q ⟨0, by decide⟩).val :=
  dotOut.rhsIdx_val_of_single rfl i q
theorem rhs_out_1 (i : S1024x2.Idx) (q : dotOut.contr.Idx) : (dotOut.rhsIdx i q 1).val = (i 1).val := by
  unfold DotDims.rhsIdx
  rw [dif_neg (show ¬(1 : Fin S256x2.rank) ∈ dotOut.rhsBatch by decide), dif_pos (show (1 : Fin S256x2.rank) ∈ dotOut.rhsNonContracting by decide)]
  rfl

/-- Into the zero block, the emission's product at entry (p, o) is the sum over the 256 accumulator columns of
    the products of row p of the left operand and column o of the right operand. -/
theorem mmOut_at {φ₁ φ₂ : FTy} (lhs : FVec Ideal S1024x256 φ₁) (rhs : FVec Ideal S256x2 φ₂) (p : Fin 1024) (o : Fin 2) :
    FloatOps.matmul dotOut none lhs rhs (constant (F := Ideal) S1024x2 .f32 0x00000000#32) (ix2 p o)
      = ∑ q : Fin 256, lhs (ix2 p q) * rhs (ix2 q o) := by
  rw [Ideal.matmul_constant_zero_apply, ← Equiv.sum_comp (ValueIdx.contrEquiv1 dotOut 256 rfl rfl).symm]
  refine Finset.sum_congr rfl fun k _ => ?_
  have hk := ValueIdx.contrEquiv1_symm_val dotOut 256 rfl rfl k
  have el : dotOut.lhsIdx (ix2 p o) ((ValueIdx.contrEquiv1 dotOut 256 rfl rfl).symm k) = ix2 p k := funext fun a => Fin.ext (by
    match a with
    | ⟨0, _⟩ => exact lhs_out_0 _ _
    | ⟨1, _⟩ => exact (lhs_out_1 _ _).trans hk)
  have er : dotOut.rhsIdx (ix2 p o) ((ValueIdx.contrEquiv1 dotOut 256 rfl rfl).symm k) = ix2 k o := funext fun a => Fin.ext (by
    match a with
    | ⟨0, _⟩ => exact (rhs_out_0 _ _).trans hk
    | ⟨1, _⟩ => exact rhs_out_1 _ _)
  rw [el, er]

/-! ### The three stored values at an entry -/

/-- The pattern with sign 0, exponent field 127 and fraction 0 denotes 2^23 * 2^(127 - 127 - 23) = 1. -/
theorem one_pattern : Ideal.ofBits .f32 0x3F800000#32 = (1 : EReal) := by
  simp [Ideal.ofBits, Ideal.ieee, -EReal.coe_mul]
  norm_num

/-- The reset stores zero at every entry. -/
theorem pay1_at (p : Fin 1024) (q : Fin 256) : k1_pay1 (F := Ideal) (ix2 p q) = 0 := by
  unfold k1_pay1
  rw [shapeCast_self]
  exact Ideal.ofBits_zero_f32

/-- The accumulation stores the old entry plus the tile's product entry. -/
theorem pay2_at (v6 : Vec Ideal S256x1024 .bf16) (v8 : Vec Ideal S1024x1024 .f32) (v10 : Vec Ideal S1024x256 .f32)
    (p : Fin 1024) (q : Fin 256) :
    k1_pay2 (F := Ideal) v6 v8 v10 (ix2 p q) = v10 (ix2 p q) + ∑ f : Fin 1024, v8 (ix2 p f) * v6 (ix2 q f) := by
  unfold k1_pay2
  rw [shapeCast_self, shapeCast_self]
  exact congrArg (v10 (ix2 p q) + ·) (mmAcc_at (truncf .bf16 v8 bitsLt_bf16_f32) v6 p q)

/-- The clipped, biased accumulator at entry (p, q): the bias row is read at q whatever the row p. -/
theorem clip_at (v19 : Vec Ideal S1024x256 .f32) (v20 : Vec Ideal S1x256 .f32) (p : Fin 1024) (q : Fin 256) :
    minimumf (broadcast S1024x256 (Scalar.ofBits (F := Ideal) .f32 0x3F800000#32))
        (maximumf (broadcast S1024x256 (Scalar.ofBits (F := Ideal) .f32 0x00000000#32))
          (addf v19 (broadcastTo S1024x256 v20 broadcasts_S1x256_S1024x256))) (ix2 p q)
      = Cert.Spec.clip (v19 (ix2 p q) + v20 (ix2 (0 : Fin 1) q)) := by
  show min (Ideal.ofBits .f32 0x3F800000#32) (max (Ideal.ofBits .f32 0x00000000#32)
    (v19 (ix2 p q) + broadcastTo S1024x256 v20 broadcasts_S1x256_S1024x256 (ix2 p q))) = _
  rw [one_pattern, Ideal.ofBits_zero_f32, broadcastTo_1b_ab_apply]
  rfl

/-- The emission stores the accumulator row times the second matrix plus the clipped, biased accumulator row
    times the first. -/
theorem pay3_at (v19 : Vec Ideal S1024x256 .f32) (v20 : Vec Ideal S1x256 .f32) (v29 v34 : Vec Ideal S256x2 .f32)
    (p : Fin 1024) (o : Fin 2) :
    k1_pay3 (F := Ideal) v19 v20 v29 v34 (ix2 p o)
      = (∑ q : Fin 256, v19 (ix2 p q) * v34 (ix2 q o))
        + (∑ q : Fin 256, Cert.Spec.clip (v19 (ix2 p q) + v20 (ix2 (0 : Fin 1) q)) * v29 (ix2 q o)) := by
  unfold k1_pay3
  rw [shapeCast_self, shapeCast_self, shapeCast_self]
  show FloatOps.matmul dotOut none _ _ _ (ix2 p o) + FloatOps.matmul dotOut none _ _ _ (ix2 p o) = _
  rw [mmOut_at, mmOut_at]
  refine congrArg ((∑ q : Fin 256, v19 (ix2 p q) * v34 (ix2 q o)) + ·) ?_
  exact Finset.sum_congr rfl fun q _ => congrArg (· * v29 (ix2 q o)) (clip_at v19 v20 p q)

end Cert.KernelIdeal.R1

end
-- ==== Proof.KI.R1Value.lean ====
/-
  Region 1: the value of the accumulator scratch after every grid point, and of the output array after the region.

  Write X for the batch (4096 x 20480), Wc for the stacked weight (256 x 20480), and bias, Wl, Sel for the padded
  bias row and the two padded 256 x 2 matrices, all as the region finds them. Point t = 20 i + k works on batch
  tile i and feature tile k. Its input block is rows 1024 i .. 1024 i + 1023 and columns 1024 k .. 1024 k + 1023 of
  X, and the weight slice it loads is the same columns of Wc; so the accumulation adds to entry (p, q) of the
  scratch the contribution of tile k to entry (1024 i + p, q) of X . Wc^T.

  By induction on the point: after point t the scratch holds at (p, q) the accumulator of row 1024 i + p and
  column q after the tiles 0 .. k. At k = 0 the reset has put zero there and tile 0 is added. At k > 0 the point
  before is (i, k - 1), the same batch tile one feature tile behind, and tile k is added to what it left.

  At k = 19 the accumulator is complete (all twenty tiles) and the emission stores, at (p, o),
  sum_q acc q * Sel q o + sum_q clip (acc q + bias q) * Wl q o, which is the branch formula of the specification at
  row 1024 i + p. These are the only points whose output block is written back, and their blocks tile the output
  array; so the array ends holding the branch formula at every row.
-/
import proofs.«126539_j28192165331581_2_alg».proof.Proof.KI.R1Pieces
import proofs.«126539_j28192165331581_2_alg».proof.Proof.KI.R1Blocks
import proofs.«126539_j28192165331581_2_alg».proof.Proof.KI.R1Cover
import proofs.«126539_j28192165331581_2_alg».proof.Proof.KI.R1Payloads
import proofs.«126539_j28192165331581_2_alg».proof.Proof.Spec2
import Idealize.ShloMosaic.Lib.Pipeline.Value

set_option maxRecDepth 16384

noncomputable section

open scoped BigOperators

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ### The five arrays the region stages, as matrices -/

/-- The batch of feature rows. -/
def matX (c : Dev nD) : Cert.Spec.Mat 4096 20480 := fun i f => (V c main_arg1 : S4096x20480.Idx → EReal) (ix2 i f)
/-- The stacked weight. -/
def matW (c : Dev nD) : Cert.Spec.Mat 256 20480 := fun q f => (V c main_v2 : S256x20480.Idx → EReal) (ix2 q f)
/-- The padded bias row. -/
def vecB (c : Dev nD) : Fin 256 → EReal := fun q => (V c main_v4 : S1x256.Idx → EReal) (ix2 (0 : Fin 1) q)
/-- The padded output layer. -/
def matL (c : Dev nD) : Cert.Spec.Mat 256 2 := fun q o => (V c main_v6 : S256x2.Idx → EReal) (ix2 q o)
/-- The padded identity. -/
def matS (c : Dev nD) : Cert.Spec.Mat 256 2 := fun q o => (V c main_v13 : S256x2.Idx → EReal) (ix2 q o)

/-! ### The cases at a point, as payloads of the point's blocks -/

/-- The weight slice and the input block of point t go into the accumulation payload. -/
abbrev accPay (c : Dev nD) (t : Fin cfg1.N) (xs : Vec Ideal S1024x256 .f32) : Vec Ideal S1024x256 .f32 :=
  k1_pay2 (View.ld (iblk V c 1 t) (wslice (grid1.coords t))) (iblk V c 0 t) xs

theorem soutA_at_eq (c : Dev nD) (t : Fin cfg1.N) (hc0 : cond_0 (grid1.coords t)) (hc1 : ¬cond_1 (grid1.coords t)) :
    soutA_at V c t hc0 hc1 = accPay V c t (k1_pay1 (F := Ideal)) :=
  sout_A_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)

theorem soutB_at_eq (c : Dev nD) (t : Fin cfg1.N) (hc0 : ¬cond_0 (grid1.coords t)) (hc1 : ¬cond_1 (grid1.coords t))
    (xs : Vec Ideal S1024x256 .f32) : soutB_at V c t hc0 hc1 xs = accPay V c t xs :=
  sout_B_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem soutC_at_eq (c : Dev nD) (t : Fin cfg1.N) (hc0 : ¬cond_0 (grid1.coords t)) (hc1 : cond_1 (grid1.coords t))
    (xs : Vec Ideal S1024x256 .f32) : soutC_at V c t hc0 hc1 xs = accPay V c t xs :=
  sout_C_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem outC_at_eq (c : Dev nD) (t : Fin cfg1.N) (hc0 : ¬cond_0 (grid1.coords t)) (hc1 : cond_1 (grid1.coords t))
    (xs : Vec Ideal S1024x256 .f32) :
    outC_at V c t hc0 hc1 xs = k1_pay3 (accPay V c t xs) (iblk V c 2 t) (iblk V c 3 t) (iblk V c 4 t) :=
  out_C_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

/-! ### What one point adds to an accumulator entry -/

/-- One more tile: the accumulator after k + 1 tiles is the accumulator after k tiles plus tile k's contribution. -/
theorem accUpTo_step (X : Cert.Spec.Mat 4096 20480) (W : Cert.Spec.Mat 256 20480) (r : Fin 4096) (q : Fin 256) (k : Fin 20) :
    Cert.Spec.accUpTo X W r q (k.val + 1) = Cert.Spec.accUpTo X W r q k.val + Cert.Spec.blockDot X W r q k := by
  rw [Cert.Spec.accUpTo, dif_pos k.isLt]

/-- At point t the accumulation payload adds, at entry (p, q), the contribution of feature tile t % 20 to entry
    (1024 (t / 20) + p, q) of the product of the batch with the stacked weight. -/
theorem accPay_at (c : Dev nD) (t : Fin cfg1.N) (xs : Vec Ideal S1024x256 .f32) (p : Fin 1024) (q : Fin 256)
    (r : Fin 4096) (k : Fin 20) (hr : r.val = 1024 * (t.val / 20) + p.val) (hk : k.val = t.val % 20) :
    accPay V c t xs (ix2 p q) = xs (ix2 p q) + Cert.Spec.blockDot (matX V c) (matW V c) r q k := by
  refine (pay2_at (View.ld (iblk V c 1 t) (wslice (grid1.coords t))) (iblk V c 0 t) xs p q).trans ?_
  refine congrArg (xs (ix2 p q) + ·) ?_
  unfold Cert.Spec.blockDot
  refine Finset.sum_congr rfl fun f _ => ?_
  rw [iblk0_apply V c t p f, wslice_ld_at (iblk V c 1 t) t q f, iblk1_apply V c t q]
  unfold matX matW
  refine congrArg₂ (· * ·) (congrArg (V c main_arg1 : S4096x20480.Idx → EReal) (funext fun a => ?_))
    (congrArg (V c main_v2 : S256x20480.Idx → EReal) (funext fun a => ?_))
  · match a with
    | ⟨0, _⟩ => exact Fin.ext hr.symm
    | ⟨1, _⟩ => exact Fin.ext (show 1024 * (t.val % 20) + f.val = 1024 * k.val + f.val by rw [hk])
  · match a with
    | ⟨0, _⟩ => rfl
    | ⟨1, _⟩ => exact Fin.ext (show 1024 * (t.val % 20) + f.val = 1024 * k.val + f.val by rw [hk])

/-! ### The scratch after each point, and the output block at the last feature tile -/

/-- After point n the scratch holds, at entry (p, q), the accumulator of row 1024 (n / 20) + p and column q after
    the first n % 20 + 1 feature tiles: by induction on the point. At a first tile the reset gives zero and the
    tile is added; at a later tile the tile is added onto what the point before left, which is in the same batch
    tile and one feature tile behind. -/
theorem scratch_after (c : Dev nD) : ∀ (n : ℕ) (hn : n < cfg1.N) (p : Fin 1024) (q : Fin 256) (r : Fin 4096),
    r.val = 1024 * (n / 20) + p.val →
    (outsAt V c n hn).2 (ix2 p q) = Cert.Spec.accUpTo (matX V c) (matW V c) r q (n % 20 + 1) := by
  intro n
  induction n using Nat.strong_induction_on with
  | _ n ih =>
    intro hn p q r hr
    have hk : (⟨n % 20, Nat.mod_lt _ (by decide)⟩ : Fin 20).val = (⟨n, hn⟩ : Fin cfg1.N).val % 20 := rfl
    refine Eq.trans ?_ (accUpTo_step (matX V c) (matW V c) r q ⟨n % 20, Nat.mod_lt _ (by decide)⟩).symm
    by_cases h0 : n % 20 = 0
    · have h1 : ¬n % 20 = 19 := by omega
      rw [outsAt_A V c ⟨n, hn⟩ h0 h1]
      dsimp only
      rw [soutA_at_eq V c ⟨n, hn⟩, accPay_at V c ⟨n, hn⟩ (k1_pay1 (F := Ideal)) p q r ⟨n % 20, Nat.mod_lt _ (by decide)⟩ hr hk, pay1_at]
      refine congrArg (· + Cert.Spec.blockDot (matX V c) (matW V c) r q ⟨n % 20, Nat.mod_lt _ (by decide)⟩) ?_
      show (0 : EReal) = Cert.Spec.accUpTo (matX V c) (matW V c) r q (n % 20)
      rw [h0]
      rfl
    · have hpos : 0 < n := Nat.pos_of_ne_zero (fun e => h0 (by rw [e]))
      have hr' : r.val = 1024 * ((n - 1) / 20) + p.val := by rw [hr]; omega
      have hstep : (n - 1) % 20 + 1 = n % 20 := by omega
      have hprev := ih (n - 1) (by omega) (Nat.lt_of_le_of_lt (Nat.sub_le _ _) hn) p q r hr'
      rw [hstep] at hprev
      by_cases h1 : n % 20 = 19
      · rw [outsAt_C V c ⟨n, hn⟩ h0 h1]
        dsimp only
        rw [soutC_at_eq V c ⟨n, hn⟩, accPay_at V c ⟨n, hn⟩ _ p q r ⟨n % 20, Nat.mod_lt _ (by decide)⟩ hr hk]
        exact congrArg (· + Cert.Spec.blockDot (matX V c) (matW V c) r q ⟨n % 20, Nat.mod_lt _ (by decide)⟩) hprev
      · rw [outsAt_B V c ⟨n, hn⟩ h0 h1]
        dsimp only
        rw [soutB_at_eq V c ⟨n, hn⟩, accPay_at V c ⟨n, hn⟩ _ p q r ⟨n % 20, Nat.mod_lt _ (by decide)⟩ hr hk]
        exact congrArg (· + Cert.Spec.blockDot (matX V c) (matW V c) r q ⟨n % 20, Nat.mod_lt _ (by decide)⟩) hprev

/-- At a last feature tile the accumulation payload holds the full accumulator row. -/
theorem accPay_last (c : Dev nD) (t : Fin cfg1.N) (h19 : t.val % 20 = 19) (p : Fin 1024) (q : Fin 256) (r : Fin 4096)
    (hr : r.val = 1024 * (t.val / 20) + p.val) :
    accPay V c t (outsAt V c (t.val - 1) (Nat.lt_of_le_of_lt (Nat.sub_le _ _) t.isLt)).2 (ix2 p q)
      = Cert.Spec.accUpTo (matX V c) (matW V c) r q 20 := by
  have h0 : ¬t.val % 20 = 0 := by omega
  have e := scratch_after V c t.val t.isLt p q r hr
  rw [outsAt_C V c t h0 h19] at e
  dsimp only at e
  rw [soutC_at_eq V c t, h19] at e
  exact e

/-- At a last feature tile the output block holds, at entry (p, o), the two output columns of row
    1024 (t / 20) + p: the accumulator row times the padded identity plus the clipped, biased accumulator row times
    the padded output layer. -/
theorem out_last (c : Dev nD) (t : Fin cfg1.N) (h19 : t.val % 20 = 19) (p : Fin 1024) (o : Fin 2) (r : Fin 4096)
    (hr : r.val = 1024 * (t.val / 20) + p.val) :
    (outsAt V c t.val t.isLt).1 (ix2 p o)
      = Cert.Spec.branchG (matX V c) (matW V c) (vecB V c) (matL V c) (matS V c) r o := by
  have h0 : ¬t.val % 20 = 0 := by omega
  rw [outsAt_C V c t h0 h19]
  dsimp only
  rw [outC_at_eq V c t,
    pay3_at (accPay V c t (outsAt V c (t.val - 1) (Nat.lt_of_le_of_lt (Nat.sub_le _ _) t.isLt)).2)
      (iblk V c 2 t) (iblk V c 3 t) (iblk V c 4 t) p o]
  unfold Cert.Spec.branchG
  refine congrArg₂ (· + ·) (Finset.sum_congr rfl fun q _ => ?_) (Finset.sum_congr rfl fun q _ => ?_)
  · rw [accPay_last V c t h19 p q r hr, iblk4_apply V c t q o]
    rfl
  · rw [accPay_last V c t h19 p q r hr, iblk2_apply V c t (0 : Fin 1) q, iblk3_apply V c t q o]
    rfl

/-! ### The output array after the region -/

/-- After the region the output array holds, at entry (r, o), the branch formula of row r and column o over the five
    staged arrays. -/
theorem arrAt_out_mat (c : Dev nD) (r : Fin 4096) (o : Fin 2) :
    ((dat V c).arrAt 5 cfg1.N : Vec Ideal S4096x2 .f32) (ix2 r o)
      = Cert.Spec.branchG (matX V c) (matW V c) (vecB V c) (matL V c) (matS V c) r o :=
  arrAt_of_out V c (fun r o => Cert.Spec.branchG (matX V c) (matW V c) (vecB V c) (matL V c) (matS V c) r o)
    (fun t h19 p o => out_last V c t h19 p o _ rfl) r o

/-- The same with the five matrices written out as reads of the staged arrays. -/
theorem arrAt_out (c : Dev nD) (r : Fin 4096) (o : Fin 2) :
    ((dat V c).arrAt 5 cfg1.N : Vec Ideal S4096x2 .f32) (ix2 r o)
      = Cert.Spec.branchG (fun i f => (V c main_arg1 : S4096x20480.Idx → EReal) (ix2 i f))
          (fun q f => (V c main_v2 : S256x20480.Idx → EReal) (ix2 q f))
          (fun q => (V c main_v4 : S1x256.Idx → EReal) (ix2 (0 : Fin 1) q))
          (fun q o => (V c main_v6 : S256x2.Idx → EReal) (ix2 q o))
          (fun q o => (V c main_v13 : S256x2.Idx → EReal) (ix2 q o)) r o :=
  arrAt_out_mat V c r o

end Cert.KernelIdeal.R1

end
-- ==== Proof.HostVals.lean ====
/-
  What the host operations before the two kernel launches leave in the four small operand arrays, read entry by
  entry at the ideal instance, and what the host operation after them leaves in the result.

  The stacked weight is the two weight matrices placed one above the other (rows 0,1 the piece-square weight, rows
  2..129 the accumulator weight) followed by 126 rows of zeros; rounding to the narrower float type is the identity
  on extended reals. The bias row is the bias moved two columns to the right inside a row of 256 zeros. The output
  layer is transposed and moved two rows down inside 256 rows of zeros. The selector is the 2 x 2 identity (the
  comparison of a row counter with a column counter, read as 0 or 1) on top of 254 rows of zeros. The padding value
  is the integer 0 read as a real, which is 0. The two batches of feature rows are written by no operation. The
  result is the difference of what the two launches leave.
-/
import proofs.«126539_j28192165331581_2_alg».proof.Proof.Gen.KernelIdeal.Regions
import proofs.«126539_j28192165331581_2_alg».proof.Proof.Spec
import Idealize.ShloMosaic.Lib.ValueIdx
import Idealize.ShloMosaic.Lib.Pipeline.Value
import Idealize.ShloMosaic.Lib.StableHlo.Run
import Idealize.ShloMosaic.Lib.ValueLayout
import Idealize.ShloMosaic.Lib.KernelVsHost
import Idealize.ShloMosaic.Lib.IdealHost

noncomputable section

namespace Cert.KernelIdeal.HostVals

open Cert.KernelIdeal Cert.KernelIdeal.Gen Idealize.ShloMosaic Idealize.ShloMosaic.TcCoe Idealize.ShloMosaic.ValueIdx
open Idealize.ShloMosaic.StableHlo (after after_cons after_nil)

/-! ## The padding value -/

/-- The padding value of every pad here: the integer 0 read as a real is 0. -/
theorem padVal_apply (i : S_.Idx) : (sitofp .f32 (constantI S_ 32 0#32) : FVec Ideal S_ .f32) i = 0 := by
  show (((0#32 : BitVec 32).toInt : ℝ) : EReal) = 0
  rw [show (0#32 : BitVec 32).toInt = 0 by decide, Int.cast_zero, EReal.coe_zero]

/-! ## The four arrays as functions of their operands, read at an entry -/

/-- Two matrices of 2 and 128 rows stacked, then 126 rows of the padding value below, rounded to the narrower type:
    entry (r, f) is the first matrix's for r below 2, the second's at row r - 2 for r below 130, zero after. -/
theorem wc_read (P : FVec Ideal S2x20480 .f32) (A : FVec Ideal S128x20480 .f32) (r : Fin 256) (f : Fin 20480) :
    (truncf .bf16 (pad S256x20480 ![0, 0] ![126, 0] ![0, 0]
        (concatenate S130x20480 0 [⟨S2x20480, P⟩, ⟨S128x20480, A⟩] concatenates_S2x20480_S128x20480_S130x20480_d0)
        (sitofp .f32 (constantI S_ 32 0#32) : FVec Ideal S_ .f32) pads_S130x20480_S256x20480_01260_000 h_S_)
        bitsLt_bf16_f32 : FVec Ideal S256x20480 .bf16) (ix2 r f)
      = Cert.Spec.wc (fun o f => P (ix2 o f)) (fun a f => A (ix2 a f)) r f := by
  rw [truncf_apply]
  unfold Cert.Spec.wc
  by_cases h130 : r.val < 130
  · -- inside the stacked matrix: the pad reads it at the same entry
    rw [pad_apply_of_inside ![0, 0] ![126, 0] ![0, 0] _ _ pads_S130x20480_S256x20480_01260_000 h_S_ (ix2 r f)
      (ix2 (⟨r.val, h130⟩ : Fin 130) f) (fun a => match a with
        | ⟨0, _⟩ => by show r.val = 0 + r.val * (0 + 1); omega
        | ⟨1, _⟩ => by show f.val = 0 + f.val * (0 + 1); omega)]
    by_cases h2 : r.val < 2
    · rw [dif_pos h2]
      exact concatenate_pair_apply_left 0 P A concatenates_S2x20480_S128x20480_S130x20480_d0 _ rfl
        (ix2 (⟨r.val, h2⟩ : Fin 2) f) (fun b => match b with
          | ⟨0, _⟩ => rfl
          | ⟨1, _⟩ => rfl)
    · rw [dif_neg h2, dif_pos h130]
      exact concatenate_pair_apply_right 0 P A concatenates_S2x20480_S128x20480_S130x20480_d0 _ rfl rfl
        (ix2 (⟨r.val - 2, by omega⟩ : Fin 128) f) (fun b hb => match b with
          | ⟨0, _⟩ => absurd rfl hb
          | ⟨1, _⟩ => rfl)
        (by show r.val - 2 + 2 = r.val; omega)
  · -- below the stacked matrix: the padding value
    rw [pad_apply_of_not_inside (s := S130x20480) (t := S256x20480) ![0, 0] ![126, 0] ![0, 0] _ _ pads_S130x20480_S256x20480_01260_000 h_S_ (ix2 r f) 0
      (by show ¬(0 ≤ r.val ∧ (r.val - 0) % (0 + 1) = 0 ∧ (r.val - 0) / (0 + 1) < 130); omega)]
    rw [padVal_apply, dif_neg (by omega), dif_neg h130]

/-- A vector of 128 entries laid as one row, moved two columns right inside a row of 256 padding values: entry
    (0, q) is the vector's at q - 2 for q from 2 to 129, zero elsewhere. -/
theorem biasRow_read (b : FVec Ideal S128 .f32) (u : Fin 1) (q : Fin 256) :
    (pad S1x256 ![0, 2] ![0, 126] ![0, 0] (broadcastInDim S1x128 ![1] bcast_S128_S1x128_1 b)
        (sitofp .f32 (constantI S_ 32 0#32) : FVec Ideal S_ .f32) pads_S1x128_S1x256_000_21260 h_S_
        : FVec Ideal S1x256 .f32) (ix2 u q)
      = Cert.Spec.biasRow (fun a => b (ix1 a)) q := by
  unfold Cert.Spec.biasRow
  by_cases h : 2 ≤ q.val ∧ q.val < 130
  · rw [dif_pos h]
    rw [pad_apply_of_inside (s := S1x128) (t := S1x256) ![0, 2] ![0, 126] ![0, 0] _ _ pads_S1x128_S1x256_000_21260 h_S_
      (ix2 u q) (ix2 u (⟨q.val - 2, by omega⟩ : Fin 128)) (fun a => match a with
        | ⟨0, _⟩ => by show u.val = 0 + u.val * (0 + 1); omega
        | ⟨1, _⟩ => by show q.val = 2 + (q.val - 2) * (0 + 1); omega)]
    exact broadcastInDim_apply (s := S128) (t := S1x128) ![1] bcast_S128_S1x128_1 b _ (ix1 (⟨q.val - 2, by omega⟩ : Fin 128))
      (fun a => match a with
        | ⟨0, _⟩ => by show q.val - 2 = if (128 : ℕ) = 1 then 0 else q.val - 2; rw [if_neg (by decide)])
  · rw [dif_neg h]
    rw [pad_apply_of_not_inside (s := S1x128) (t := S1x256) ![0, 2] ![0, 126] ![0, 0] _ _ pads_S1x128_S1x256_000_21260 h_S_
      (ix2 u q) 1
      (by show ¬(2 ≤ q.val ∧ (q.val - 2) % (0 + 1) = 0 ∧ (q.val - 2) / (0 + 1) < 128); omega)]
    exact padVal_apply _

/-- A 2 x 128 matrix transposed and moved two rows down inside 256 rows of padding values: entry (q, o) is the
    matrix's at (o, q - 2) for q from 2 to 129, zero elsewhere. -/
theorem wl_read (L : FVec Ideal S2x128 .f32) (q : Fin 256) (o : Fin 2) :
    (pad S256x2 ![2, 0] ![126, 0] ![0, 0] (transpose S128x2 [1, 0] L transposes_S2x128_S128x2_1_0)
        (sitofp .f32 (constantI S_ 32 0#32) : FVec Ideal S_ .f32) pads_S128x2_S256x2_21260_000 h_S_
        : FVec Ideal S256x2 .f32) (ix2 q o)
      = Cert.Spec.wl (fun o a => L (ix2 o a)) q o := by
  unfold Cert.Spec.wl
  by_cases h : 2 ≤ q.val ∧ q.val < 130
  · rw [dif_pos h]
    rw [pad_apply_of_inside (s := S128x2) (t := S256x2) ![2, 0] ![126, 0] ![0, 0] _ _ pads_S128x2_S256x2_21260_000 h_S_
      (ix2 q o) (ix2 (⟨q.val - 2, by omega⟩ : Fin 128) o) (fun a => match a with
        | ⟨0, _⟩ => by show q.val = 2 + (q.val - 2) * (0 + 1); omega
        | ⟨1, _⟩ => by show o.val = 0 + o.val * (0 + 1); omega)]
    exact transpose_ix2_apply L transposes_S2x128_S128x2_1_0 _ _
  · rw [dif_neg h]
    rw [pad_apply_of_not_inside (s := S128x2) (t := S256x2) ![2, 0] ![126, 0] ![0, 0] _ _ pads_S128x2_S256x2_21260_000 h_S_
      (ix2 q o) 0
      (by show ¬(2 ≤ q.val ∧ (q.val - 2) % (0 + 1) = 0 ∧ (q.val - 2) / (0 + 1) < 128); omega)]
    exact padVal_apply _

/-- The comparison of a row counter with a column counter on a 2 x 2 grid, read as 0 or 1, on top of 254 rows of
    padding values: entry (q, o) is 1 when q = o and 0 otherwise. -/
theorem sel_read (q : Fin 256) (o : Fin 2) :
    (pad S256x2 ![0, 0] ![254, 0] ![0, 0]
        (uitofp .f32 (cmpi .eq (addi (iotaInDim S2x2 32 0) (broadcastInDim S2x2 ![] bcast_S_S2x2 (constantI S_ 32 0#32)))
          (iotaInDim S2x2 32 1)) : FVec Ideal S2x2 .f32)
        (sitofp .f32 (constantI S_ 32 0#32) : FVec Ideal S_ .f32) pads_S2x2_S256x2_02540_000 h_S_
        : FVec Ideal S256x2 .f32) (ix2 q o)
      = Cert.Spec.sel q o := by
  unfold Cert.Spec.sel
  by_cases h : q.val < 2
  · rw [pad_apply_of_inside (s := S2x2) (t := S256x2) ![0, 0] ![254, 0] ![0, 0] _ _ pads_S2x2_S256x2_02540_000 h_S_
      (ix2 q o) (ix2 (⟨q.val, h⟩ : Fin 2) o) (fun a => match a with
        | ⟨0, _⟩ => by show q.val = 0 + q.val * (0 + 1); omega
        | ⟨1, _⟩ => by show o.val = 0 + o.val * (0 + 1); omega)]
    -- the 2 x 2 block: the two counters are the coordinates as 32-bit words, the added constant is the word 0
    show (((BitVec.ofBool (BitVec.ofNat 32 q.val + 0#32 == BitVec.ofNat 32 o.val)).toNat : ℝ) : EReal)
      = if q.val = o.val then 1 else 0
    obtain ⟨qv, hq⟩ := q
    obtain ⟨ov, ho⟩ := o
    have hq2 : qv = 0 ∨ qv = 1 := by change qv < 2 at h; omega
    have ho2 : ov = 0 ∨ ov = 1 := by omega
    rcases hq2 with rfl | rfl <;> rcases ho2 with rfl | rfl <;> simp
  · rw [pad_apply_of_not_inside (s := S2x2) (t := S256x2) ![0, 0] ![254, 0] ![0, 0] _ _ pads_S2x2_S256x2_02540_000 h_S_
      (ix2 q o) 0
      (by show ¬(0 ≤ q.val ∧ (q.val - 0) % (0 + 1) = 0 ∧ (q.val - 0) / (0 + 1) < 2); omega)]
    rw [padVal_apply, if_neg (by have := o.isLt; omega)]

/-! ## The arrays the launches read, entry by entry -/

variable (m : (ℓ : Loc nD τ sig) → Buf (Elt Ideal) ℓ) (c : Dev nD)

/-- The stacked weight as the operations compose it. -/
theorem v2_term :
    (Gen.V8 (F := Ideal) m c main_v2 : FVec Ideal S256x20480 .bf16)
      = (truncf .bf16 (pad S256x20480 ![0, 0] ![126, 0] ![0, 0]
          (concatenate S130x20480 0 [⟨S2x20480, (m ((c : Thread nD τ).loc main_arg2) : FVec Ideal S2x20480 .f32)⟩,
            ⟨S128x20480, (m ((c : Thread nD τ).loc main_arg3) : FVec Ideal S128x20480 .f32)⟩]
            concatenates_S2x20480_S128x20480_S130x20480_d0)
          (sitofp .f32 (constantI S_ 32 0#32) : FVec Ideal S_ .f32) pads_S130x20480_S256x20480_01260_000 h_S_)
          bitsLt_bf16_f32 : FVec Ideal S256x20480 .bf16) := by
  rw [Gen.V8_of m c main_v2 (by decide), Gen.V7_of m c main_v2 (by decide), Gen.V6_of m c main_v2 (by decide),
    Gen.V5_of m c main_v2 (by decide), Gen.V4_of m c main_v2 (by decide)]
  dsimp only [Gen.V3, Gen.V2, Gen.V1, Gen.V0, Gen.hostOps0, Gen.hostOps0_1, Gen.hostOps0_2]
  after_results
  rfl

/-- The stacked weight the launches read is the specification's, over the two weight arguments as launched. -/
theorem v2_apply (r : Fin 256) (f : Fin 20480) :
    (Gen.V8 (F := Ideal) m c main_v2 : FVec Ideal S256x20480 .bf16) (ix2 r f)
      = Cert.Spec.wc (fun o f => (m ((c : Thread nD τ).loc main_arg2) : FVec Ideal S2x20480 .f32) (ix2 o f))
          (fun a f => (m ((c : Thread nD τ).loc main_arg3) : FVec Ideal S128x20480 .f32) (ix2 a f)) r f := by
  rw [v2_term m c]
  exact wc_read _ _ r f

/-- The padded bias row as the operations compose it. -/
theorem v4_term :
    (Gen.V8 (F := Ideal) m c main_v4 : FVec Ideal S1x256 .f32)
      = (pad S1x256 ![0, 2] ![0, 126] ![0, 0]
          (broadcastInDim S1x128 ![1] bcast_S128_S1x128_1 (m ((c : Thread nD τ).loc main_arg4) : FVec Ideal S128 .f32))
          (sitofp .f32 (constantI S_ 32 0#32) : FVec Ideal S_ .f32) pads_S1x128_S1x256_000_21260 h_S_
          : FVec Ideal S1x256 .f32) := by
  rw [Gen.V8_of m c main_v4 (by decide), Gen.V7_of m c main_v4 (by decide), Gen.V6_of m c main_v4 (by decide),
    Gen.V5_of m c main_v4 (by decide)]
  dsimp only [Gen.V4, Gen.V3, Gen.V2, Gen.V1, Gen.V0, Gen.hostOps0, Gen.hostOps0_1, Gen.hostOps0_2, Gen.hostOps0_3]
  after_results
  rfl

/-- The bias row the launches read is the specification's, over the bias argument as launched. -/
theorem v4_apply (u : Fin 1) (q : Fin 256) :
    (Gen.V8 (F := Ideal) m c main_v4 : FVec Ideal S1x256 .f32) (ix2 u q)
      = Cert.Spec.biasRow (fun a => (m ((c : Thread nD τ).loc main_arg4) : FVec Ideal S128 .f32) (ix1 a)) q := by
  rw [v4_term m c]
  exact biasRow_read _ u q

/-- The padded transposed output layer as the operations compose it. -/
theorem v6_term :
    (Gen.V8 (F := Ideal) m c main_v6 : FVec Ideal S256x2 .f32)
      = (pad S256x2 ![2, 0] ![126, 0] ![0, 0]
          (transpose S128x2 [1, 0] (m ((c : Thread nD τ).loc main_arg5) : FVec Ideal S2x128 .f32) transposes_S2x128_S128x2_1_0)
          (sitofp .f32 (constantI S_ 32 0#32) : FVec Ideal S_ .f32) pads_S128x2_S256x2_21260_000 h_S_
          : FVec Ideal S256x2 .f32) := by
  rw [Gen.V8_of m c main_v6 (by decide), Gen.V7_of m c main_v6 (by decide)]
  dsimp only [Gen.V6, Gen.V5, Gen.V4, Gen.V3, Gen.V2, Gen.V1, Gen.V0, Gen.hostOps0, Gen.hostOps0_1, Gen.hostOps0_2,
    Gen.hostOps0_3, Gen.hostOps0_4, Gen.hostOps0_5]
  after_results
  rfl

/-- The output layer the launches read is the specification's, over the output-layer argument as launched. -/
theorem v6_apply (q : Fin 256) (o : Fin 2) :
    (Gen.V8 (F := Ideal) m c main_v6 : FVec Ideal S256x2 .f32) (ix2 q o)
      = Cert.Spec.wl (fun o a => (m ((c : Thread nD τ).loc main_arg5) : FVec Ideal S2x128 .f32) (ix2 o a)) q o := by
  rw [v6_term m c]
  exact wl_read _ q o

/-- The padded identity as the operations compose it. -/
theorem v13_term :
    (Gen.V8 (F := Ideal) m c main_v13 : FVec Ideal S256x2 .f32)
      = (pad S256x2 ![0, 0] ![254, 0] ![0, 0]
          (uitofp .f32 (cmpi .eq (addi (iotaInDim S2x2 32 0) (broadcastInDim S2x2 ![] bcast_S_S2x2 (constantI S_ 32 0#32)))
            (iotaInDim S2x2 32 1)) : FVec Ideal S2x2 .f32)
          (sitofp .f32 (constantI S_ 32 0#32) : FVec Ideal S_ .f32) pads_S2x2_S256x2_02540_000 h_S_
          : FVec Ideal S256x2 .f32) := by
  dsimp only [Gen.V8, Gen.V7, Gen.V6, Gen.V5, Gen.V4, Gen.V3, Gen.V2, Gen.V1, Gen.V0, Gen.hostOps0, Gen.hostOps0_1,
    Gen.hostOps0_2, Gen.hostOps0_3, Gen.hostOps0_4, Gen.hostOps0_5, Gen.hostOps0_6, Gen.hostOps0_7]
  after_results
  rfl

/-- The selector the launches read is the specification's. -/
theorem v13_apply (q : Fin 256) (o : Fin 2) :
    (Gen.V8 (F := Ideal) m c main_v13 : FVec Ideal S256x2 .f32) (ix2 q o) = Cert.Spec.sel q o := by
  rw [v13_term m c]
  exact sel_read q o

/-! ## The two batches of feature rows are as launched -/

/-- No host operation before the launches writes the first batch. -/
theorem v8_arg0 : Gen.V8 (F := Ideal) m c main_arg0 = m ((c : Thread nD τ).loc main_arg0) :=
  (Gen.V8_of m c main_arg0 (by decide)).trans <| (Gen.V7_of m c main_arg0 (by decide)).trans <|
  (Gen.V6_of m c main_arg0 (by decide)).trans <| (Gen.V5_of m c main_arg0 (by decide)).trans <|
  (Gen.V4_of m c main_arg0 (by decide)).trans <| (Gen.V3_of m c main_arg0 (by decide)).trans <|
  (Gen.V2_of m c main_arg0 (by decide)).trans <| (Gen.V1_of m c main_arg0 (by decide)).trans rfl

/-- No host operation before the launches writes the second batch. -/
theorem v8_arg1 : Gen.V8 (F := Ideal) m c main_arg1 = m ((c : Thread nD τ).loc main_arg1) :=
  (Gen.V8_of m c main_arg1 (by decide)).trans <| (Gen.V7_of m c main_arg1 (by decide)).trans <|
  (Gen.V6_of m c main_arg1 (by decide)).trans <| (Gen.V5_of m c main_arg1 (by decide)).trans <|
  (Gen.V4_of m c main_arg1 (by decide)).trans <| (Gen.V3_of m c main_arg1 (by decide)).trans <|
  (Gen.V2_of m c main_arg1 (by decide)).trans <| (Gen.V1_of m c main_arg1 (by decide)).trans rfl

/-! ## The result: the first launch's output minus the second's -/

/-- The last host operation subtracts what the second launch leaves from what the first leaves. -/
theorem v11_out (outs : Gen.Outs (F := Ideal)) :
    (Gen.V11 (F := Ideal) m outs c main_v16 : FVec Ideal S4096x2 .f32)
      = (subf (outs 9 main_v14 c : FVec Ideal S4096x2 .f32) (outs 10 main_v15 c : FVec Ideal S4096x2 .f32)
          : FVec Ideal S4096x2 .f32) := by
  dsimp only [Gen.V11, Gen.hostOps2]
  after_results
  dsimp only [Gen.V10, Gen.V9]
  rw [Function.update_self,
    Function.update_of_ne (show (Proc.devRef .tc main_v14 : DevRef τ sig) ≠ Proc.devRef .tc main_v15 from
      StableHlo.devRef_ne_of_ne (by decide)),
    Function.update_self]

/-- The result read at an entry: the difference of the two launches' outputs there (the two outputs named as
    arrays of the result's shape). -/
theorem v11_out_apply (outs : Gen.Outs (F := Ideal)) (a b : FVec Ideal S4096x2 .f32)
    (ha : a = outs 9 main_v14 c) (hb : b = outs 10 main_v15 c) (j : S4096x2.Idx) :
    (Gen.V11 (F := Ideal) m outs c main_v16 : FVec Ideal S4096x2 .f32) j = a j - b j := by
  rw [v11_out m c outs, subf_apply, ha, hb]

end Cert.KernelIdeal.HostVals

end
-- ==== Proof.KI.KernelValue.lean ====
/-
  The kernel program's result at the ideal instance, entry by entry.

  Region 0 leaves in its output array the white branch, region 1 the black branch: each region's output array is
  the branch function of the five arrays the region stages (the region value modules), the four small operands
  are what the host operations built from the arguments (the stacked weight, the padded bias row, the padded
  transposed output layer, the padded identity), the batches are the arguments themselves, and region 0 changes
  none of the arrays region 1 stages. The closing host operation subtracts the two output arrays.
-/
import proofs.«126539_j28192165331581_2_alg».proof.Proof.KI.Run
import proofs.«126539_j28192165331581_2_alg».proof.Proof.KI.R0Value
import proofs.«126539_j28192165331581_2_alg».proof.Proof.KI.R1Value
import proofs.«126539_j28192165331581_2_alg».proof.Proof.HostVals
import proofs.«126539_j28192165331581_2_alg».proof.Proof.Spec2
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The program's arguments as matrices of extended reals. -/
abbrev mW : Cert.Spec.Mat 4096 20480 := fun i f => (m ((c : Thread nD τ).loc main_arg0) : FVec Ideal S4096x20480 .f32) (ix2 i f)
abbrev mBk : Cert.Spec.Mat 4096 20480 := fun i f => (m ((c : Thread nD τ).loc main_arg1) : FVec Ideal S4096x20480 .f32) (ix2 i f)
abbrev mP : Cert.Spec.Mat 2 20480 := fun o f => (m ((c : Thread nD τ).loc main_arg2) : FVec Ideal S2x20480 .f32) (ix2 o f)
abbrev mA : Cert.Spec.Mat 128 20480 := fun a f => (m ((c : Thread nD τ).loc main_arg3) : FVec Ideal S128x20480 .f32) (ix2 a f)
abbrev mb : Fin 128 → EReal := fun a => (m ((c : Thread nD τ).loc main_arg4) : FVec Ideal S128 .f32) (ix1 a)
abbrev mL : Cert.Spec.Mat 2 128 := fun o a => (m ((c : Thread nD τ).loc main_arg5) : FVec Ideal S2x128 .f32) (ix2 o a)

/-- Region 0 leaves its input windows' arrays as it found them. -/
theorem W9_in (w : Fin cfg0.W) (hw : (cfg0.win w).isOut = false) :
    Run.W9 m c (Proc.devRef .tc (Pipeline.arrRef spec0 w)) = Gen.V8 m c (Proc.devRef .tc (Pipeline.arrRef spec0 w)) :=
  (Run.W9_arr m c w).trans (((R0.dat (Run.E0 m) c).arrAt_in w hw _).trans (R0.A_eq (Run.E0 m) c w))

/-- The white branch: what region 0 leaves in its output array. -/
theorem out0_apply (r : Fin 4096) (o : Fin 2) :
    ((R0.dat (Run.E0 m) c).arrAt 5 cfg0.N) (ix2 r o) = Cert.Spec.branch (mW m c) (mP m c) (mA m c) (mb m c) (mL m c) r o := by
  have hX : (fun (i : Fin 4096) (f : Fin 20480) => Run.E0 m c main_arg0 (ix2 i f)) = mW m c := by
    funext i f; exact congrFun (HostVals.v8_arg0 m c) (ix2 i f)
  have hWc : (fun (q : Fin 256) (f : Fin 20480) => Run.E0 m c main_v2 (ix2 q f)) = Cert.Spec.wc (mP m c) (mA m c) := by
    funext q f; exact HostVals.v2_apply m c q f
  have hB : (fun (q : Fin 256) => Run.E0 m c main_v4 (ix2 (0 : Fin 1) q)) = Cert.Spec.biasRow (mb m c) := by
    funext q; exact HostVals.v4_apply m c 0 q
  have hWl : (fun (q : Fin 256) (o : Fin 2) => Run.E0 m c main_v6 (ix2 q o)) = Cert.Spec.wl (mL m c) := by
    funext q o; exact HostVals.v6_apply m c q o
  have hSel : (fun (q : Fin 256) (o : Fin 2) => Run.E0 m c main_v13 (ix2 q o)) = Cert.Spec.sel := by
    funext q o; exact HostVals.v13_apply m c q o
  rw [R0.arrAt_out (Run.E0 m) c r o, hX, hWc, hB, hWl, hSel, Cert.Spec.branch_eq_branchG]

/-- The black branch: what region 1 leaves in its output array; its operands are region 0's entry contents, which
    region 0 does not change. -/
theorem out1_apply (r : Fin 4096) (o : Fin 2) :
    ((R1.dat (Run.E1 m) c).arrAt 5 cfg1.N) (ix2 r o) = Cert.Spec.branch (mBk m c) (mP m c) (mA m c) (mb m c) (mL m c) r o := by
  have hX : (fun (i : Fin 4096) (f : Fin 20480) => Run.E1 m c main_arg1 (ix2 i f)) = mBk m c := by
    funext i f
    exact congrFun ((Run.W9_of_ne m c main_arg1 (by decide)).trans (HostVals.v8_arg1 m c)) (ix2 i f)
  have hWc : (fun (q : Fin 256) (f : Fin 20480) => Run.E1 m c main_v2 (ix2 q f)) = Cert.Spec.wc (mP m c) (mA m c) := by
    funext q f; exact (congrFun (W9_in m c 1 rfl) (ix2 q f)).trans (HostVals.v2_apply m c q f)
  have hB : (fun (q : Fin 256) => Run.E1 m c main_v4 (ix2 (0 : Fin 1) q)) = Cert.Spec.biasRow (mb m c) := by
    funext q; exact (congrFun (W9_in m c 2 rfl) (ix2 0 q)).trans (HostVals.v4_apply m c 0 q)
  have hWl : (fun (q : Fin 256) (o : Fin 2) => Run.E1 m c main_v6 (ix2 q o)) = Cert.Spec.wl (mL m c) := by
    funext q o; exact (congrFun (W9_in m c 3 rfl) (ix2 q o)).trans (HostVals.v6_apply m c q o)
  have hSel : (fun (q : Fin 256) (o : Fin 2) => Run.E1 m c main_v13 (ix2 q o)) = Cert.Spec.sel := by
    funext q o; exact (congrFun (W9_in m c 4 rfl) (ix2 q o)).trans (HostVals.v13_apply m c q o)
  rw [R1.arrAt_out (Run.E1 m) c r o, hX, hWc, hB, hWl, hSel, Cert.Spec.branch_eq_branchG]

/-- The closing subtraction: the result array is region 0's output array minus region 1's. -/
theorem W11_out :
    (Run.W11 (F := Ideal) m c main_v16 : FVec Ideal S4096x2 .f32)
      = (subf ((R0.dat (Run.E0 m) c).arrAt 5 cfg0.N : FVec Ideal S4096x2 .f32) ((R1.dat (Run.E1 m) c).arrAt 5 cfg1.N : FVec Ideal S4096x2 .f32)
          : FVec Ideal S4096x2 .f32) := by
  dsimp only [Run.W11, Gen.hostOps2]
  after_results
  rw [Run.W10_of_ne m c main_v14 (by decide), Run.W9_arr m c 5, Run.W10_arr m c 5]

/-- The program's result, entry by entry: the white branch minus the black branch. -/
theorem result_apply (r : Fin 4096) (o : Fin 2) :
    (Run.W11 (F := Ideal) m c main_v16 : FVec Ideal S4096x2 .f32) (ix2 r o)
      = Cert.Spec.kernelOut (mW m c) (mBk m c) (mP m c) (mA m c) (mb m c) (mL m c) r o := by
  rw [W11_out m c, subf_apply, out0_apply m c r o, out1_apply m c r o]
  rfl

end Cert.KernelIdeal.KernelValue

end
-- ==== Proof.Algebra.lean ====
/-
  The algebra between the kernel's formula and the reference's formula, over matrices of extended reals.

  1. Accumulating a row times the stacked weight tile after tile from zero gives the full dot product over
     all 20480 features: column 1024 * k + f is visited exactly once, as feature f of tile k, so the twenty
     partial sums add up to the sum over all columns. Only commutativity and associativity of addition are used.

  2. Multiplying the accumulator row by the padded 2 x 2 identity picks the accumulator at column o, and
     row o < 2 of the stacked weight is row o of the piece-square weight; multiplying the clipped, biased
     accumulator row by the padded output layer keeps only columns 2..129, and column a + 2 carries row a of
     the accumulator weight, entry a of the bias and column a of the output layer. So each branch is
         p + q,   p = sum_f X i f * P o f,   q = sum_a clip (sum_f X i f * A a f + b a) * L o a.

  3. The kernel returns (p + q) - (p' + q') and the reference (p - p') + (q - q'). For real numbers these
     agree; the four quantities are finite sums of products of reals (and the clip of a real is real), so
     under the hypothesis that all inputs are real the two outputs are equal.
-/
import proofs.«126539_j28192165331581_2_alg».proof.Proof.Spec

noncomputable section

open scoped BigOperators

namespace Cert.Spec

/-! ### Part 1: twenty tiles make the whole row -/

/-- A column number j is feature j % 1024 of tile j / 1024, and conversely. -/
def colEquiv : Fin 20 × Fin 1024 ≃ Fin 20480 where
  toFun p := col p.1 p.2
  invFun j := (⟨j.val / 1024, by omega⟩, ⟨j.val % 1024, by omega⟩)
  left_inv p := by
    rcases p with ⟨k, f⟩
    apply Prod.ext
    · apply Fin.ext
      show (1024 * k.val + f.val) / 1024 = k.val
      omega
    · apply Fin.ext
      show (1024 * k.val + f.val) % 1024 = f.val
      omega
  right_inv j := by
    apply Fin.ext
    show 1024 * (j.val / 1024) + j.val % 1024 = j.val
    omega

/-- Summing tile by tile, and inside each tile feature by feature, is summing over all columns. -/
theorem sum_tiles (g : Fin 20480 → EReal) :
    ∑ k : Fin 20, ∑ f : Fin 1024, g (col k f) = ∑ j : Fin 20480, g j := by
  rw [← Fintype.sum_prod_type' (fun k f => g (col k f))]
  exact Equiv.sum_comp colEquiv g

/-- The accumulator after n tiles is the sum of the first n tile contributions. -/
theorem accUpTo_eq_sum_range (X : Mat 4096 20480) (Wc : Mat 256 20480) (i : Fin 4096) (c : Fin 256) (n : ℕ) :
    accUpTo X Wc i c n
      = ∑ k ∈ Finset.range n, (if h : k < 20 then blockDot X Wc i c ⟨k, h⟩ else 0) := by
  induction n with
  | zero => simp [accUpTo]
  | succ n ih => rw [accUpTo, ih, Finset.sum_range_succ]

/-- After all twenty tiles the accumulator is the dot product of the row with the weight row. -/
theorem accUpTo_twenty (X : Mat 4096 20480) (Wc : Mat 256 20480) (i : Fin 4096) (c : Fin 256) :
    accUpTo X Wc i c 20 = ∑ f : Fin 20480, X i f * Wc c f := by
  rw [accUpTo_eq_sum_range,
    ← Fin.sum_univ_eq_sum_range (fun k => if h : k < 20 then blockDot X Wc i c ⟨k, h⟩ else 0) 20,
    ← sum_tiles (fun j => X i j * Wc c j)]
  apply Finset.sum_congr rfl
  intro k _
  rw [dif_pos k.isLt]
  rfl

/-! ### Part 2: what the two padded matrices select -/

/-- Multiplying by the padded identity and summing picks the entry at column o. -/
theorem sum_mul_sel (g : Fin 256 → EReal) (o : Fin 2) :
    ∑ c : Fin 256, g c * sel c o = g ⟨o.val, by omega⟩ := by
  rw [Finset.sum_eq_single (⟨o.val, by omega⟩ : Fin 256)]
  · simp [sel]
  · intro c _ hc
    have hne : c.val ≠ o.val := fun h => hc (Fin.ext h)
    simp [sel, hne]
  · intro h
    exact absurd (Finset.mem_univ _) h

/-- Accumulator column a + 2, the place where row a of the accumulator weight sits. -/
def shift (a : Fin 128) : Fin 256 := ⟨a.val + 2, by omega⟩

/-- Multiplying by the padded output layer and summing keeps only columns 2..129. -/
theorem sum_mul_wl (g : Fin 256 → EReal) (L : Mat 2 128) (o : Fin 2) :
    ∑ c : Fin 256, g c * wl L c o = ∑ a : Fin 128, g (shift a) * L o a := by
  symm
  apply Fintype.sum_of_injective shift
  · intro a a' h
    have hv : (shift a).val = (shift a').val := congrArg Fin.val h
    apply Fin.ext
    simp only [shift] at hv
    omega
  · intro c hc
    have hout : ¬ (2 ≤ c.val ∧ c.val < 130) := by
      intro h
      apply hc
      exact ⟨⟨c.val - 2, by omega⟩, Fin.ext (by simp only [shift]; omega)⟩
    simp [wl, hout]
  · intro a
    have hin : 2 ≤ (shift a).val ∧ (shift a).val < 130 := by
      simp only [shift]; omega
    simp only [wl, dif_pos hin]
    rfl

/-- Rows 0 and 1 of the stacked weight are the piece-square weight. -/
theorem wc_low (P : Mat 2 20480) (A : Mat 128 20480) (o : Fin 2) (f : Fin 20480) :
    wc P A ⟨o.val, by omega⟩ f = P o f := by
  simp only [wc, dif_pos o.isLt]

/-- Row a + 2 of the stacked weight is row a of the accumulator weight. -/
theorem wc_shift (P : Mat 2 20480) (A : Mat 128 20480) (a : Fin 128) (f : Fin 20480) :
    wc P A (shift a) f = A a f := by
  have h1 : ¬ (shift a).val < 2 := by simp only [shift]; omega
  have h2 : (shift a).val < 130 := by simp only [shift]; omega
  simp only [wc, dif_neg h1, dif_pos h2]
  rfl

/-- Entry a + 2 of the moved bias is entry a of the bias. -/
theorem biasRow_shift (b : Fin 128 → EReal) (a : Fin 128) : biasRow b (shift a) = b a := by
  have hin : 2 ≤ (shift a).val ∧ (shift a).val < 130 := by
    simp only [shift]; omega
  simp only [biasRow, dif_pos hin]
  rfl

/-- One branch of the kernel, written with the original weights. -/
theorem branch_eq (X : Mat 4096 20480) (P : Mat 2 20480) (A : Mat 128 20480) (b : Fin 128 → EReal)
    (L : Mat 2 128) (i : Fin 4096) (o : Fin 2) :
    branch X P A b L i o
      = (∑ f : Fin 20480, X i f * P o f)
        + ∑ a : Fin 128, clip ((∑ f : Fin 20480, X i f * A a f) + b a) * L o a := by
  unfold branch
  rw [sum_mul_sel, sum_mul_wl]
  simp only [accUpTo_twenty, wc_low, wc_shift, biasRow_shift]

/-! ### Part 3: the four quantities are real, and for reals the two groupings agree -/

/-- A finite sum of real numbers is a real number. -/
theorem real_sum {ι : Type} (s : Finset ι) (g : ι → EReal)
    (h : ∀ j ∈ s, ∃ r : ℝ, g j = (r : EReal)) : ∃ r : ℝ, ∑ j ∈ s, g j = (r : EReal) := by
  classical
  revert h
  refine Finset.induction_on s ?_ ?_
  · intro _
    exact ⟨0, by simp⟩
  · intro a s ha ih h
    obtain ⟨r1, h1⟩ := h a (Finset.mem_insert_self a s)
    obtain ⟨r2, h2⟩ := ih (fun j hj => h j (Finset.mem_insert_of_mem hj))
    exact ⟨r1 + r2, by rw [Finset.sum_insert ha, h1, h2, EReal.coe_add]⟩

/-- A product of two real numbers is a real number. -/
theorem real_mul {x y : EReal} (hx : ∃ r : ℝ, x = (r : EReal)) (hy : ∃ r : ℝ, y = (r : EReal)) :
    ∃ r : ℝ, x * y = (r : EReal) := by
  obtain ⟨r, rfl⟩ := hx
  obtain ⟨s, rfl⟩ := hy
  exact ⟨r * s, (EReal.coe_mul r s).symm⟩

/-- A sum of two real numbers is a real number. -/
theorem real_add {x y : EReal} (hx : ∃ r : ℝ, x = (r : EReal)) (hy : ∃ r : ℝ, y = (r : EReal)) :
    ∃ r : ℝ, x + y = (r : EReal) := by
  obtain ⟨r, rfl⟩ := hx
  obtain ⟨s, rfl⟩ := hy
  exact ⟨r + s, (EReal.coe_add r s).symm⟩

/-- The clip of a real number is a real number: the embedding of the reals is monotone, so it commutes with
    min and max. -/
theorem real_clip {x : EReal} (hx : ∃ r : ℝ, x = (r : EReal)) : ∃ r : ℝ, clip x = (r : EReal) := by
  obtain ⟨r, rfl⟩ := hx
  refine ⟨min 1 (max 0 r), ?_⟩
  have hmono : Monotone Real.toEReal := EReal.coe_strictMono.monotone
  unfold clip
  rw [hmono.map_min, hmono.map_max, EReal.coe_one, EReal.coe_zero]

/-- The dot product of a real row with a real weight row is real. -/
theorem real_dot {m : ℕ} (X : Mat 4096 20480) (Q : Mat m 20480) (hX : RealMat X) (hQ : RealMat Q)
    (i : Fin 4096) (c : Fin m) : ∃ r : ℝ, ∑ f : Fin 20480, X i f * Q c f = (r : EReal) :=
  real_sum _ _ (fun f _ => real_mul (hX i f) (hQ c f))

/-- The output layer applied to the clipped, biased accumulator is real. -/
theorem real_layer (X : Mat 4096 20480) (A : Mat 128 20480) (b : Fin 128 → EReal) (L : Mat 2 128)
    (hX : RealMat X) (hA : RealMat A) (hb : RealVec b) (hL : RealMat L) (i : Fin 4096) (o : Fin 2) :
    ∃ r : ℝ, ∑ a : Fin 128, clip ((∑ f : Fin 20480, X i f * A a f) + b a) * L o a = (r : EReal) :=
  real_sum _ _ (fun a _ => real_mul (real_clip (real_add (real_dot X A hX hA i a) (hb a))) (hL o a))

/-- For real numbers, (p + q) - (p' + q') = (p - p') + (q - q'). -/
theorem real_regroup {p q p' q' : EReal} (hp : ∃ r : ℝ, p = (r : EReal)) (hq : ∃ r : ℝ, q = (r : EReal))
    (hp' : ∃ r : ℝ, p' = (r : EReal)) (hq' : ∃ r : ℝ, q' = (r : EReal)) :
    (p + q) - (p' + q') = (p - p') + (q - q') := by
  obtain ⟨a, rfl⟩ := hp
  obtain ⟨b, rfl⟩ := hq
  obtain ⟨a', rfl⟩ := hp'
  obtain ⟨b', rfl⟩ := hq'
  rw [← EReal.coe_add, ← EReal.coe_add, ← EReal.coe_sub, ← EReal.coe_sub, ← EReal.coe_sub, ← EReal.coe_add]
  congr 1
  ring

/-- With real inputs the kernel's formula and the reference's formula agree entry by entry. -/
theorem kernelOut_eq_refOut (W Bk : Mat 4096 20480) (P : Mat 2 20480) (A : Mat 128 20480)
    (b : Fin 128 → EReal) (L : Mat 2 128) (hW : RealMat W) (hBk : RealMat Bk) (hP : RealMat P)
    (hA : RealMat A) (hb : RealVec b) (hL : RealMat L) (i : Fin 4096) (o : Fin 2) :
    kernelOut W Bk P A b L i o = refOut W Bk P A b L i o := by
  unfold kernelOut refOut
  rw [branch_eq, branch_eq]
  exact real_regroup (real_dot W P hW hP i o) (real_layer W A b L hW hA hb hL i o)
    (real_dot Bk P hBk hP i o) (real_layer Bk A b L hBk hA hb hL i o)

end Cert.Spec

end
-- ==== Proof.RefValue.lean ====
/-
  The reference, read entry by entry, is the reference's formula.

  The reference program computes, for the white rows W and the black rows Bk,
      (W.P^T - Bk.P^T) + (clip (W.A^T + b).L^T - clip (Bk.A^T + b).L^T),
  one operation at a time: four products with the 20480 features contracted, the bias row broadcast over the
  4096 rows and added, the clip as a maximum with the constant 0 followed by a minimum with the constant 1, two
  products with the 128 accumulator columns contracted, two subtractions and the final addition.

  At the output entry (i, o) each product is the sum over the contracted index of the products of the operands'
  entries: the left operand is read at row i and the contracted index, the right operand at row o (or row a) and
  the contracted index; the broadcast bias is read at a; the bit patterns of the two constants denote 0 and 1.
  Put together, entry (i, o) of the last stage is
      (sum_f W i f * P o f - sum_f Bk i f * P o f)
        + (sum_a clip (sum_f W i f * A a f + b a) * L o a - sum_a clip (sum_f Bk i f * A a f + b a) * L o a).
-/
import proofs.«126539_j28192165331581_2_alg».proof.Proof.Gen.ReferenceIdeal.Read
import proofs.«126539_j28192165331581_2_alg».proof.Proof.Spec

noncomputable section

open scoped BigOperators

namespace Cert.ReferenceIdeal.RefValue

open Cert.ReferenceIdeal Cert.ReferenceIdeal.Read Idealize.ShloMosaic Idealize.ShloMosaic.ValueIdx

/-! ### The two constants -/

/-- The all-zero pattern denotes 0. -/
theorem zero_pattern : Ideal.ofBits .f32 0x00000000#32 = (0 : EReal) := by
  simp [Ideal.ofBits, Ideal.ieee]

/-- Sign 0, exponent field 127, fraction 0 denotes 2^23 * 2^(127 - 127 - 23) = 1. -/
theorem one_pattern : Ideal.ofBits .f32 0x3F800000#32 = (1 : EReal) := by
  simp [Ideal.ofBits, Ideal.ieee, -EReal.coe_mul]
  norm_num

/-! ### Where each operation reads its operands, at an output entry given by its coordinates -/

theorem lidx_v0 (i : Fin 4096) (o : Fin 2) (k : Fin 20480) : lidx_main_v0 (ix2 i o) k = ix2 i k := by
  funext d
  match d with
  | ⟨0, _⟩ => rfl
  | ⟨1, _⟩ => rfl

theorem ridx_v0 (i : Fin 4096) (o : Fin 2) (k : Fin 20480) : ridx_main_v0 (ix2 i o) k = ix2 o k := by
  funext d
  match d with
  | ⟨0, _⟩ => rfl
  | ⟨1, _⟩ => rfl

theorem lidx_v1 (i : Fin 4096) (o : Fin 2) (k : Fin 20480) : lidx_main_v1 (ix2 i o) k = ix2 i k := by
  funext d
  match d with
  | ⟨0, _⟩ => rfl
  | ⟨1, _⟩ => rfl

theorem ridx_v1 (i : Fin 4096) (o : Fin 2) (k : Fin 20480) : ridx_main_v1 (ix2 i o) k = ix2 o k := by
  funext d
  match d with
  | ⟨0, _⟩ => rfl
  | ⟨1, _⟩ => rfl

theorem lidx_v3 (i : Fin 4096) (a : Fin 128) (k : Fin 20480) : lidx_main_v3 (ix2 i a) k = ix2 i k := by
  funext d
  match d with
  | ⟨0, _⟩ => rfl
  | ⟨1, _⟩ => rfl

theorem ridx_v3 (i : Fin 4096) (a : Fin 128) (k : Fin 20480) : ridx_main_v3 (ix2 i a) k = ix2 a k := by
  funext d
  match d with
  | ⟨0, _⟩ => rfl
  | ⟨1, _⟩ => rfl

theorem lidx_v8 (i : Fin 4096) (a : Fin 128) (k : Fin 20480) : lidx_main_v8 (ix2 i a) k = ix2 i k := by
  funext d
  match d with
  | ⟨0, _⟩ => rfl
  | ⟨1, _⟩ => rfl

theorem ridx_v8 (i : Fin 4096) (a : Fin 128) (k : Fin 20480) : ridx_main_v8 (ix2 i a) k = ix2 a k := by
  funext d
  match d with
  | ⟨0, _⟩ => rfl
  | ⟨1, _⟩ => rfl

theorem lidx_v13 (i : Fin 4096) (o : Fin 2) (k : Fin 128) : lidx_main_v13 (ix2 i o) k = ix2 i k := by
  funext d
  match d with
  | ⟨0, _⟩ => rfl
  | ⟨1, _⟩ => rfl

theorem ridx_v13 (i : Fin 4096) (o : Fin 2) (k : Fin 128) : ridx_main_v13 (ix2 i o) k = ix2 o k := by
  funext d
  match d with
  | ⟨0, _⟩ => rfl
  | ⟨1, _⟩ => rfl

theorem lidx_v14 (i : Fin 4096) (o : Fin 2) (k : Fin 128) : lidx_main_v14 (ix2 i o) k = ix2 i k := by
  funext d
  match d with
  | ⟨0, _⟩ => rfl
  | ⟨1, _⟩ => rfl

theorem ridx_v14 (i : Fin 4096) (o : Fin 2) (k : Fin 128) : ridx_main_v14 (ix2 i o) k = ix2 o k := by
  funext d
  match d with
  | ⟨0, _⟩ => rfl
  | ⟨1, _⟩ => rfl

/-- The bias broadcast to 1 x 128 and then to 4096 x 128 is read, at entry (i, a), at a. -/
theorem idx_v45 (i : Fin 4096) (a : Fin 128) : idx_main_v4 (idx_main_v5 (ix2 i a)) = ix1 a := by
  funext d
  match d with
  | ⟨0, _⟩ => rfl

theorem idx_v910 (i : Fin 4096) (a : Fin 128) : idx_main_v9 (idx_main_v10 (ix2 i a)) = ix1 a := by
  funext d
  match d with
  | ⟨0, _⟩ => rfl

/-! ### The stages -/

/-- White rows times the piece-square weight, at entry (i, o). -/
theorem v0_at (x0 : (⟨S4096x20480, .f32⟩ : BufTy).Contents (Elt Ideal))
    (x2 : (⟨S2x20480, .f32⟩ : BufTy).Contents (Elt Ideal)) (i : Fin 4096) (o : Fin 2) :
    val_main_v0 (F := Ideal) x0 x2 (ix2 i o) = ∑ f : Fin 20480, x0 (ix2 i f) * x2 (ix2 o f) := by
  rw [val_main_v0_apply]
  exact Finset.sum_congr rfl (fun k _ => by rw [lidx_v0, ridx_v0])

/-- Black rows times the piece-square weight, at entry (i, o). -/
theorem v1_at (x1 : (⟨S4096x20480, .f32⟩ : BufTy).Contents (Elt Ideal))
    (x2 : (⟨S2x20480, .f32⟩ : BufTy).Contents (Elt Ideal)) (i : Fin 4096) (o : Fin 2) :
    val_main_v1 (F := Ideal) x1 x2 (ix2 i o) = ∑ f : Fin 20480, x1 (ix2 i f) * x2 (ix2 o f) := by
  rw [val_main_v1_apply]
  exact Finset.sum_congr rfl (fun k _ => by rw [lidx_v1, ridx_v1])

/-- The clipped, biased accumulator of the white rows, at entry (i, a). -/
theorem v7_at (x0 : (⟨S4096x20480, .f32⟩ : BufTy).Contents (Elt Ideal))
    (x3 : (⟨S128x20480, .f32⟩ : BufTy).Contents (Elt Ideal)) (x4 : (⟨S128, .f32⟩ : BufTy).Contents (Elt Ideal))
    (i : Fin 4096) (a : Fin 128) :
    val_main_v7 (F := Ideal) x0 x3 x4 (ix2 i a)
      = Cert.Spec.clip ((∑ f : Fin 20480, x0 (ix2 i f) * x3 (ix2 a f)) + x4 (ix1 a)) := by
  rw [val_main_v7_apply, val_main_call0_v4_apply, val_main_call0_v3_apply, val_main_cst_0_apply,
    val_main_call0_v2_apply, val_main_call0_v1_apply, val_main_call0_v0_apply, val_main_cst_apply,
    val_main_v6_apply, val_main_v3_apply, val_main_v5_apply, val_main_v4_apply, idx_v45,
    Ideal.ofBits_def, Ideal.ofBits_def, one_pattern, zero_pattern]
  have e : ∑ k : Fin 20480, x0 (lidx_main_v3 (ix2 i a) k) * x3 (ridx_main_v3 (ix2 i a) k)
      = ∑ f : Fin 20480, x0 (ix2 i f) * x3 (ix2 a f) :=
    Finset.sum_congr rfl (fun k _ => by rw [lidx_v3, ridx_v3])
  rw [e]
  rfl

/-- The clipped, biased accumulator of the black rows, at entry (i, a). -/
theorem v12_at (x1 : (⟨S4096x20480, .f32⟩ : BufTy).Contents (Elt Ideal))
    (x3 : (⟨S128x20480, .f32⟩ : BufTy).Contents (Elt Ideal)) (x4 : (⟨S128, .f32⟩ : BufTy).Contents (Elt Ideal))
    (i : Fin 4096) (a : Fin 128) :
    val_main_v12 (F := Ideal) x1 x3 x4 (ix2 i a)
      = Cert.Spec.clip ((∑ f : Fin 20480, x1 (ix2 i f) * x3 (ix2 a f)) + x4 (ix1 a)) := by
  rw [val_main_v12_apply, val_main_call1_v4_apply, val_main_call1_v3_apply, val_main_cst_2_apply,
    val_main_call1_v2_apply, val_main_call1_v1_apply, val_main_call1_v0_apply, val_main_cst_1_apply,
    val_main_v11_apply, val_main_v8_apply, val_main_v10_apply, val_main_v9_apply, idx_v910,
    Ideal.ofBits_def, Ideal.ofBits_def, one_pattern, zero_pattern]
  have e : ∑ k : Fin 20480, x1 (lidx_main_v8 (ix2 i a) k) * x3 (ridx_main_v8 (ix2 i a) k)
      = ∑ f : Fin 20480, x1 (ix2 i f) * x3 (ix2 a f) :=
    Finset.sum_congr rfl (fun k _ => by rw [lidx_v8, ridx_v8])
  rw [e]
  rfl

/-- The output layer applied to the white rows' clipped accumulator, at entry (i, o). -/
theorem v13_at (x0 : (⟨S4096x20480, .f32⟩ : BufTy).Contents (Elt Ideal))
    (x3 : (⟨S128x20480, .f32⟩ : BufTy).Contents (Elt Ideal)) (x4 : (⟨S128, .f32⟩ : BufTy).Contents (Elt Ideal))
    (x5 : (⟨S2x128, .f32⟩ : BufTy).Contents (Elt Ideal)) (i : Fin 4096) (o : Fin 2) :
    val_main_v13 (F := Ideal) x0 x3 x4 x5 (ix2 i o)
      = ∑ a : Fin 128,
          Cert.Spec.clip ((∑ f : Fin 20480, x0 (ix2 i f) * x3 (ix2 a f)) + x4 (ix1 a)) * x5 (ix2 o a) := by
  rw [val_main_v13_apply]
  exact Finset.sum_congr rfl (fun k _ => by rw [lidx_v13, ridx_v13, v7_at])

/-- The output layer applied to the black rows' clipped accumulator, at entry (i, o). -/
theorem v14_at (x1 : (⟨S4096x20480, .f32⟩ : BufTy).Contents (Elt Ideal))
    (x3 : (⟨S128x20480, .f32⟩ : BufTy).Contents (Elt Ideal)) (x4 : (⟨S128, .f32⟩ : BufTy).Contents (Elt Ideal))
    (x5 : (⟨S2x128, .f32⟩ : BufTy).Contents (Elt Ideal)) (i : Fin 4096) (o : Fin 2) :
    val_main_v14 (F := Ideal) x1 x3 x4 x5 (ix2 i o)
      = ∑ a : Fin 128,
          Cert.Spec.clip ((∑ f : Fin 20480, x1 (ix2 i f) * x3 (ix2 a f)) + x4 (ix1 a)) * x5 (ix2 o a) := by
  rw [val_main_v14_apply]
  exact Finset.sum_congr rfl (fun k _ => by rw [lidx_v14, ridx_v14, v12_at])

/-- The reference's last stage, at entry (i, o), is the reference's formula on the inputs' entries. -/
theorem val_main_v16_eq_refOut (x0 x1 : (⟨S4096x20480, .f32⟩ : BufTy).Contents (Elt Ideal))
    (x2 : (⟨S2x20480, .f32⟩ : BufTy).Contents (Elt Ideal)) (x3 : (⟨S128x20480, .f32⟩ : BufTy).Contents (Elt Ideal))
    (x4 : (⟨S128, .f32⟩ : BufTy).Contents (Elt Ideal)) (x5 : (⟨S2x128, .f32⟩ : BufTy).Contents (Elt Ideal))
    (i : Fin 4096) (o : Fin 2) :
    Cert.ReferenceIdeal.Read.val_main_v16 (F := Ideal) x0 x1 x2 x3 x4 x5 (ix2 i o)
      = Cert.Spec.refOut (fun i f => x0 (ix2 i f)) (fun i f => x1 (ix2 i f)) (fun o f => x2 (ix2 o f))
          (fun a f => x3 (ix2 a f)) (fun a => x4 (ix1 a)) (fun o a => x5 (ix2 o a)) i o := by
  rw [val_main_v16_apply, val_main_v2_apply, val_main_v15_apply, v0_at, v1_at, v13_at, v14_at]
  rfl

end Cert.ReferenceIdeal.RefValue

end
-- ==== Proof.Finite.lean ====
/-
  From the precondition to real numbers.

  The precondition says, of each of the six inputs, that every entry x satisfies |x| < +infinity, where |x|
  is max x (-x) and +infinity is given by its bit pattern (all exponent bits set, no fraction bit); the six
  statements are joined by "and", and each is an "and" over all entries of the input.

  An extended real x with max x (-x) < +infinity is neither +infinity (then max x (-x) = +infinity) nor
  -infinity (then -x = +infinity), so it is a real number. Hence, when the precondition holds, every entry of
  every input is a real number.
-/
import proofs.«126539_j28192165331581_2_alg».proof.Pre_finite_inputs
import proofs.«126539_j28192165331581_2_alg».proof.Proof.Spec
import Idealize.ShloMosaic.Lib.ReduceAll

noncomputable section

namespace Cert.Finite

open Idealize.ShloMosaic Idealize.ShloMosaic.ValueIdx Cert.Pre_finite_inputs

/-- The pattern with all exponent bits set and no fraction bit denotes plus infinity. -/
theorem inf_pattern : Ideal.ofBits .f32 0x7F800000#32 = (⊤ : EReal) := by
  simp [Ideal.ofBits, Ideal.ieee]

/-- An extended real whose absolute value max x (-x) is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the comparison of |x| with the infinity pattern comes out true, x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_pattern] at h'
  unfold Ideal.cmp at h'
  apply real_of_abs_lt_top
  by_contra hn
  simp [hn] at h'

/-- There is only one index into an array with no axes. -/
instance : Subsingleton S_.Idx := ⟨fun a b => funext fun d => d.elim0⟩

variable [Facts]

/-- When the precondition holds, every entry of each of the six inputs is a real number. -/
theorem real_of_pre (a0 a1 : FVec Ideal S4096x20480 .f32) (a2 : FVec Ideal S2x20480 .f32)
    (a3 : FVec Ideal S128x20480 .f32) (a4 : FVec Ideal S128 .f32) (a5 : FVec Ideal S2x128 .f32)
    (h : Cert.Pre_finite_inputs.fn (F := Ideal) a0 a1 a2 a3 a4 a5 = fun _ => 1#1) :
    Cert.Spec.RealMat (fun i f => a0 (ix2 i f)) ∧ Cert.Spec.RealMat (fun i f => a1 (ix2 i f))
      ∧ Cert.Spec.RealMat (fun o f => a2 (ix2 o f)) ∧ Cert.Spec.RealMat (fun a f => a3 (ix2 a f))
      ∧ Cert.Spec.RealVec (fun a => a4 (ix1 a)) ∧ Cert.Spec.RealMat (fun o a => a5 (ix2 o a)) := by
  have h0 := congrFun h ix0
  dsimp only [fn, fn_part1] at h0
  simp only [Idealize.ShloMosaic.andi, IntOp.andi_eq_one] at h0
  obtain ⟨⟨⟨⟨⟨e0, e1⟩, e2⟩, e3⟩, e4⟩, e5⟩ := h0
  refine ⟨?_, ?_, ?_, ?_, ?_, ?_⟩
  · intro i f
    exact real_of_cmp _ (Host.reduce_andi_all _ _ _ _ ix0 e0 (ix2 i f))
  · intro i f
    exact real_of_cmp _ (Host.reduce_andi_all _ _ _ _ ix0 e1 (ix2 i f))
  · intro o f
    exact real_of_cmp _ (Host.reduce_andi_all _ _ _ _ ix0 e2 (ix2 o f))
  · intro a f
    exact real_of_cmp _ (Host.reduce_andi_all _ _ _ _ ix0 e3 (ix2 a f))
  · intro a
    exact real_of_cmp _ (Host.reduce_andi_all _ _ _ _ ix0 e4 (ix1 a))
  · intro o a
    exact real_of_cmp _ (Host.reduce_andi_all _ _ _ _ ix0 e5 (ix2 o a))

end Cert.Finite

end
-- ==== Proof.lean ====
/-
  The five claims of this certificate, assembled.

  The kernel program stacks the two weight matrices into one 256-row matrix, runs ONE accumulator kernel twice
  (on the white batch, then on the black batch: a 4 x 20 grid, the product with the stacked weight accumulated over
  20 feature tiles in a scratch, the bias / clip / output layer and the piece-square columns applied at the last
  tile) and subtracts the two results. The reference computes (W.P^T - Bk.P^T) + (clip(W.A^T + b).L^T -
  clip(Bk.A^T + b).L^T) with four whole matrix products.

  Frames: the two printed kernel programs (the word-level one and the idealized one) run to the end, fault
  nowhere and leave their arguments unchanged: the run of the eleven items of the program, each kernel region
  entered from what the item before it left (the Run modules, written once for any float instance). The
  reference has no kernel: its frame is its run with the result dropped.
  Preserves: the idealization rewrote nothing.
  Algebraic: at the ideal instance the kernel program's result is, entry by entry, the white branch minus the
  black branch of Spec.lean (the regions' output arrays read off their proof data, the host-built operands read
  at an index); the reference's result is refOut (its run read one operation at a time); and the two are equal
  for real inputs — regrouping the twenty tiles into one sum needs only that addition is commutative and
  associative, dropping the zero rows and columns only that zero annihilates, but
  (p + q) - (p' + q') = (p - p') + (q - q') needs the four quantities finite, which is where the precondition
  (every input finite) is used.
-/
import proofs.«126539_j28192165331581_2_alg».proof.Defs
import proofs.«126539_j28192165331581_2_alg».proof.Proof.Gen.Kernel
import proofs.«126539_j28192165331581_2_alg».proof.Proof.Gen.Kernel.Skeleton
import proofs.«126539_j28192165331581_2_alg».proof.Proof.Gen.Kernel.Launch
import proofs.«126539_j28192165331581_2_alg».proof.Proof.Gen.Kernel.Regions
import proofs.«126539_j28192165331581_2_alg».proof.Proof.Gen.Kernel.Points
import proofs.«126539_j28192165331581_2_alg».proof.Proof.Gen.KernelIdeal
import proofs.«126539_j28192165331581_2_alg».proof.Proof.Gen.KernelIdeal.Skeleton
import proofs.«126539_j28192165331581_2_alg».proof.Proof.Gen.KernelIdeal.Launch
import proofs.«126539_j28192165331581_2_alg».proof.Proof.Gen.KernelIdeal.Regions
import proofs.«126539_j28192165331581_2_alg».proof.Proof.Gen.KernelIdeal.Points
import proofs.«126539_j28192165331581_2_alg».proof.Proof.Gen.ReferenceIdeal
import proofs.«126539_j28192165331581_2_alg».proof.Proof.Gen.ReferenceIdeal.Run
import proofs.«126539_j28192165331581_2_alg».proof.Proof.Gen.ReferenceIdeal.Read
import proofs.«126539_j28192165331581_2_alg».proof.Proof.Gen.Pre_finite_inputs
import proofs.«126539_j28192165331581_2_alg».proof.Proof.KB.Run
import proofs.«126539_j28192165331581_2_alg».proof.Proof.KI.Run
import proofs.«126539_j28192165331581_2_alg».proof.Proof.KI.KernelValue
import proofs.«126539_j28192165331581_2_alg».proof.Proof.Algebra
import proofs.«126539_j28192165331581_2_alg».proof.Proof.RefValue
import proofs.«126539_j28192165331581_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the arguments in the result array. -/
theorem algebraic : Cert.algebraic_KernelIdeal_ReferenceIdeal := by
  intro m ρ m' ρ' hpre hagree
  refine ⟨fun c => (fun (j : Cert.KernelIdeal.S4096x2.Idx) =>
      Cert.Spec.refOut (Cert.KernelIdeal.KernelValue.mW m c) (Cert.KernelIdeal.KernelValue.mBk m c) (Cert.KernelIdeal.KernelValue.mP m c)
        (Cert.KernelIdeal.KernelValue.mA m c) (Cert.KernelIdeal.KernelValue.mb m c) (Cert.KernelIdeal.KernelValue.mL m c) (j 0) (j 1)
      : FVec Ideal Cert.KernelIdeal.S4096x2 .f32), ?_, ?_⟩
  · -- the kernel program: its result is the white branch minus the black branch, which for finite inputs is the reference's function
    refine (θ_run Cert.KernelIdeal.defs _ _).mono (fun r h c => ⟨(h c).1.trans ?_, (h c).2⟩) (Cert.KernelIdeal.Run.run (F := Ideal) m ρ)
    funext j
    obtain ⟨i, o, rfl⟩ : ∃ (i : Fin 4096) (o : Fin 2), j = ix2 i o := ⟨j 0, j 1, eq_ix2 j⟩
    obtain ⟨hW, hBk, hP, hA, hb, hL⟩ := Cert.Finite.real_of_pre _ _ _ _ _ _ (hpre c)
    exact (Cert.KernelIdeal.KernelValue.result_apply m c i o).trans (Cert.Spec.kernelOut_eq_refOut _ _ _ _ _ _ hW hBk hP hA hb hL i o)
  · -- the reference: its run's term is its last stage, which is refOut entry by entry; the two memories agree on the arguments
    refine (θ_run Cert.ReferenceIdeal.defs _ _).mono (fun r h c => ⟨(h c).1.trans ?_, (h c).2⟩) (Cert.ReferenceIdeal.Value.run (F := Ideal) m' ρ')
    rw [Cert.ReferenceIdeal.Read.val_main_v16_eq, (hagree c).1, (hagree c).2.1, (hagree c).2.2.1, (hagree c).2.2.2.1, (hagree c).2.2.2.2.1, (hagree c).2.2.2.2.2]
    funext j
    obtain ⟨i, o, rfl⟩ : ∃ (i : Fin 4096) (o : Fin 2), j = ix2 i o := ⟨j 0, j 1, eq_ix2 j⟩
    exact Cert.ReferenceIdeal.RefValue.val_main_v16_eq_refOut _ _ _ _ _ _ i o

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
